-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_49" .f32 0x3CA72F05#32 ((1 / 49 : ℝ) : EReal)
  ∧ IdealRules.named_const.Statement Cert.KernelIdeal.κ "inv_49" .f32 0x3CA72F05#32 ((1 / 49 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256x7x7 : Shape := ⟨4, ![4096, 256, 7, 7]⟩
abbrev S12288x256x7x7 : Shape := ⟨4, ![12288, 256, 7, 7]⟩
abbrev S256x512 : Shape := ⟨2, ![256, 512]⟩
abbrev S512x256 : Shape := ⟨2, ![512, 256]⟩
abbrev S_ : Shape := ⟨0, ![]⟩

class Facts : Prop where
  bcast_S_S4096x256x7x7 : S_.BroadcastsInDim S4096x256x7x7 (![] : Fin 0 → Fin S4096x256x7x7.rank)
  reducesTo_S4096x256x7x7_S_d0_1_2_3 : S4096x256x7x7.ReducesTo [0, 1, 2, 3] S_
  h_S_ : 0 < S_.numel
  bcast_S_S12288x256x7x7 : S_.BroadcastsInDim S12288x256x7x7 (![] : Fin 0 → Fin S12288x256x7x7.rank)
  reducesTo_S12288x256x7x7_S_d0_1_2_3 : S12288x256x7x7.ReducesTo [0, 1, 2, 3] S_
  bcast_S_S256x512 : S_.BroadcastsInDim S256x512 (![] : Fin 0 → Fin S256x512.rank)
  reducesTo_S256x512_S_d0_1 : S256x512.ReducesTo [0, 1] S_
  bcast_S_S512x256 : S_.BroadcastsInDim S512x256 (![] : Fin 0 → Fin S512x256.rank)
  reducesTo_S512x256_S_d0_1 : S512x256.ReducesTo [0, 1] S_

variable [Facts]

def fn_part2 {F : FTy → Type} [FloatOps F] (main_arg7 : FVec F S512x256 .f32) (main_arg8 : FVec F S256x512 .f32) (main_arg9 : FVec F S512x256 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256x512 .f32 := Host.absf main_arg8
  let main_cst_14 : FVec F S_ .f32 := constant S_ .f32 0x7F800000#32
  let main_v40 : FVec F S256x512 .f32 := broadcastInDim S256x512 ![] bcast_S_S256x512 main_cst_14
  let main_v41 : IVec S256x512 1 := cmpf .olt main_v39 main_v40
  let main_c_15 : IVec S_ 1 := constantI S_ 1 1#1
  let main_v42 : IVec S_ 1 := (fun x v => Host.reduce IntOp.andi x v reducesTo_S256x512_S_d0_1 h_S_) main_v41 main_c_15
  let main_v43 : IVec S_ 1 := andi main_v38 main_v42
  let main_v44 : FVec F S512x256 .f32 := Host.absf main_arg9
  let main_cst_16 : FVec F S_ .f32 := constant S_ .f32 0x7F800000#32
  let main_v45 : FVec F S512x256 .f32 := broadcastInDim S512x256 ![] bcast_S_S512x256 main_cst_16
  let main_v46 : IVec S512x256 1 := cmpf .olt main_v44 main_v45
  let main_c_17 : IVec S_ 1 := constantI S_ 1 1#1
  let main_v47 : IVec S_ 1 := (fun x v => Host.reduce IntOp.andi x v reducesTo_S512x256_S_d0_1 h_S_) main_v46 main_c_17
  let main_v48 : IVec S_ 1 := andi main_v43 main_v47
  main_v48

def fn_part1 {F : FTy → Type} [FloatOps F] (main_arg4 : FVec F S256x512 .f32) (main_arg5 : FVec F S512x256 .f32) (main_arg6 : FVec F S256x512 .f32) (main_arg7 : FVec F S512x256 .f32) (main_arg8 : FVec F S256x512 .f32) (main_arg9 : FVec F S512x256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256x512 .f32 := Host.absf main_arg6
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x256x7x7 .f32) (main_arg1 : FVec F S12288x256x7x7 .f32) (main_arg2 : FVec F S256x512 .f32) (main_arg3 : FVec F S512x256 .f32) (main_arg4 : FVec F S256x512 .f32) (main_arg5 : FVec F S512x256 .f32) (main_arg6 : FVec F S256x512 .f32) (main_arg7 : FVec F S512x256 .f32) (main_arg8 : FVec F S256x512 .f32) (main_arg9 : FVec F S512x256 .f32) : IVec S_ 1 :=
  let main_v0 : FVec F S4096x256x7x7 .f32 := Host.absf main_arg0
  let main_cst : FVec F S_ .f32 := constant S_ .f32 0x7F800000#32
  let main_v1 : FVec F S4096x256x7x7 .f32 := broadcastInDim S4096x256x7x7 ![] bcast_S_S4096x256x7x7 main_cst
  let main_v2 : IVec S4096x256x7x7 1 := cmpf .olt main_v0 main_v1
  let main_c : IVec S_ 1 := constantI S_ 1 1#1
  let main_v3 : IVec S_ 1 := (fun x v => Host.reduce IntOp.andi x v reducesTo_S4096x256x7x7_S_d0_1_2_3 h_S_) main_v2 main_c
  let main_v4 : FVec F S12288x256x7x7 .f32 := Host.absf main_arg1
  let main_cst_0 : FVec F S_ .f32 := constant S_ .f32 0x7F800000#32
  let main_v5 : FVec F S12288x256x7x7 .f32 := broadcastInDim S12288x256x7x7 ![] bcast_S_S12288x256x7x7 main_cst_0
  let main_v6 : IVec S12288x256x7x7 1 := cmpf .olt main_v4 main_v5
  let main_c_1 : IVec S_ 1 := constantI S_ 1 1#1
  let main_v7 : IVec S_ 1 := (fun x v => Host.reduce IntOp.andi x v reducesTo_S12288x256x7x7_S_d0_1_2_3 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_arg9 main_v13 main_v16
-- ==== Kernel.lean ====
abbrev S4096x256x7x7 : Shape := ⟨4, ![4096, 256, 7, 7]⟩
abbrev S12288x256x7x7 : Shape := ⟨4, ![12288, 256, 7, 7]⟩
abbrev S256x512 : Shape := ⟨2, ![256, 512]⟩
abbrev S512x256 : Shape := ⟨2, ![512, 256]⟩
abbrev S7x7x4096x256 : Shape := ⟨4, ![7, 7, 4096, 256]⟩
abbrev S49x4096x256 : Shape := ⟨3, ![49, 4096, 256]⟩
abbrev S7x7x12288x256 : Shape := ⟨4, ![7, 7, 12288, 256]⟩
abbrev S49x12288x256 : Shape := ⟨3, ![49, 12288, 256]⟩
abbrev S4096x256 : Shape := ⟨2, ![4096, 256]⟩
abbrev S49x512x256 : Shape := ⟨3, ![49, 512, 256]⟩
abbrev S1x512x256 : Shape := ⟨3, ![1, 512, 256]⟩
abbrev S512x512 : Shape := ⟨2, ![512, 512]⟩
abbrev S512 : Shape := ⟨1, ![512]⟩
abbrev S512x1 : Shape := ⟨2, ![512, 1]⟩
abbrev S49x256x256 : Shape := ⟨3, ![49, 256, 256]⟩
abbrev S4096x1 : Shape := ⟨2, ![4096, 1]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S4096 : Shape := ⟨1, ![4096]⟩
abbrev S4096x512 : Shape := ⟨2, ![4096, 512]⟩

abbrev nBuf : Space → Nat
  | .hbm => 16
  | .vmem => 18
  | .smem => 0
  | _ => 0

abbrev bufTy : (tb : Table) → Fin (tcTables nBuf tb) → BufTy
  | .hbm, ⟨0, _⟩ => ⟨S4096x256x7x7, .f32⟩
  | .hbm, ⟨1, _⟩ => ⟨S12288x256x7x7, .f32⟩
  | .hbm, ⟨2, _⟩ => ⟨S256x512, .f32⟩
  | .hbm, ⟨3, _⟩ => ⟨S512x256, .f32⟩
  | .hbm, ⟨4, _⟩ => ⟨S256x512, .f32⟩
  | .hbm, ⟨5, _⟩ => ⟨S512x256, .f32⟩
  | .hbm, ⟨6, _⟩ => ⟨S256x512, .f32⟩
  | .hbm, ⟨7, _⟩ => ⟨S512x256, .f32⟩
  | .hbm, ⟨8, _⟩ => ⟨S256x512, .f32⟩
  | .hbm, ⟨9, _⟩ => ⟨S512x256, .f32⟩
  | .hbm, ⟨10, _⟩ => ⟨S7x7x4096x256, .f32⟩
  | .hbm, ⟨11, _⟩ => ⟨S49x4096x256, .f32⟩
  | .hbm, ⟨12, _⟩ => ⟨S7x7x12288x256, .f32⟩
  | .hbm, ⟨13, _⟩ => ⟨S49x12288x256, .f32⟩
  | .hbm, ⟨14, _⟩ => ⟨S4096x256, .bf16⟩
  | .hbm, ⟨15, _⟩ => ⟨S4096x256, .f32⟩
  | .local _ .vmem, ⟨0, _⟩ => ⟨S49x512x256, .f32⟩
  | .local _ .vmem, ⟨1, _⟩ => ⟨S49x512x256, .f32⟩
  | .local _ .vmem, ⟨2, _⟩ => ⟨S256x512, .f32⟩
  | .local _ .vmem, ⟨3, _⟩ => ⟨S512x256, .f32⟩
  | .local _ .vmem, ⟨4, _⟩ => ⟨S512x256, .bf16⟩
  | .local _ .vmem, ⟨5, _⟩ => ⟨S512x256, .bf16⟩
  | .local _ .vmem, ⟨6, _⟩ => ⟨S49x256x256, .f32⟩
  | .local _ .vmem, ⟨7, _⟩ => ⟨S49x256x256, .f32⟩
  | .local _ .vmem, ⟨8, _⟩ => ⟨S4096x256, .bf16⟩
  | .local _ .vmem, ⟨9, _⟩ => ⟨S256x512, .f32⟩
  | .local _ .vmem, ⟨10, _⟩ => ⟨S512x256, .f32⟩
  | .local _ .vmem, ⟨11, _⟩ => ⟨S256x512, .f32⟩
  | .local _ .vmem, ⟨12, _⟩ => ⟨S512x256, .f32⟩
  | .local _ .vmem, ⟨13, _⟩ => ⟨S256x512, .f32⟩
  | .local _ .vmem, ⟨14, _⟩ => ⟨S512x256, .f32⟩
  | .local _ .vmem, ⟨15, _⟩ => ⟨S4096x256, .f32⟩
  | .local _ .vmem, ⟨16, _⟩ => ⟨S4096x256, .f32⟩
  | .local _ .vmem, ⟨17, _⟩ => ⟨S4096x1, .f32⟩
  | _, _ => ⟨S4096x256x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S49x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![48], ![false]⟩

def k1_cond2 (i : grid1.Coords) : BitVec 1 :=
  let arg0 : BitVec 32 := BitVec.ofNat 32 (i 0).val
  let c47_i32 : BitVec 32 := 47#32
  let v191 : BitVec 1 := Scalar.cmpi .eq arg0 c47_i32
  let v192 : BitVec 32 := Scalar.extui v191
  let c0_i32_128 : BitVec 32 := 0#32
  let v193 : BitVec 1 := Scalar.cmpi .ne v192 c0_i32_128
  v193

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S49x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4096x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

class Facts₀ : Prop where
  transposes_S4096x256x7x7_S7x7x4096x256_2_3_0_1 : S4096x256x7x7.Transposes [2, 3, 0, 1] S7x7x4096x256
  shapeCasts_S7x7x4096x256_S49x4096x256 : S7x7x4096x256.ShapeCasts S49x4096x256
  transposes_S12288x256x7x7_S7x7x12288x256_2_3_0_1 : S12288x256x7x7.Transposes [2, 3, 0, 1] S7x7x12288x256
  shapeCasts_S7x7x12288x256_S49x12288x256 : S7x7x12288x256.ShapeCasts S49x12288x256
  inb_S49x512x256_S1x512x256_0_0_0 : ∀ a, (![0, 0, 0] : Fin 3 → Nat) a + S1x512x256.size a ≤ S49x512x256.size a
  h_S1x512x256 : 0 < S1x512x256.numel
  shapeCasts_S1x512x256_S512x256 : S1x512x256.ShapeCasts S512x256
  inb_S49x512x256_S1x512x256_1_0_0 : ∀ a, (![1, 0, 0] : Fin 3 → Nat) a + S1x512x256.size a ≤ S49x512x256.size a
  inb_S49x512x256_S1x512x256_2_0_0 : ∀ a, (![2, 0, 0] : Fin 3 → Nat) a + S1x512x256.size a ≤ S49x512x256.size a
  inb_S49x512x256_S1x512x256_3_0_0 : ∀ a, (![3, 0, 0] : Fin 3 → Nat) a + S1x512x256.size a ≤ S49x512x256.size a
  inb_S49x512x256_S1x512x256_4_0_0 : ∀ a, (![4, 0, 0] : Fin 3 → Nat) a + S1x512x256.size a ≤ S49x512x256.size a
  inb_S49x512x256_S1x512x256_5_0_0 : ∀ a, (![5, 0, 0] : Fin 3 → Nat) a + S1x512x256.size a ≤ S49x512x256.size a
  inb_S49x512x256_S1x512x256_6_0_0 : ∀ a, (![6, 0, 0] : Fin 3 → Nat) a + S1x512x256.size a ≤ S49x512x256.size a
  inb_S49x512x256_S1x512x256_7_0_0 : ∀ a, (![7, 0, 0] : Fin 3 → Nat) a + S1x512x256.size a ≤ S49x512x256.size a
  inb_S49x512x256_S1x512x256_8_0_0 : ∀ a, (![8, 0, 0] : Fin 3 → Nat) a + S1x512x256.size a ≤ S49x512x256.size a
  inb_S49x512x256_S1x512x256_9_0_0 : ∀ a, (![9, 0, 0] : Fin 3 → Nat) a + S1x512x256.size a ≤ S49x512x256.size a
  inb_S49x512x256_S1x512x256_10_0_0 : ∀ a, (![10, 0, 0] : Fin 3 → Nat) a + S1x512x256.size a ≤ S49x512x256.size a
  inb_S49x512x256_S1x512x256_11_0_0 : ∀ a, (![11, 0, 0] : Fin 3 → Nat) a + S1x512x256.size a ≤ S49x512x256.size a
  inb_S49x512x256_S1x512x256_12_0_0 : ∀ a, (![12, 0, 0] : Fin 3 → Nat) a + S1x512x256.size a ≤ S49x512x256.size a
  inb_S49x512x256_S1x512x256_13_0_0 : ∀ a, (![13, 0, 0] : Fin 3 → Nat) a + S1x512x256.size a ≤ S49x512x256.size a
  inb_S49x512x256_S1x512x256_14_0_0 : ∀ a, (![14, 0, 0] : Fin 3 → Nat) a + S1x512x256.size a ≤ S49x512x256.size a
  inb_S49x512x256_S1x512x256_15_0_0 : ∀ a, (![15, 0, 0] : Fin 3 → Nat) a + S1x512x256.size a ≤ S49x512x256.size a
  inb_S49x512x256_S1x512x256_16_0_0 : ∀ a, (![16, 0, 0] : Fin 3 → Nat) a + S1x512x256.size a ≤ S49x512x256.size a
  inb_S49x512x256_S1x512x256_17_0_0 : ∀ a, (![17, 0, 0] : Fin 3 → Nat) a + S1x512x256.size a ≤ S49x512x256.size a
  inb_S49x512x256_S1x512x256_18_0_0 : ∀ a, (![18, 0, 0] : Fin 3 → Nat) a + S1x512x256.size a ≤ S49x512x256.size a
  inb_S49x512x256_S1x512x256_19_0_0 : ∀ a, (![19, 0, 0] : Fin 3 → Nat) a + S1x512x256.size a ≤ S49x512x256.size a
  inb_S49x512x256_S1x512x256_20_0_0 : ∀ a, (![20, 0, 0] : Fin 3 → Nat) a + S1x512x256.size a ≤ S49x512x256.size a
  inb_S49x512x256_S1x512x256_21_0_0 : ∀ a, (![21, 0, 0] : Fin 3 → Nat) a + S1x512x256.size a ≤ S49x512x256.size a
  inb_S49x512x256_S1x512x256_22_0_0 : ∀ a, (![22, 0, 0] : Fin 3 → Nat) a + S1x512x256.size a ≤ S49x512x256.size a
  inb_S49x512x256_S1x512x256_23_0_0 : ∀ a, (![23, 0, 0] : Fin 3 → Nat) a + S1x512x256.size a ≤ S49x512x256.size a
  inb_S49x512x256_S1x512x256_24_0_0 : ∀ a, (![24, 0, 0] : Fin 3 → Nat) a + S1x512x256.size a ≤ S49x512x256.size a
  inb_S49x512x256_S1x512x256_25_0_0 : ∀ a, (![25, 0, 0] : Fin 3 → Nat) a + S1x512x256.size a ≤ S49x512x256.size a
  inb_S49x512x256_S1x512x256_26_0_0 : ∀ a, (![26, 0, 0] : Fin 3 → Nat) a + S1x512x256.size a ≤ S49x512x256.size a
  inb_S49x512x256_S1x512x256_27_0_0 : ∀ a, (![27, 0, 0] : Fin 3 → Nat) a + S1x512x256.size a ≤ S49x512x256.size a
  inb_S49x512x256_S1x512x256_28_0_0 : ∀ a, (![28, 0, 0] : Fin 3 → Nat) a + S1x512x256.size a ≤ S49x512x256.size a
  inb_S49x512x256_S1x512x256_29_0_0 : ∀ a, (![29, 0, 0] : Fin 3 → Nat) a + S1x512x256.size a ≤ S49x512x256.size a
  inb_S49x512x256_S1x512x256_30_0_0 : ∀ a, (![30, 0, 0] : Fin 3 → Nat) a + S1x512x256.size a ≤ S49x512x256.size a
  inb_S49x512x256_S1x512x256_31_0_0 : ∀ a, (![31, 0, 0] : Fin 3 → Nat) a + S1x512x256.size a ≤ S49x512x256.size a
  inb_S49x512x256_S1x512x256_32_0_0 : ∀ a, (![32, 0, 0] : Fin 3 → Nat) a + S1x512x256.size a ≤ S49x512x256.size a
  inb_S49x512x256_S1x512x256_33_0_0 : ∀ a, (![33, 0, 0] : Fin 3 → Nat) a + S1x512x256.size a ≤ S49x512x256.size a
  inb_S49x512x256_S1x512x256_34_0_0 : ∀ a, (![34, 0, 0] : Fin 3 → Nat) a + S1x512x256.size a ≤ S49x512x256.size a
  inb_S49x512x256_S1x512x256_35_0_0 : ∀ a, (![35, 0, 0] : Fin 3 → Nat) a + S1x512x256.size a ≤ S49x512x256.size a
  inb_S49x512x256_S1x512x256_36_0_0 : ∀ a, (![36, 0, 0] : Fin 3 → Nat) a + S1x512x256.size a ≤ S49x512x256.size a
  inb_S49x512x256_S1x512x256_37_0_0 : ∀ a, (![37, 0, 0] : Fin 3 → Nat) a + S1x512x256.size a ≤ S49x512x256.size a
  inb_S49x512x256_S1x512x256_38_0_0 : ∀ a, (![38, 0, 0] : Fin 3 → Nat) a + S1x512x256.size a ≤ S49x512x256.size a
  inb_S49x512x256_S1x512x256_39_0_0 : ∀ a, (![39, 0, 0] : Fin 3 → Nat) a + S1x512x256.size a ≤ S49x512x256.size a
  inb_S49x512x256_S1x512x256_40_0_0 : ∀ a, (![40, 0, 0] : Fin 3 → Nat) a + S1x512x256.size a ≤ S49x512x256.size a
  inb_S49x512x256_S1x512x256_41_0_0 : ∀ a, (![41, 0, 0] : Fin 3 → Nat) a + S1x512x256.size a ≤ S49x512x256.size a
  inb_S49x512x256_S1x512x256_42_0_0 : ∀ a, (![42, 0, 0] : Fin 3 → Nat) a + S1x512x256.size a ≤ S49x512x256.size a
  inb_S49x512x256_S1x512x256_43_0_0 : ∀ a, (![43, 0, 0] : Fin 3 → Nat) a + S1x512x256.size a ≤ S49x512x256.size a
  inb_S49x512x256_S1x512x256_44_0_0 : ∀ a, (![44, 0, 0] : Fin 3 → Nat) a + S1x512x256.size a ≤ S49x512x256.size a
  inb_S49x512x256_S1x512x256_45_0_0 : ∀ a, (![45, 0, 0] : Fin 3 → Nat) a + S1x512x256.size a ≤ S49x512x256.size a
  inb_S49x512x256_S1x512x256_46_0_0 : ∀ a, (![46, 0, 0] : Fin 3 → Nat) a + S1x512x256.size a ≤ S49x512x256.size a
  inb_S49x512x256_S1x512x256_47_0_0 : ∀ a, (![47, 0, 0] : Fin 3 → Nat) a + S1x512x256.size a ≤ S49x512x256.size a
  inb_S49x512x256_S1x512x256_48_0_0 : ∀ a, (![48, 0, 0] : Fin 3 → Nat) a + S1x512x256.size a ≤ S49x512x256.size a
  inb_S256x512_S256x512_0_0 : ∀ a, (![0, 0] : Fin 2 → Nat) a + S256x512.size a ≤ S256x512.size a
  h_S256x512 : 0 < S256x512.numel
  inb_S512x256_S512x256_0_0 : ∀ a, (![0, 0] : Fin 2 → Nat) a + S512x256.size a ≤ S512x256.size a
  h_S512x256 : 0 < S512x256.numel
  reduces_S512x256_S512 : S512x256.Reduces [1] S512
  shapeCasts_S512_S512x1 : S512.ShapeCasts S512x1
  broadcasts_S512x1_S512x256 : S512x1.Broadcasts S512x256
  bitsLt_bf16_f32 : FTy.bits .bf16 < FTy.bits .f32
  packedbf16_S512x256_S512x256_0_0 : (Rect.unit (s := S512x256) ![0, 0] S512x256.size inb_S512x256_S512x256_0_0).PackedRows (EltTy.packing .bf16)
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S49x256x256_S1x256x256_0_0_0 : ∀ a, (![0, 0, 0] : Fin 3 → Nat) a + S1x256x256.size a ≤ S49x256x256.size a
  h_S1x256x256 : 0 < S1x256x256.numel
  shapeCasts_S1x256x256_S256x256 : S1x256x256.ShapeCasts S256x256
  inb_S49x256x256_S1x256x256_1_0_0 : ∀ a, (![1, 0, 0] : Fin 3 → Nat) a + S1x256x256.size a ≤ S49x256x256.size a
  inb_S49x256x256_S1x256x256_2_0_0 : ∀ a, (![2, 0, 0] : Fin 3 → Nat) a + S1x256x256.size a ≤ S49x256x256.size a
  inb_S49x256x256_S1x256x256_3_0_0 : ∀ a, (![3, 0, 0] : Fin 3 → Nat) a + S1x256x256.size a ≤ S49x256x256.size a
  inb_S49x256x256_S1x256x256_4_0_0 : ∀ a, (![4, 0, 0] : Fin 3 → Nat) a + S1x256x256.size a ≤ S49x256x256.size a
  inb_S49x256x256_S1x256x256_5_0_0 : ∀ a, (![5, 0, 0] : Fin 3 → Nat) a + S1x256x256.size a ≤ S49x256x256.size a
  inb_S49x256x256_S1x256x256_6_0_0 : ∀ a, (![6, 0, 0] : Fin 3 → Nat) a + S1x256x256.size a ≤ S49x256x256.size a
  inb_S49x256x256_S1x256x256_7_0_0 : ∀ a, (![7, 0, 0] : Fin 3 → Nat) a + S1x256x256.size a ≤ S49x256x256.size a
  inb_S49x256x256_S1x256x256_8_0_0 : ∀ a, (![8, 0, 0] : Fin 3 → Nat) a + S1x256x256.size a ≤ S49x256x256.size a
  inb_S49x256x256_S1x256x256_9_0_0 : ∀ a, (![9, 0, 0] : Fin 3 → Nat) a + S1x256x256.size a ≤ S49x256x256.size a
  inb_S49x256x256_S1x256x256_10_0_0 : ∀ a, (![10, 0, 0] : Fin 3 → Nat) a + S1x256x256.size a ≤ S49x256x256.size a
  inb_S49x256x256_S1x256x256_11_0_0 : ∀ a, (![11, 0, 0] : Fin 3 → Nat) a + S1x256x256.size a ≤ S49x256x256.size a
  inb_S49x256x256_S1x256x256_12_0_0 : ∀ a, (![12, 0, 0] : Fin 3 → Nat) a + S1x256x256.size a ≤ S49x256x256.size a
  inb_S49x256x256_S1x256x256_13_0_0 : ∀ a, (![13, 0, 0] : Fin 3 → Nat) a + S1x256x256.size a ≤ S49x256x256.size a
  inb_S49x256x256_S1x256x256_14_0_0 : ∀ a, (![14, 0, 0] : Fin 3 → Nat) a + S1x256x256.size a ≤ S49x256x256.size a
  inb_S49x256x256_S1x256x256_15_0_0 : ∀ a, (![15, 0, 0] : Fin 3 → Nat) a + S1x256x256.size a ≤ S49x256x256.size a
  inb_S49x256x256_S1x256x256_16_0_0 : ∀ a, (![16, 0, 0] : Fin 3 → Nat) a + S1x256x256.size a ≤ S49x256x256.size a
  inb_S49x256x256_S1x256x256_17_0_0 : ∀ a, (![17, 0, 0] : Fin 3 → Nat) a + S1x256x256.size a ≤ S49x256x256.size a
  inb_S49x256x256_S1x256x256_18_0_0 : ∀ a, (![18, 0, 0] : Fin 3 → Nat) a + S1x256x256.size a ≤ S49x256x256.size a
  inb_S49x256x256_S1x256x256_19_0_0 : ∀ a, (![19, 0, 0] : Fin 3 → Nat) a + S1x256x256.size a ≤ S49x256x256.size a
  inb_S49x256x256_S1x256x256_20_0_0 : ∀ a, (![20, 0, 0] : Fin 3 → Nat) a + S1x256x256.size a ≤ S49x256x256.size a
  inb_S49x256x256_S1x256x256_21_0_0 : ∀ a, (![21, 0, 0] : Fin 3 → Nat) a + S1x256x256.size a ≤ S49x256x256.size a
  inb_S49x256x256_S1x256x256_22_0_0 : ∀ a, (![22, 0, 0] : Fin 3 → Nat) a + S1x256x256.size a ≤ S49x256x256.size a
  inb_S49x256x256_S1x256x256_23_0_0 : ∀ a, (![23, 0, 0] : Fin 3 → Nat) a + S1x256x256.size a ≤ S49x256x256.size a
  inb_S49x256x256_S1x256x256_24_0_0 : ∀ a, (![24, 0, 0] : Fin 3 → Nat) a + S1x256x256.size a ≤ S49x256x256.size a
  inb_S49x256x256_S1x256x256_25_0_0 : ∀ a, (![25, 0, 0] : Fin 3 → Nat) a + S1x256x256.size a ≤ S49x256x256.size a
  inb_S49x256x256_S1x256x256_26_0_0 : ∀ a, (![26, 0, 0] : Fin 3 → Nat) a + S1x256x256.size a ≤ S49x256x256.size a
  inb_S49x256x256_S1x256x256_27_0_0 : ∀ a, (![27, 0, 0] : Fin 3 → Nat) a + S1x256x256.size a ≤ S49x256x256.size a
  inb_S49x256x256_S1x256x256_28_0_0 : ∀ a, (![28, 0, 0] : Fin 3 → Nat) a + S1x256x256.size a ≤ S49x256x256.size a
  inb_S49x256x256_S1x256x256_29_0_0 : ∀ a, (![29, 0, 0] : Fin 3 → Nat) a + S1x256x256.size a ≤ S49x256x256.size a
  inb_S49x256x256_S1x256x256_30_0_0 : ∀ a, (![30, 0, 0] : Fin 3 → Nat) a + S1x256x256.size a ≤ S49x256x256.size a
  inb_S49x256x256_S1x256x256_31_0_0 : ∀ a, (![31, 0, 0] : Fin 3 → Nat) a + S1x256x256.size a ≤ S49x256x256.size a
  inb_S49x256x256_S1x256x256_32_0_0 : ∀ a, (![32, 0, 0] : Fin 3 → Nat) a + S1x256x256.size a ≤ S49x256x256.size a
  inb_S49x256x256_S1x256x256_33_0_0 : ∀ a, (![33, 0, 0] : Fin 3 → Nat) a + S1x256x256.size a ≤ S49x256x256.size a
  inb_S49x256x256_S1x256x256_34_0_0 : ∀ a, (![34, 0, 0] : Fin 3 → Nat) a + S1x256x256.size a ≤ S49x256x256.size a
  inb_S49x256x256_S1x256x256_35_0_0 : ∀ a, (![35, 0, 0] : Fin 3 → Nat) a + S1x256x256.size a ≤ S49x256x256.size a
  inb_S49x256x256_S1x256x256_36_0_0 : ∀ a, (![36, 0, 0] : Fin 3 → Nat) a + S1x256x256.size a ≤ S49x256x256.size a
  inb_S49x256x256_S1x256x256_37_0_0 : ∀ a, (![37, 0, 0] : Fin 3 → Nat) a + S1x256x256.size a ≤ S49x256x256.size a
  inb_S49x256x256_S1x256x256_38_0_0 : ∀ a, (![38, 0, 0] : Fin 3 → Nat) a + S1x256x256.size a ≤ S49x256x256.size a
  inb_S49x256x256_S1x256x256_39_0_0 : ∀ a, (![39, 0, 0] : Fin 3 → Nat) a + S1x256x256.size a ≤ S49x256x256.size a
  inb_S49x256x256_S1x256x256_40_0_0 : ∀ a, (![40, 0, 0] : Fin 3 → Nat) a + S1x256x256.size a ≤ S49x256x256.size a
  inb_S49x256x256_S1x256x256_41_0_0 : ∀ a, (![41, 0, 0] : Fin 3 → Nat) a + S1x256x256.size a ≤ S49x256x256.size a
  inb_S49x256x256_S1x256x256_42_0_0 : ∀ a, (![42, 0, 0] : Fin 3 → Nat) a + S1x256x256.size a ≤ S49x256x256.size a
  inb_S49x256x256_S1x256x256_43_0_0 : ∀ a, (![43, 0, 0] : Fin 3 → Nat) a + S1x256x256.size a ≤ S49x256x256.size a
  inb_S49x256x256_S1x256x256_44_0_0 : ∀ a, (![44, 0, 0] : Fin 3 → Nat) a + S1x256x256.size a ≤ S49x256x256.size a
  inb_S49x256x256_S1x256x256_45_0_0 : ∀ a, (![45, 0, 0] : Fin 3 → Nat) a + S1x256x256.size a ≤ S49x256x256.size a
  inb_S49x256x256_S1x256x256_46_0_0 : ∀ a, (![46, 0, 0] : Fin 3 → Nat) a + S1x256x256.size a ≤ S49x256x256.size a
  inb_S49x256x256_S1x256x256_47_0_0 : ∀ a, (![47, 0, 0] : Fin 3 → Nat) a + S1x256x256.size a ≤ S49x256x256.size a
  inb_S49x256x256_S1x256x256_48_0_0 : ∀ a, (![48, 0, 0] : Fin 3 → Nat) a + S1x256x256.size a ≤ S49x256x256.size a
  reduces_S256x256_S256 : S256x256.Reduces [1] S256
  shapeCasts_S256_S256x1 : S256.ShapeCasts S256x1
  broadcasts_S256x1_S256x256 : S256x1.Broadcasts S256x256
  reduces_S4096x256_S4096 : S4096x256.Reduces [1] S4096
  shapeCasts_S4096_S4096x1 : S4096.ShapeCasts S4096x1
  broadcasts_S4096x1_S4096x256 : S4096x1.Broadcasts S4096x256
  dot_S512x256_S256x512_S512x512_1_0_0_1_n_n_wf : DotDims.WF S512x256 S256x512 S512x512 [1] [0] [0] [1] [] []
  dot_S512x512_S512x256_S512x256_1_0_0_1_n_n_wf : DotDims.WF S512x512 S512x256 S512x256 [1] [0] [0] [1] [] []
  dot_S256x256_S256x512_S256x512_1_0_0_1_n_n_wf : DotDims.WF S256x256 S256x512 S256x512 [1] [0] [0] [1] [] []
  dot_S256x512_S512x256_S256x256_1_0_0_1_n_n_wf : DotDims.WF S256x512 S512x256 S256x256 [1] [0] [0] [1] [] []
  dot_S4096x256_S256x256_S4096x256_1_1_0_0_n_n_wf : DotDims.WF S4096x256 S256x256 S4096x256 [1] [1] [0] [0] [] []
  dot_S4096x256_S256x256_S4096x256_1_0_0_1_n_n_wf : DotDims.WF S4096x256 S256x256 S4096x256 [1] [0] [0] [1] [] []
  dot_S4096x256_S256x512_S4096x512_1_0_0_1_n_n_wf : DotDims.WF S4096x256 S256x512 S4096x512 [1] [0] [0] [1] [] []
  dot_S4096x512_S512x256_S4096x256_1_0_0_1_n_n_wf : DotDims.WF S4096x512 S512x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S49x512x256.size a ≤ S49x4096x256.size a
  hwx0_0 : ∀ i : grid0.Coords, EltTy.bits .f32 = 32 ∨ (Rect.block (s := S49x4096x256) S49x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x256.size a
  hwx0_3 : ∀ i : grid0.Coords, EltTy.bits .bf16 = 32 ∨ (Rect.block (s := S4096x256) S512x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S49x256x256.size a ≤ S49x12288x256.size a
  hwx1_0 : ∀ i : grid1.Coords, EltTy.bits .f32 = 32 ∨ (Rect.block (s := S49x12288x256) S49x256x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x512.size a
  hwx1_2 : ∀ i : grid1.Coords, EltTy.bits .f32 = 32 ∨ (Rect.block (s := S256x512) S256x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .f32 = 32 ∨ (Rect.block (s := S512x256) S512x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x512.size a ≤ S256x512.size a
  hwx1_4 : ∀ i : grid1.Coords, EltTy.bits .f32 = 32 ∨ (Rect.block (s := S256x512) S256x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S512x256.size a
  hwx1_5 : ∀ i : grid1.Coords, EltTy.bits .f32 = 32 ∨ (Rect.block (s := S512x256) S512x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x512.size a ≤ S256x512.size a
  hwx1_6 : ∀ i : grid1.Coords, EltTy.bits .f32 = 32 ∨ (Rect.block (s := S256x512) S256x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x256.size a ≤ S512x256.size a
  hwx1_7 : ∀ i : grid1.Coords, EltTy.bits .f32 = 32 ∨ (Rect.block (s := S512x256) S512x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S4096x256.size a ≤ S4096x256.size a
  hwx1_8 : ∀ i : grid1.Coords, EltTy.bits .f32 = 32 ∨ (Rect.block (s := S4096x256) S4096x256.size (cc1_transform_8 i) (hinb1_8 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

abbrev win0_0 : Pipeline.Window sig grid0 :=
  Pipeline.Window.ofSpec (Memref.whole main_v1) S49x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S49x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S256x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S512x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S256x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S512x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v5) S4096x256.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S4096x256x7x7 : Shape := ⟨4, ![4096, 256, 7, 7]⟩
abbrev S12288x256x7x7 : Shape := ⟨4, ![12288, 256, 7, 7]⟩
abbrev S256x512 : Shape := ⟨2, ![256, 512]⟩
abbrev S512x256 : Shape := ⟨2, ![512, 256]⟩
abbrev S_ : Shape := ⟨0, ![]⟩
abbrev S4096x256 : Shape := ⟨2, ![4096, 256]⟩
abbrev S12288x256 : Shape := ⟨2, ![12288, 256]⟩
abbrev S4096x512 : Shape := ⟨2, ![4096, 512]⟩
abbrev S4096 : Shape := ⟨1, ![4096]⟩
abbrev S4096x1 : Shape := ⟨2, ![4096, 1]⟩
abbrev S12288x512 : Shape := ⟨2, ![12288, 512]⟩
abbrev S12288 : Shape := ⟨1, ![12288]⟩
abbrev S12288x1 : Shape := ⟨2, ![12288, 1]⟩
abbrev S256x12288 : Shape := ⟨2, ![256, 12288]⟩
abbrev S4096x12288 : Shape := ⟨2, ![4096, 12288]⟩

abbrev nBuf : Space → Nat
  | .hbm => 80
  | .vmem => 0
  | .smem => 0
  | _ => 0

abbrev bufTy : (tb : Table) → Fin (tcTables nBuf tb) → BufTy
  | .hbm, ⟨0, _⟩ => ⟨S4096x256x7x7, .f32⟩
  | .hbm, ⟨1, _⟩ => ⟨S12288x256x7x7, .f32⟩
  | .hbm, ⟨2, _⟩ => ⟨S256x512, .f32⟩
  | .hbm, ⟨3, _⟩ => ⟨S512x256, .f32⟩
  | .hbm, ⟨4, _⟩ => ⟨S256x512, .f32⟩
  | .hbm, ⟨5, _⟩ => ⟨S512x256, .f32⟩
  | .hbm, ⟨6, _⟩ => ⟨S256x512, .f32⟩
  | .hbm, ⟨7, _⟩ => ⟨S512x256, .f32⟩
  | .hbm, ⟨8, _⟩ => ⟨S256x512, .f32⟩
  | .hbm, ⟨9, _⟩ => ⟨S512x256, .f32⟩
  | .hbm, ⟨10, _⟩ => ⟨S_, .f32⟩
  | .hbm, ⟨11, _⟩ => ⟨S4096x256, .f32⟩
  | .hbm, ⟨12, _⟩ => ⟨S_, .f32⟩
  | .hbm, ⟨13, _⟩ => ⟨S4096x256, .f32⟩
  | .hbm, ⟨14, _⟩ => ⟨S4096x256, .f32⟩
  | .hbm, ⟨15, _⟩ => ⟨S_, .f32⟩
  | .hbm, ⟨16, _⟩ => ⟨S12288x256, .f32⟩
  | .hbm, ⟨17, _⟩ => ⟨S_, .f32⟩
  | .hbm, ⟨18, _⟩ => ⟨S12288x256, .f32⟩
  | .hbm, ⟨19, _⟩ => ⟨S12288x256, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S4096x256, .f32⟩
  | .hbm, ⟨25, _⟩ => ⟨S4096x256, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x256, .f32⟩
  | .hbm, ⟨34, _⟩ => ⟨S4096x256, .f32⟩
  | .hbm, ⟨35, _⟩ => ⟨S12288x512, .f32⟩
  | .hbm, ⟨36, _⟩ => ⟨S_, .f32⟩
  | .hbm, ⟨37, _⟩ => ⟨S12288x512, .f32⟩
  | .hbm, ⟨38, _⟩ => ⟨S12288x512, .f32⟩
  | .hbm, ⟨39, _⟩ => ⟨S12288x256, .f32⟩
  | .hbm, ⟨40, _⟩ => ⟨S12288x256, .f32⟩
  | .hbm, ⟨41, _⟩ => ⟨S_, .f32⟩
  | .hbm, ⟨42, _⟩ => ⟨S12288, .f32⟩
  | .hbm, ⟨43, _⟩ => ⟨S12288x1, .f32⟩
  | .hbm, ⟨44, _⟩ => ⟨S12288x1, .f32⟩
  | .hbm, ⟨45, _⟩ => ⟨S_, .f32⟩
  | .hbm, ⟨46, _⟩ => ⟨S12288x1, .f32⟩
  | .hbm, ⟨47, _⟩ => ⟨S12288x1, .f32⟩
  | .hbm, ⟨48, _⟩ => ⟨S12288x256, .f32⟩
  | .hbm, ⟨49, _⟩ => ⟨S12288x256, .f32⟩
  | .hbm, ⟨50, _⟩ => ⟨S12288x512, .f32⟩
  | .hbm, ⟨51, _⟩ => ⟨S_, .f32⟩
  | .hbm, ⟨52, _⟩ => ⟨S12288x512, .f32⟩
  | .hbm, ⟨53, _⟩ => ⟨S12288x512, .f32⟩
  | .hbm, ⟨54, _⟩ => ⟨S12288x256, .f32⟩
  | .hbm, ⟨55, _⟩ => ⟨S256x12288, .f32⟩
  | .hbm, ⟨56, _⟩ => ⟨S4096x12288, .f32⟩
  | .hbm, ⟨57, _⟩ => ⟨S_, .f32⟩
  | .hbm, ⟨58, _⟩ => ⟨S4096x12288, .f32⟩
  | .hbm, ⟨59, _⟩ => ⟨S4096x12288, .f32⟩
  | .hbm, ⟨60, _⟩ => ⟨S_, .f32⟩
  | .hbm, ⟨61, _⟩ => ⟨S4096, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S4096x1, .f32⟩
  | .hbm, ⟨66, _⟩ => ⟨S4096x12288, .f32⟩
  | .hbm, ⟨67, _⟩ => ⟨S4096x12288, .f32⟩
  | .hbm, ⟨68, _⟩ => ⟨S4096x12288, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x12288, .f32⟩
  | .hbm, ⟨73, _⟩ => ⟨S4096x12288, .f32⟩
  | .hbm, ⟨74, _⟩ => ⟨S4096x256, .f32⟩
  | .hbm, ⟨75, _⟩ => ⟨S4096x512, .f32⟩
  | .hbm, ⟨76, _⟩ => ⟨S_, .f32⟩
  | .hbm, ⟨77, _⟩ => ⟨S4096x512, .f32⟩
  | .hbm, ⟨78, _⟩ => ⟨S4096x512, .f32⟩
  | .hbm, ⟨79, _⟩ => ⟨S4096x256, .f32⟩
  | _, _ => ⟨S4096x256x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_cst_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_3 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_8 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩
abbrev main_cst_11 : Ref sig .tc := ⟨.hbm, 60, rfl⟩
abbrev main_v38 : Ref sig .tc := ⟨.hbm, 61, rfl⟩
abbrev main_cst_12 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_13 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_14 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩

abbrev nD : Nat := 1
abbrev τ : Topo := Topo.v7x

variable {F : FTy → Type} [FloatOps F]

class Facts₀ : Prop where
  reducesTo_S4096x256x7x7_S4096x256_d2_3 : S4096x256x7x7.ReducesTo [2, 3] S4096x256
  h_S_ : 0 < S_.numel
  bcast_S_S4096x256 : S_.BroadcastsInDim S4096x256 (![] : Fin 0 → Fin S4096x256.rank)
  reducesTo_S12288x256x7x7_S12288x256_d2_3 : S12288x256x7x7.ReducesTo [2, 3] S12288x256
  bcast_S_S12288x256 : S_.BroadcastsInDim S12288x256 (![] : Fin 0 → Fin S12288x256.rank)
  bcast_S_S4096x512 : S_.BroadcastsInDim S4096x512 (![] : Fin 0 → Fin S4096x512.rank)
  reducesTo_S4096x256_S4096_d1 : S4096x256.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bcast_S_S12288x512 : S_.BroadcastsInDim S12288x512 (![] : Fin 0 → Fin S12288x512.rank)
  reducesTo_S12288x256_S12288_d1 : S12288x256.ReducesTo [1] S12288
  bcast_S12288_S12288x1_0 : S12288.BroadcastsInDim S12288x1 (![0] : Fin 1 → Fin S12288x1.rank)
  bcast_S_S12288x1 : S_.BroadcastsInDim S12288x1 (![] : Fin 0 → Fin S12288x1.rank)
  bcast_S12288x1_S12288x256_0_1 : S12288x1.BroadcastsInDim S12288x256 (![0, 1] : Fin 2 → Fin S12288x256.rank)
  transposes_S12288x256_S256x12288_1_0 : S12288x256.Transposes [1, 0] S256x12288
  bcast_S_S4096x12288 : S_.BroadcastsInDim S4096x12288 (![] : Fin 0 → Fin S4096x12288.rank)
  reducesTo_S4096x12288_S4096_d1 : S4096x12288.ReducesTo [1] S4096
  bcast_S_S4096 : S_.BroadcastsInDim S4096 (![] : Fin 0 → Fin S4096.rank)
  bcast_S4096x1_S4096x12288_0_1 : S4096x1.BroadcastsInDim S4096x12288 (![0, 1] : Fin 2 → Fin S4096x12288.rank)
  dot_S4096x256_S256x512_S4096x512_1_0_0_1_n_n_wf : DotDims.WF S4096x256 S256x512 S4096x512 [1] [0] [0] [1] [] []
  dot_S4096x512_S512x256_S4096x256_1_0_0_1_n_n_wf : DotDims.WF S4096x512 S512x256 S4096x256 [1] [0] [0] [1] [] []
  dot_S12288x256_S256x512_S12288x512_1_0_0_1_n_n_wf : DotDims.WF S12288x256 S256x512 S12288x512 [1] [0] [0] [1] [] []
  dot_S12288x512_S512x256_S12288x256_1_0_0_1_n_n_wf : DotDims.WF S12288x512 S512x256 S12288x256 [1] [0] [0] [1] [] []
  dot_S4096x256_S256x12288_S4096x12288_1_0_0_1_n_n_wf : DotDims.WF S4096x256 S256x12288 S4096x12288 [1] [0] [0] [1] [] []
  dot_S4096x12288_S12288x256_S4096x256_1_0_0_1_n_n_wf : DotDims.WF S4096x12288 S12288x256 S4096x256 [1] [0] [0] [1] [] []

variable [Facts₀]

def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S12288x256_S256x512_S12288x512_1_0_0_1_n_n : DotDims S12288x256 S256x512 S12288x512 where
  lhsContracting := [1]
  rhsContracting := [0]
  lhsNonContracting := [0]
  rhsNonContracting := [1]
  lhsBatch := []
  rhsBatch := []
  wf := dot_S12288x256_S256x512_S12288x512_1_0_0_1_n_n_wf
def dot_S12288x512_S512x256_S12288x256_1_0_0_1_n_n : DotDims S12288x512 S512x256 S12288x256 where
  lhsContracting := [1]
  rhsContracting := [0]
  lhsNonContracting := [0]
  rhsNonContracting := [1]
  lhsBatch := []
  rhsBatch := []
  wf := dot_S12288x512_S512x256_S12288x256_1_0_0_1_n_n_wf
def dot_S4096x256_S256x12288_S4096x12288_1_0_0_1_n_n : DotDims S4096x256 S256x12288 S4096x12288 where
  lhsContracting := [1]
  rhsContracting := [0]
  lhsNonContracting := [0]
  rhsNonContracting := [1]
  lhsBatch := []
  rhsBatch := []
  wf := dot_S4096x256_S256x12288_S4096x12288_1_0_0_1_n_n_wf
def dot_S4096x12288_S12288x256_S4096x256_1_0_0_1_n_n : DotDims S4096x12288 S12288x256 S4096x256 where
  lhsContracting := [1]
  rhsContracting := [0]
  lhsNonContracting := [0]
  rhsNonContracting := [1]
  lhsBatch := []
  rhsBatch := []
  wf := dot_S4096x12288_S12288x256_S4096x256_1_0_0_1_n_n_wf

class Facts : Prop extends Facts₀ where

variable [Facts]
-- ==== Proof.R0K.lean ====
/-
  The first launch, point by point. The launch runs over 8 grid points; at point `t` its body reads the block of
  512 query rows (49 planes of 512 x 256), the two weight matrices whole, and writes one block of 512 x 256.
  This file states, for any float instance and at any contents `V` of the TensorCore's buffers on entry:

  * `iblk0`   : each window's block at a point, read off its array;
  * `out0_3`  : what the body leaves in the output window's buffer, as a function of the three input blocks: the
                 49 planes are loaded one by one through the unit rectangles `rP s` at plane `s`, summed in five
                 partial sums, scaled, sent through the two linear maps with the rectifier between, normalised,
                 scaled by 6.25 and narrowed; the single store covers the buffer;
  * `sound_kernel0` : the body's triple: from the inputs' buffers at read contents `x0 x1 x2` and the output's at
                 anything, to the inputs' as they were and the output's at `out0_3 x0 x1 x2`;
  * `dat0`    : the pipeline's proof data (arrays as found; after the body each input's buffer still holds its
                 block and the output's holds `out0_3` of the blocks), and `body_obligation0`: the body meets it
                 at every point. The two weight windows are fetched at the first point only; their block index
                 never moves, so their buffers hold their block at every point all the same.
-/
import proofs.«136693_g50800873177169_feedfinal_599_15_alg».proof.Proof.Gen.Kernel.Launch
import proofs.«136693_g50800873177169_feedfinal_599_15_alg».proof.Proof.Gen.Kernel.Skeleton
import proofs.«136693_g50800873177169_feedfinal_599_15_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the launch is entered
variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether or not it was fetched there (an
    unfetched window's block index has not moved), for any proof data whose array is `V`'s and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: plane `s` of the input block, the weights whole, the output whole -/

abbrev rP0 : Rect S49x512x256 := Rect.unit (s := S49x512x256) ![0, 0, 0] S1x512x256.size inb_S49x512x256_S1x512x256_0_0_0
abbrev rP1 : Rect S49x512x256 := Rect.unit (s := S49x512x256) ![1, 0, 0] S1x512x256.size inb_S49x512x256_S1x512x256_1_0_0
abbrev rP2 : Rect S49x512x256 := Rect.unit (s := S49x512x256) ![2, 0, 0] S1x512x256.size inb_S49x512x256_S1x512x256_2_0_0
abbrev rP3 : Rect S49x512x256 := Rect.unit (s := S49x512x256) ![3, 0, 0] S1x512x256.size inb_S49x512x256_S1x512x256_3_0_0
abbrev rP4 : Rect S49x512x256 := Rect.unit (s := S49x512x256) ![4, 0, 0] S1x512x256.size inb_S49x512x256_S1x512x256_4_0_0
abbrev rP5 : Rect S49x512x256 := Rect.unit (s := S49x512x256) ![5, 0, 0] S1x512x256.size inb_S49x512x256_S1x512x256_5_0_0
abbrev rP6 : Rect S49x512x256 := Rect.unit (s := S49x512x256) ![6, 0, 0] S1x512x256.size inb_S49x512x256_S1x512x256_6_0_0
abbrev rP7 : Rect S49x512x256 := Rect.unit (s := S49x512x256) ![7, 0, 0] S1x512x256.size inb_S49x512x256_S1x512x256_7_0_0
abbrev rP8 : Rect S49x512x256 := Rect.unit (s := S49x512x256) ![8, 0, 0] S1x512x256.size inb_S49x512x256_S1x512x256_8_0_0
abbrev rP9 : Rect S49x512x256 := Rect.unit (s := S49x512x256) ![9, 0, 0] S1x512x256.size inb_S49x512x256_S1x512x256_9_0_0
abbrev rP10 : Rect S49x512x256 := Rect.unit (s := S49x512x256) ![10, 0, 0] S1x512x256.size inb_S49x512x256_S1x512x256_10_0_0
abbrev rP11 : Rect S49x512x256 := Rect.unit (s := S49x512x256) ![11, 0, 0] S1x512x256.size inb_S49x512x256_S1x512x256_11_0_0
abbrev rP12 : Rect S49x512x256 := Rect.unit (s := S49x512x256) ![12, 0, 0] S1x512x256.size inb_S49x512x256_S1x512x256_12_0_0
abbrev rP13 : Rect S49x512x256 := Rect.unit (s := S49x512x256) ![13, 0, 0] S1x512x256.size inb_S49x512x256_S1x512x256_13_0_0
abbrev rP14 : Rect S49x512x256 := Rect.unit (s := S49x512x256) ![14, 0, 0] S1x512x256.size inb_S49x512x256_S1x512x256_14_0_0
abbrev rP15 : Rect S49x512x256 := Rect.unit (s := S49x512x256) ![15, 0, 0] S1x512x256.size inb_S49x512x256_S1x512x256_15_0_0
abbrev rP16 : Rect S49x512x256 := Rect.unit (s := S49x512x256) ![16, 0, 0] S1x512x256.size inb_S49x512x256_S1x512x256_16_0_0
abbrev rP17 : Rect S49x512x256 := Rect.unit (s := S49x512x256) ![17, 0, 0] S1x512x256.size inb_S49x512x256_S1x512x256_17_0_0
abbrev rP18 : Rect S49x512x256 := Rect.unit (s := S49x512x256) ![18, 0, 0] S1x512x256.size inb_S49x512x256_S1x512x256_18_0_0
abbrev rP19 : Rect S49x512x256 := Rect.unit (s := S49x512x256) ![19, 0, 0] S1x512x256.size inb_S49x512x256_S1x512x256_19_0_0
abbrev rP20 : Rect S49x512x256 := Rect.unit (s := S49x512x256) ![20, 0, 0] S1x512x256.size inb_S49x512x256_S1x512x256_20_0_0
abbrev rP21 : Rect S49x512x256 := Rect.unit (s := S49x512x256) ![21, 0, 0] S1x512x256.size inb_S49x512x256_S1x512x256_21_0_0
abbrev rP22 : Rect S49x512x256 := Rect.unit (s := S49x512x256) ![22, 0, 0] S1x512x256.size inb_S49x512x256_S1x512x256_22_0_0
abbrev rP23 : Rect S49x512x256 := Rect.unit (s := S49x512x256) ![23, 0, 0] S1x512x256.size inb_S49x512x256_S1x512x256_23_0_0
abbrev rP24 : Rect S49x512x256 := Rect.unit (s := S49x512x256) ![24, 0, 0] S1x512x256.size inb_S49x512x256_S1x512x256_24_0_0
abbrev rP25 : Rect S49x512x256 := Rect.unit (s := S49x512x256) ![25, 0, 0] S1x512x256.size inb_S49x512x256_S1x512x256_25_0_0
abbrev rP26 : Rect S49x512x256 := Rect.unit (s := S49x512x256) ![26, 0, 0] S1x512x256.size inb_S49x512x256_S1x512x256_26_0_0
abbrev rP27 : Rect S49x512x256 := Rect.unit (s := S49x512x256) ![27, 0, 0] S1x512x256.size inb_S49x512x256_S1x512x256_27_0_0
abbrev rP28 : Rect S49x512x256 := Rect.unit (s := S49x512x256) ![28, 0, 0] S1x512x256.size inb_S49x512x256_S1x512x256_28_0_0
abbrev rP29 : Rect S49x512x256 := Rect.unit (s := S49x512x256) ![29, 0, 0] S1x512x256.size inb_S49x512x256_S1x512x256_29_0_0
abbrev rP30 : Rect S49x512x256 := Rect.unit (s := S49x512x256) ![30, 0, 0] S1x512x256.size inb_S49x512x256_S1x512x256_30_0_0
abbrev rP31 : Rect S49x512x256 := Rect.unit (s := S49x512x256) ![31, 0, 0] S1x512x256.size inb_S49x512x256_S1x512x256_31_0_0
abbrev rP32 : Rect S49x512x256 := Rect.unit (s := S49x512x256) ![32, 0, 0] S1x512x256.size inb_S49x512x256_S1x512x256_32_0_0
abbrev rP33 : Rect S49x512x256 := Rect.unit (s := S49x512x256) ![33, 0, 0] S1x512x256.size inb_S49x512x256_S1x512x256_33_0_0
abbrev rP34 : Rect S49x512x256 := Rect.unit (s := S49x512x256) ![34, 0, 0] S1x512x256.size inb_S49x512x256_S1x512x256_34_0_0
abbrev rP35 : Rect S49x512x256 := Rect.unit (s := S49x512x256) ![35, 0, 0] S1x512x256.size inb_S49x512x256_S1x512x256_35_0_0
abbrev rP36 : Rect S49x512x256 := Rect.unit (s := S49x512x256) ![36, 0, 0] S1x512x256.size inb_S49x512x256_S1x512x256_36_0_0
abbrev rP37 : Rect S49x512x256 := Rect.unit (s := S49x512x256) ![37, 0, 0] S1x512x256.size inb_S49x512x256_S1x512x256_37_0_0
abbrev rP38 : Rect S49x512x256 := Rect.unit (s := S49x512x256) ![38, 0, 0] S1x512x256.size inb_S49x512x256_S1x512x256_38_0_0
abbrev rP39 : Rect S49x512x256 := Rect.unit (s := S49x512x256) ![39, 0, 0] S1x512x256.size inb_S49x512x256_S1x512x256_39_0_0
abbrev rP40 : Rect S49x512x256 := Rect.unit (s := S49x512x256) ![40, 0, 0] S1x512x256.size inb_S49x512x256_S1x512x256_40_0_0
abbrev rP41 : Rect S49x512x256 := Rect.unit (s := S49x512x256) ![41, 0, 0] S1x512x256.size inb_S49x512x256_S1x512x256_41_0_0
abbrev rP42 : Rect S49x512x256 := Rect.unit (s := S49x512x256) ![42, 0, 0] S1x512x256.size inb_S49x512x256_S1x512x256_42_0_0
abbrev rP43 : Rect S49x512x256 := Rect.unit (s := S49x512x256) ![43, 0, 0] S1x512x256.size inb_S49x512x256_S1x512x256_43_0_0
abbrev rP44 : Rect S49x512x256 := Rect.unit (s := S49x512x256) ![44, 0, 0] S1x512x256.size inb_S49x512x256_S1x512x256_44_0_0
abbrev rP45 : Rect S49x512x256 := Rect.unit (s := S49x512x256) ![45, 0, 0] S1x512x256.size inb_S49x512x256_S1x512x256_45_0_0
abbrev rP46 : Rect S49x512x256 := Rect.unit (s := S49x512x256) ![46, 0, 0] S1x512x256.size inb_S49x512x256_S1x512x256_46_0_0
abbrev rP47 : Rect S49x512x256 := Rect.unit (s := S49x512x256) ![47, 0, 0] S1x512x256.size inb_S49x512x256_S1x512x256_47_0_0
abbrev rP48 : Rect S49x512x256 := Rect.unit (s := S49x512x256) ![48, 0, 0] S1x512x256.size inb_S49x512x256_S1x512x256_48_0_0
abbrev rW1 : Rect S256x512 := Rect.unit (s := S256x512) ![0, 0] S256x512.size inb_S256x512_S256x512_0_0
abbrev rW2 : Rect S512x256 := Rect.unit (s := S512x256) ![0, 0] S512x256.size inb_S512x256_S512x256_0_0

/-! ## What the body leaves in the output window's buffer -/

/-- The output window's buffer after the body, from the input windows' blocks: its one store, whose payload is the
    chain of the five partial sums of planes, the scaling, and the embedding. -/
def out0_3 (x0 : Vec F S49x512x256 .f32) (x1 : Vec F S256x512 .f32) (x2 : Vec F S512x256 .f32) : Vec F S512x256 .bf16 :=
  View.canon [⟨rW2, k0_pay1 (k0_pay6 (k0_pay5 (k0_pay4 (k0_pay3 (k0_pay2 (View.ld x0 rP0) (View.ld x0 rP1) (View.ld x0 rP2) (View.ld x0 rP3) (View.ld x0 rP4) (View.ld x0 rP5) (View.ld x0 rP6) (View.ld x0 rP7) (View.ld x0 rP8) (View.ld x0 rP9)) (View.ld x0 rP10) (View.ld x0 rP11) (View.ld x0 rP12) (View.ld x0 rP13) (View.ld x0 rP14) (View.ld x0 rP15) (View.ld x0 rP16) (View.ld x0 rP17) (View.ld x0 rP18) (View.ld x0 rP19)) (View.ld x0 rP20) (View.ld x0 rP21) (View.ld x0 rP22) (View.ld x0 rP23) (View.ld x0 rP24) (View.ld x0 rP25) (View.ld x0 rP26) (View.ld x0 rP27) (View.ld x0 rP28) (View.ld x0 rP29)) (View.ld x0 rP30) (View.ld x0 rP31) (View.ld x0 rP32) (View.ld x0 rP33) (View.ld x0 rP34) (View.ld x0 rP35) (View.ld x0 rP36) (View.ld x0 rP37) (View.ld x0 rP38) (View.ld x0 rP39)) (View.ld x0 rP40) (View.ld x0 rP41) (View.ld x0 rP42) (View.ld x0 rP43) (View.ld x0 rP44) (View.ld x0 rP45) (View.ld x0 rP46) (View.ld x0 rP47) (View.ld x0 rP48)) (View.ld x1 rW1) (View.ld x2 rW2)⟩]

/-- The store covers the buffer. -/
theorem cover0_3 (p0 : Vec F S512x256 .bf16) (y : S512x256.Idx) :
    ∃ pc ∈ ([⟨rW2, p0⟩] : List (View.Piece (Elt F) S512x256 .bf16)), y ∈ pc.1.set :=
  View.cover_of_tiled [⟨rW2, p0⟩] S512x256.size (by rfl) y

/-! ## The body's triple -/

set_option maxHeartbeats 4000000 in
/-- The body on whole buffers, the inputs' at read contents `x0 x1 x2` and the output's at anything, runs to the
    continuation holding the inputs' as they were and the output's at `out0_3` of the inputs'. -/
theorem sound_kernel0 (c : Dev nD) (E : Set ℕ) (i : grid0.Coords)
    (arg1 : Memref sig .tc .vmem S49x512x256 .f32) (harg1 : arg1.IsWhole) (arg2 : Memref sig .tc .vmem S256x512 .f32) (harg2 : arg2.IsWhole)
    (arg3 : Memref sig .tc .vmem S512x256 .f32) (harg3 : arg3.IsWhole) (arg4 : Memref sig .tc .vmem S512x256 .bf16) (harg4 : arg4.IsWhole)
    (x0 : Vec F S49x512x256 .f32) (x1 : Vec F S256x512 .f32) (x2 : Vec F S512x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__query_body i arg1 harg1 arg2 harg2 arg3 harg3 arg4 harg4) K := by
  simp only [cc0__query_body_eq_skeleton]; unfold cc0__query_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The pipeline's proof data -/

/-- The proof data of the first launch on core `c`: the arrays as the launch finds them; after the body at point
    `t` each input's buffer at its block and the output's at `out0_3` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.R1RunsK.lean ====
/-
  The second launch (the context pass): what its three kinds of grid point share.

  The grid has 48 points. The body zeroes its two accumulators at point 0, adds one block of 256 context rows'
  contribution to them at every point, and at point 47 divides, applies the last two linear maps and stores the
  result block. So a point is of one of three kinds, told apart by two conditions on the grid coordinate:
  the first point (reset, accumulate), a middle point (accumulate), the last point (accumulate, finish).
  This module states the two conditions in closed form, where the result window is idle, the staging and
  accumulator memrefs the body is called on, and each window's block at a point read off the array the launch finds.
-/
import proofs.«136693_g50800873177169_feedfinal_599_15_alg».proof.Proof.Gen.Kernel.Launch
import proofs.«136693_g50800873177169_feedfinal_599_15_alg».proof.Proof.Gen.Kernel.Skeleton
import proofs.«136693_g50800873177169_feedfinal_599_15_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

end

/-! ## The two conditions -/

/-- "This is the first point": the body's first conditional, from the grid coordinate. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 48 = 0 :=
  (by decide +kernel : ∀ t : Fin grid1.N, cond1_0 (grid1.coords t) ↔ t.val % 48 = 0)

/-- "This is the last point": the body's second conditional. -/
abbrev cond1_1 (i : grid1.Coords) : Prop := k1_cond2 i = 1#1
theorem hcond1_1 : ∀ t : Fin cfg1.N, cond1_1 (grid1.coords t) ↔ t.val % 48 = 47 :=
  (by decide +kernel : ∀ t : Fin grid1.N, cond1_1 (grid1.coords t) ↔ t.val % 48 = 47)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- At the first point and at the middle points the result window is idle and not written back; at the last it is live. -/
theorem idleAt1_8_A : ∀ t : Fin cfg1.N, cond1_0 (grid1.coords t) → ¬cond1_1 (grid1.coords t) → cfg1.idle 8 (grid1.coords t) = true := by decide +kernel
theorem noFlush1_8_A : ∀ t : Fin cfg1.N, cond1_0 (grid1.coords t) → ¬cond1_1 (grid1.coords t) → (cfg1.win 8).flush t = false := by decide +kernel
theorem idleAt1_8_B : ∀ t : Fin cfg1.N, ¬cond1_0 (grid1.coords t) → ¬cond1_1 (grid1.coords t) → cfg1.idle 8 (grid1.coords t) = true := by decide +kernel
theorem noFlush1_8_B : ∀ t : Fin cfg1.N, ¬cond1_0 (grid1.coords t) → ¬cond1_1 (grid1.coords t) → (cfg1.win 8).flush t = false := by decide +kernel
theorem liveAt1_8_C : ∀ t : Fin cfg1.N, ¬cond1_0 (grid1.coords t) → cond1_1 (grid1.coords t) → cfg1.idle 8 (grid1.coords t) = false := by decide +kernel

/-! ## The memrefs the body is called on -/

/-- One staging buffer of the result window, through which its contents are stated. -/
abbrev VO1_8 : View sig .tc .vmem S4096x256 .f32 := (Memref.whole cc1_stg8_0 : Memref sig .tc .vmem S4096x256 .f32).view
abbrev ms1_0 (t : Fin cfg1.N) : Memref sig .tc .vmem S49x256x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S4096x256 .f32 := win1_8.stage (cfg1.slots t 8)
abbrev hs1_8 (t : Fin cfg1.N) : (ms1_8 t).IsWhole := hstage1_8 ((cfg1.slots t 8).cast nbuf1_8)
/-- The two accumulators: whole scoped buffers of the kernel's own, passed beside the windows. -/
abbrev scM1_0 : Memref sig .tc .vmem S4096x256 .f32 := Memref.whole cc1_scratch0
abbrev scM1_1 : Memref sig .tc .vmem S4096x1 .f32 := Memref.whole cc1_scratch1
abbrev VS1_0 : View sig .tc .vmem S4096x256 .f32 := scM1_0.view
abbrev VS1_1 : View sig .tc .vmem S4096x1 .f32 := scM1_1.view

/-- The other launch's six staging buffers, each whole at some contents: they ride through this launch untouched. -/
abbrev stgRest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The class invariant spelled out: the other launch's staging buffers, the two accumulators owned at some contents,
    and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.Kernel.Hand

end
-- ==== Proof.R1RunAK.lean ====
/-
  The whole body of the context pass run at the first point (reset, then accumulate): on whole staging memrefs holding the point's input
  blocks, the result buffer at contents handed back untouched and the two accumulators at anything,
  the body runs to its end leaving the inputs as they were and each buffer it stored into with its stores
  written as a list of pieces (last first) — the lists are what the symbolic run finds.
-/
import proofs.«136693_g50800873177169_feedfinal_599_15_alg».proof.Proof.R1RunsK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) :
    Σ' (L8 : List (View.Piece (Elt F) S4096x256 .f32)) (LS0 : List (View.Piece (Elt F) S4096x256 .f32)), { LS1 : List (View.Piece (Elt F) S4096x1 .f32) //
      ∀ (xi8 : Vec F S4096x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__ctx_attn_body i arg1 harg1 arg2 harg2 arg3 harg3 arg4 harg4 arg5 harg5 arg6 harg6 arg7 harg7 arg8 harg8 arg9 harg9 arg10 harg10 arg11 harg11) K } := by
  refine ⟨[], ?_, ?_, fun xi8 E K => ?run⟩
  case run =>
    simp only [cc1__ctx_attn_body_eq_skeleton]; unfold cc1__ctx_attn_body_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.R1RunBK.lean ====
/-
  The whole body of the context pass run at a middle point (accumulate): on whole staging memrefs holding the point's input
  blocks, the result buffer at contents handed back untouched and the two accumulators at the contents the point before left,
  the body runs to its end leaving the inputs as they were and each buffer it stored into with its stores
  written as a list of pieces (last first) — the lists are what the symbolic run finds.
-/
import proofs.«136693_g50800873177169_feedfinal_599_15_alg».proof.Proof.R1RunAK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) :
    Σ' (L8 : List (View.Piece (Elt F) S4096x256 .f32)) (LS0 : List (View.Piece (Elt F) S4096x256 .f32)), { LS1 : List (View.Piece (Elt F) S4096x1 .f32) //
      ∀ (xi8 : Vec F S4096x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__ctx_attn_body i arg1 harg1 arg2 harg2 arg3 harg3 arg4 harg4 arg5 harg5 arg6 harg6 arg7 harg7 arg8 harg8 arg9 harg9 arg10 harg10 arg11 harg11) K } := by
  refine ⟨[], ?_, ?_, fun xi8 E K => ?run⟩
  case run =>
    simp only [cc1__ctx_attn_body_eq_skeleton]; unfold cc1__ctx_attn_body_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.R1RunCK.lean ====
/-
  The whole body of the context pass run at the last point (accumulate, then finish): on whole staging memrefs holding the point's input
  blocks, the result buffer at anything and the two accumulators at the contents the point before left,
  the body runs to its end leaving the inputs as they were and each buffer it stored into with its stores
  written as a list of pieces (last first) — the lists are what the symbolic run finds.
-/
import proofs.«136693_g50800873177169_feedfinal_599_15_alg».proof.Proof.R1RunBK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) :
    Σ' (L8 : List (View.Piece (Elt F) S4096x256 .f32)) (LS0 : List (View.Piece (Elt F) S4096x256 .f32)), { LS1 : List (View.Piece (Elt F) S4096x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__ctx_attn_body i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__ctx_attn_body_eq_skeleton]; unfold cc1__ctx_attn_body_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]; · iexists _; iexact HS0
    iexists _; iexact HS1

end Cert.Kernel.Hand

end
-- ==== Proof.R1K.lean ====
/-
  The second launch (the context pass), point by point.

  After the body at point n the result buffer and the two accumulators hold what the point's kind of run leaves:
  at point 0 the accumulators restart from zero, at every later point they continue from what the point before
  left, and only the last point stores the result block (elsewhere the result window is idle and is not written
  back). The launch's invariant between points is the rest of the scoped memory together with the two accumulators
  at exactly those contents; the proof data name them, and the body's triple at a generic point is the run of the
  point's kind.
-/
import proofs.«136693_g50800873177169_feedfinal_599_15_alg».proof.Proof.R1RunCK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### the first point (reset, then accumulate) -/

/-- Nothing is stored into the result buffer here (the window is idle and not written back): a placeholder nothing consults. -/
def out1_A_8 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) : Vec F S4096x256 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1)

/-- The stores into the first accumulator include one of the whole buffer, so they cover it. -/
theorem scover1_A_0 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (y : S4096x256.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_wholeMem (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1 (by sl_whole_mem) y

/-- What the first accumulator holds after the body. -/
def sout1_A_0 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) : Vec F S4096x256 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1)

/-- The stores into the second accumulator include one of the whole buffer, so they cover it. -/
theorem scover1_A_1 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (y : S4096x1.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1, y ∈ pc.1.set :=
  View.cover_of_wholeMem (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1 (by sl_whole_mem) y

/-- What the second accumulator holds after the body. -/
def sout1_A_1 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) : Vec F S4096x1 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1)

/-! ### a middle point (accumulate) -/

/-- Nothing is stored into the result buffer here (the window is idle and not written back): a placeholder nothing consults. -/
def out1_B_8 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) : Vec F S4096x256 .f32 :=
  VO1_8.read (Elt F) (VO1_8.writes (Elt F) VO1_8.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1)

/-- The stores into the first accumulator include one of the whole buffer, so they cover it. -/
theorem scover1_B_0 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) (y : S4096x256.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1, y ∈ pc.1.set :=
  View.cover_of_wholeMem (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1 (by sl_whole_mem) y

/-- What the first accumulator holds after the body. -/
def sout1_B_0 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) : Vec F S4096x256 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1)

/-- The stores into the second accumulator include one of the whole buffer, so they cover it. -/
theorem scover1_B_1 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) (y : S4096x1.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1, y ∈ pc.1.set :=
  View.cover_of_wholeMem (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1 (by sl_whole_mem) y

/-- What the second accumulator holds after the body. -/
def sout1_B_1 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) : Vec F S4096x1 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1)

/-! ### the last point (accumulate, then finish) -/

/-- The one store into the result buffer is of the whole block, so the stores cover it. -/
theorem cover1_C_8 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) (y : S4096x256.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1, y ∈ pc.1.set :=
  View.cover_of_wholeMem (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1 (by sl_whole_mem) y

/-- What the result buffer holds after the body: its stores read back. -/
def out1_C_8 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) : Vec F S4096x256 .f32 :=
  VO1_8.read (Elt F) (VO1_8.writes (Elt F) VO1_8.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1)

/-- The stores into the first accumulator include one of the whole buffer, so they cover it. -/
theorem scover1_C_0 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) (y : S4096x256.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1, y ∈ pc.1.set :=
  View.cover_of_wholeMem (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1 (by sl_whole_mem) y

/-- What the first accumulator holds after the body. -/
def sout1_C_0 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) : Vec F S4096x256 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1)

/-- The stores into the second accumulator include one of the whole buffer, so they cover it. -/
theorem scover1_C_1 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) (y : S4096x1.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1, y ∈ pc.1.set :=
  View.cover_of_wholeMem (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1 (by sl_whole_mem) y

/-- What the second accumulator holds after the body. -/
def sout1_C_1 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) : Vec F S4096x1 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1)

variable (V : (c : Dev nD) → (b : Ref sig .tc) → Buf (Elt F) ((c : Thread nD τ).loc b))

/-! ## What the buffers hold after each point -/

/-- The result buffer and the two accumulators after the body at position `n`. -/
def outsAt1 (c : Dev nD) : (n : ℕ) → n < cfg1.N → Vec F S4096x256 .f32 × Vec F S4096x256 .f32 × Vec F S4096x1 .f32
  | 0, hn => (out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 48 = 0 then
      False.elim (by have hN : n + 1 < 48 := lt_of_lt_of_eq hn (show cfg1.N = 48 from N_1); omega)
    else
      if h1 : (n + 1) % 48 = 47 then
        (out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.1 (outsAt1 c n (Nat.lt_of_succ_lt hn)).2.2)
      else
        (out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.1 (outsAt1 c n (Nat.lt_of_succ_lt hn)).2.2)

/-- At the first point: the restart. -/
theorem outsAt1_A (c : Dev nD) (t : Fin cfg1.N) (h0 : t.val % 48 = 0) (h1 : ¬t.val % 48 = 47) :
    outsAt1 V c t.val t.isLt = (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (by exfalso; have hN : n + 1 < 48 := lt_of_lt_of_eq hn (show cfg1.N = 48 from N_1); (try dsimp only at h0); omega)

/-- At a middle point: the continuation of what the point before left. -/
theorem outsAt1_B (c : Dev nD) (t : Fin cfg1.N) (h0 : ¬t.val % 48 = 0) (h1 : ¬t.val % 48 = 47) :
    outsAt1 V c t.val t.isLt = (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At the last point: the continuation, and the result block. -/
theorem outsAt1_C (c : Dev nD) (t : Fin cfg1.N) (h0 : ¬t.val % 48 = 0) (h1 : t.val % 48 = 47) :
    outsAt1 V c t.val t.isLt = (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The launch's invariant before position `n`: at first the class's (every scoped buffer at anything); afterwards the
    other launch's staging buffers at anything, the two accumulators at what the point before left, and the generator
    register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
      ∗ owns (c : Thread nD τ) scM1_0 fullShare ((outsAt1 V c n hn).2.1) ∗ owns (c : Thread nD τ) scM1_1 fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
      ∗ owns (c : Thread nD τ) scM1_0 fullShare ((outsAt1 V c n hn).2.1) ∗ owns (c : Thread nD τ) scM1_1 fullShare ((outsAt1 V c n hn).2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
      ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The proof data -/

/-- The arrays as the launch finds them; after the body at point `t` each input's buffer at its block and the result
    buffer at `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point: the inputs' memrefs hold their blocks; the closed forms say which kind of point it is; the
    invariant hands the body the accumulators at what the point before left (at anything at the first point) and takes
    them back at this point's contents; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS V c (t.val + 1) t.isLt from rfl, PhiS_succ]
  have hN : t.val < 48 := lt_of_lt_of_eq t.isLt (show cfg1.N = 48 from N_1)
  by_cases h0 : t.val % 48 = 0
  · by_cases h1 : t.val % 48 = 47
    · exfalso; omega
    · have hz : t.val = 0 := by omega
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [Dat.leavesExact_idle (dat1 V c) 8 t (idleAt1_8_A t ((hcond1_0 t).mpr h0) (fun h => h1 ((hcond1_1 t).mp h))) (noFlush1_8_A t ((hcond1_0 t).mpr h0) (fun h => h1 ((hcond1_1 t).mp h)))]
      rw [outsAt1_A V c t h0 h1]
      unfold sout1_A_0 sout1_A_1; (try dsimp only)
      rw [PhiS_castSucc V c t, PhiS_zero V c _ _ hz, PhiA1_eq]
      iintro ⟨⟨⟨HA1, HA2, HA3, HA4, HA5, HA6, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, ⟨%es0, HS0⟩, ⟨%es1, HS1⟩⟩
      isplitl [HA1 HA2 HA3 HA4 HA5 HA6 HS0 HS1 Hg]
      · isplitl [HA1 HA2 HA3 HA4 HA5 HA6 HS0 HS1]
        · isplitl [HA1]; · iexact HA1
          isplitl [HA2]; · iexact HA2
          isplitl [HA3]; · iexact HA3
          isplitl [HA4]; · iexact HA4
          isplitl [HA5]; · iexact HA5
          isplitl [HA6]; · iexact HA6
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ )
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz : t.val ≠ 0 := fun e => h0 (by rw [e])
    by_cases h1 : t.val % 48 = 47
    · skip
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8_C t (fun h => h0 ((hcond1_0 t).mp h)) ((hcond1_1 t).mpr h1)], after1_8]
      rw [outsAt1_C V c t h0 h1]
      unfold out1_C_8 sout1_C_0 sout1_C_1; (try dsimp only)
      rw [PhiS_castSucc V c t, PhiS_pos V c _ _ hz]
      iintro ⟨⟨⟨HA1, HA2, HA3, HA4, HA5, HA6, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, ⟨%e8, H8⟩, ⟨%es0, HS0⟩, ⟨%es1, HS1⟩⟩
      isplitl [HA1 HA2 HA3 HA4 HA5 HA6 HS0 HS1 Hg]
      · isplitl [HA1 HA2 HA3 HA4 HA5 HA6 HS0 HS1]
        · isplitl [HA1]; · iexact HA1
          isplitl [HA2]; · iexact HA2
          isplitl [HA3]; · iexact HA3
          isplitl [HA4]; · iexact HA4
          isplitl [HA5]; · iexact HA5
          isplitl [HA6]; · iexact HA6
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_C_8 c _ _ _ _ _ _ _ _ _ _ _ _ _ _ _ _ _ _ _ _ _ _ _ _ _ _ _ _ _ _ _ _ _ _ _)
    · skip
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [Dat.leavesExact_idle (dat1 V c) 8 t (idleAt1_8_B t (fun h => h0 ((hcond1_0 t).mp h)) (fun h => h1 ((hcond1_1 t).mp h))) (noFlush1_8_B t (fun h => h0 ((hcond1_0 t).mp h)) (fun h => h1 ((hcond1_1 t).mp h)))]
      rw [outsAt1_B V c t h0 h1]
      unfold sout1_B_0 sout1_B_1; (try dsimp only)
      rw [PhiS_castSucc V c t, PhiS_pos V c _ _ hz]
      iintro ⟨⟨⟨HA1, HA2, HA3, HA4, HA5, HA6, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, ⟨%es0, HS0⟩, ⟨%es1, HS1⟩⟩
      isplitl [HA1 HA2 HA3 HA4 HA5 HA6 HS0 HS1 Hg]
      · isplitl [HA1 HA2 HA3 HA4 HA5 HA6 HS0 HS1]
        · isplitl [HA1]; · iexact HA1
          isplitl [HA2]; · iexact HA2
          isplitl [HA3]; · iexact HA3
          isplitl [HA4]; · iexact HA4
          isplitl [HA5]; · iexact HA5
          isplitl [HA6]; · iexact HA6
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HA1, HA2, HA3, HA4, HA5, HA6, HS0, HS1⟩, Hg⟩
  isplitl [HA1 HA2 HA3 HA4 HA5 HA6 HS0 HS1]
  · isplitl [HA1]; · iexact HA1
    isplitl [HA2]; · iexact HA2
    isplitl [HA3]; · iexact HA3
    isplitl [HA4]; · iexact HA4
    isplitl [HA5]; · iexact HA5
    isplitl [HA6]; · iexact HA6
    isplitl [HS0]; · iexists _; iexact HS0
    iexists _; iexact HS1
  iexact Hg

theorem hout1 (c : Dev nD) : (dat1 V c).Φ (Fin.last cfg1.N) ⊢ Pipeline.ΦA spec1 c :=
  Phi_out1 V c _ (by rw [Fin.val_last]; have : cfg1.N = 48 := N_1; omega)

end Cert.Kernel.Hand

end
-- ==== Proof.RunK.lean ====
/-
  The whole program as a run: the four layout operations on the host, the query pass, the context pass.

  Between two of these the core's unscoped buffers are held at named contents: as launched, then with the host's
  four results written, then with the query array replaced by what the query pass's write-backs leave, then with the
  result array replaced by what the context pass's write-backs leave. Each pass is entered from the contents before it
  and left at the contents after it; the accumulators of the context pass live in its own invariant. At the end every
  unscoped buffer is read at the last contents: the ten argument arrays walk back to the launch memory, and the
  result array is what the context pass's proof data compute.
-/
import proofs.«136693_g50800873177169_feedfinal_599_15_alg».proof.Proof.R0K
import proofs.«136693_g50800873177169_feedfinal_599_15_alg».proof.Proof.R1K
import proofs.«136693_g50800873177169_feedfinal_599_15_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- As launched. -/
abbrev W0 (m : (ℓ : Loc nD τ sig) → Buf (Elt F) ℓ) (ρ : Dev nD → PrngReg) : Dev nD → Valuation τ sig (Elt F) := fun c => Gen.V0 m c
/-- After the host's layout operations. -/
abbrev W1 (m : (ℓ : Loc nD τ sig) → Buf (Elt F) ℓ) (ρ : Dev nD → PrngReg) : Dev nD → Valuation τ sig (Elt F) := fun c => Gen.V1 m c
abbrev V1 : (c : Dev nD) → (b : Ref sig .tc) → Buf (Elt F) ((c : Thread nD τ).loc b) := fun c b => W1 m ρ c b
/-- After the query pass: its arrays at what its write-backs leave, every other buffer as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the context pass. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := Gen.V1_of m c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := Gen.V1_of m c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := Gen.V1_of m c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := Gen.V1_of m c main_arg3 (by decide)
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := (W3_arr m ρ c 2).trans (((dat1 (V2 m ρ) c).arrAt_in 2 rfl _).trans (A_eq1 (V2 m ρ) c 2))
    _ = W1 m ρ c (Proc.devRef .tc main_arg4) := W2_of_ne m ρ c main_arg4 (by decide)
    _ = W0 m ρ c (Proc.devRef .tc main_arg4) := Gen.V1_of m c main_arg4 (by decide)
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := (W3_arr m ρ c 3).trans (((dat1 (V2 m ρ) c).arrAt_in 3 rfl _).trans (A_eq1 (V2 m ρ) c 3))
    _ = W1 m ρ c (Proc.devRef .tc main_arg5) := W2_of_ne m ρ c main_arg5 (by decide)
    _ = W0 m ρ c (Proc.devRef .tc main_arg5) := Gen.V1_of m c main_arg5 (by decide)
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := (W3_arr m ρ c 4).trans (((dat1 (V2 m ρ) c).arrAt_in 4 rfl _).trans (A_eq1 (V2 m ρ) c 4))
    _ = W1 m ρ c (Proc.devRef .tc main_arg6) := W2_of_ne m ρ c main_arg6 (by decide)
    _ = W0 m ρ c (Proc.devRef .tc main_arg6) := Gen.V1_of m c main_arg6 (by decide)
    _ = m ((c : Thread nD τ).loc main_arg6) := rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := (W3_arr m ρ c 5).trans (((dat1 (V2 m ρ) c).arrAt_in 5 rfl _).trans (A_eq1 (V2 m ρ) c 5))
    _ = W1 m ρ c (Proc.devRef .tc main_arg7) := W2_of_ne m ρ c main_arg7 (by decide)
    _ = W0 m ρ c (Proc.devRef .tc main_arg7) := Gen.V1_of m c main_arg7 (by decide)
    _ = m ((c : Thread nD τ).loc main_arg7) := rfl

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := (W3_arr m ρ c 6).trans (((dat1 (V2 m ρ) c).arrAt_in 6 rfl _).trans (A_eq1 (V2 m ρ) c 6))
    _ = W1 m ρ c (Proc.devRef .tc main_arg8) := W2_of_ne m ρ c main_arg8 (by decide)
    _ = W0 m ρ c (Proc.devRef .tc main_arg8) := Gen.V1_of m c main_arg8 (by decide)
    _ = m ((c : Thread nD τ).loc main_arg8) := rfl

theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := (W3_arr m ρ c 7).trans (((dat1 (V2 m ρ) c).arrAt_in 7 rfl _).trans (A_eq1 (V2 m ρ) c 7))
    _ = W1 m ρ c (Proc.devRef .tc main_arg9) := W2_of_ne m ρ c main_arg9 (by decide)
    _ = W0 m ρ c (Proc.devRef .tc main_arg9) := Gen.V1_of m c main_arg9 (by decide)
    _ = m ((c : Thread nD τ).loc main_arg9) := rfl

/-- The result array at the end is what the context pass's proof data compute. -/
theorem W3_main_v5 (c : Dev nD) : W3 m ρ c (Proc.devRef .tc main_v5) = (dat1 (V2 m ρ) c).arrAt 8 cfg1.N :=
  W3_arr m ρ c 8

/-! ## The proof data family and the thread state -/

def pdats : (p : Fin 2) → (c : Dev nD) → Dat τ (Elt F) Unit ℕ (UR sig nD τ) ℕ (Pipeline.pin (pcfgs (F := F)) Gen.adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The two passes as segments -/

set_option backward.isDefEq.respectTransparency.types false in
def reg0 : Pipeline.RegionSeg (pcfgs (F := F)) Gen.adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) Gen.adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) Gen.adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) Gen.adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) Gen.adm (pdats m ρ) () defs₀ 𝒱₀ L lv) :=
  [ .host (hseg hostOps0 hostOps0_sub Gen.hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution from memory `m` with zero counters terminates, nothing faulting, and every final state
    holds each unscoped buffer at the last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) Gen.adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c)⟩) (run_all m ρ)

/-- The run with the result named: the result array ends at what the context pass's proof data compute, the arguments as launched. -/
theorem run_value : θ_run defs (onTc (τ := τ) (main (F := F))) ⟨m, fun _ => 0, ρ⟩ (fun r => ∀ c : Dev nD,
      r.2.mem ((c.tc : Thread nD τ).loc main_v5) = (dat1 (V2 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v5 (by decide))).trans (W3_main_v5 m ρ c),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c)⟩) (run_all m ρ)

end Cert.Kernel.Hand

end
-- ==== Proof.R0.lean ====
/-
  The first launch, point by point. The launch runs over 8 grid points; at point `t` its body reads the block of
  512 query rows (49 planes of 512 x 256), the two weight matrices whole, and writes one block of 512 x 256.
  This file states, for any float instance and at any contents `V` of the TensorCore's buffers on entry:

  * `iblk0`   : each window's block at a point, read off its array;
  * `out0_3`  : what the body leaves in the output window's buffer, as a function of the three input blocks: the
                 49 planes are loaded one by one through the unit rectangles `rP s` at plane `s`, summed in five
                 partial sums, scaled, sent through the two linear maps with the rectifier between, normalised,
                 scaled by 6.25 and narrowed; the single store covers the buffer;
  * `sound_kernel0` : the body's triple: from the inputs' buffers at read contents `x0 x1 x2` and the output's at
                 anything, to the inputs' as they were and the output's at `out0_3 x0 x1 x2`;
  * `dat0`    : the pipeline's proof data (arrays as found; after the body each input's buffer still holds its
                 block and the output's holds `out0_3` of the blocks), and `body_obligation0`: the body meets it
                 at every point. The two weight windows are fetched at the first point only; their block index
                 never moves, so their buffers hold their block at every point all the same.
-/
import proofs.«136693_g50800873177169_feedfinal_599_15_alg».proof.Proof.Gen.KernelIdeal.Launch
import proofs.«136693_g50800873177169_feedfinal_599_15_alg».proof.Proof.Gen.KernelIdeal.Skeleton
import proofs.«136693_g50800873177169_feedfinal_599_15_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the launch is entered
variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether or not it was fetched there (an
    unfetched window's block index has not moved), for any proof data whose array is `V`'s and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: plane `s` of the input block, the weights whole, the output whole -/

abbrev rP0 : Rect S49x512x256 := Rect.unit (s := S49x512x256) ![0, 0, 0] S1x512x256.size inb_S49x512x256_S1x512x256_0_0_0
abbrev rP1 : Rect S49x512x256 := Rect.unit (s := S49x512x256) ![1, 0, 0] S1x512x256.size inb_S49x512x256_S1x512x256_1_0_0
abbrev rP2 : Rect S49x512x256 := Rect.unit (s := S49x512x256) ![2, 0, 0] S1x512x256.size inb_S49x512x256_S1x512x256_2_0_0
abbrev rP3 : Rect S49x512x256 := Rect.unit (s := S49x512x256) ![3, 0, 0] S1x512x256.size inb_S49x512x256_S1x512x256_3_0_0
abbrev rP4 : Rect S49x512x256 := Rect.unit (s := S49x512x256) ![4, 0, 0] S1x512x256.size inb_S49x512x256_S1x512x256_4_0_0
abbrev rP5 : Rect S49x512x256 := Rect.unit (s := S49x512x256) ![5, 0, 0] S1x512x256.size inb_S49x512x256_S1x512x256_5_0_0
abbrev rP6 : Rect S49x512x256 := Rect.unit (s := S49x512x256) ![6, 0, 0] S1x512x256.size inb_S49x512x256_S1x512x256_6_0_0
abbrev rP7 : Rect S49x512x256 := Rect.unit (s := S49x512x256) ![7, 0, 0] S1x512x256.size inb_S49x512x256_S1x512x256_7_0_0
abbrev rP8 : Rect S49x512x256 := Rect.unit (s := S49x512x256) ![8, 0, 0] S1x512x256.size inb_S49x512x256_S1x512x256_8_0_0
abbrev rP9 : Rect S49x512x256 := Rect.unit (s := S49x512x256) ![9, 0, 0] S1x512x256.size inb_S49x512x256_S1x512x256_9_0_0
abbrev rP10 : Rect S49x512x256 := Rect.unit (s := S49x512x256) ![10, 0, 0] S1x512x256.size inb_S49x512x256_S1x512x256_10_0_0
abbrev rP11 : Rect S49x512x256 := Rect.unit (s := S49x512x256) ![11, 0, 0] S1x512x256.size inb_S49x512x256_S1x512x256_11_0_0
abbrev rP12 : Rect S49x512x256 := Rect.unit (s := S49x512x256) ![12, 0, 0] S1x512x256.size inb_S49x512x256_S1x512x256_12_0_0
abbrev rP13 : Rect S49x512x256 := Rect.unit (s := S49x512x256) ![13, 0, 0] S1x512x256.size inb_S49x512x256_S1x512x256_13_0_0
abbrev rP14 : Rect S49x512x256 := Rect.unit (s := S49x512x256) ![14, 0, 0] S1x512x256.size inb_S49x512x256_S1x512x256_14_0_0
abbrev rP15 : Rect S49x512x256 := Rect.unit (s := S49x512x256) ![15, 0, 0] S1x512x256.size inb_S49x512x256_S1x512x256_15_0_0
abbrev rP16 : Rect S49x512x256 := Rect.unit (s := S49x512x256) ![16, 0, 0] S1x512x256.size inb_S49x512x256_S1x512x256_16_0_0
abbrev rP17 : Rect S49x512x256 := Rect.unit (s := S49x512x256) ![17, 0, 0] S1x512x256.size inb_S49x512x256_S1x512x256_17_0_0
abbrev rP18 : Rect S49x512x256 := Rect.unit (s := S49x512x256) ![18, 0, 0] S1x512x256.size inb_S49x512x256_S1x512x256_18_0_0
abbrev rP19 : Rect S49x512x256 := Rect.unit (s := S49x512x256) ![19, 0, 0] S1x512x256.size inb_S49x512x256_S1x512x256_19_0_0
abbrev rP20 : Rect S49x512x256 := Rect.unit (s := S49x512x256) ![20, 0, 0] S1x512x256.size inb_S49x512x256_S1x512x256_20_0_0
abbrev rP21 : Rect S49x512x256 := Rect.unit (s := S49x512x256) ![21, 0, 0] S1x512x256.size inb_S49x512x256_S1x512x256_21_0_0
abbrev rP22 : Rect S49x512x256 := Rect.unit (s := S49x512x256) ![22, 0, 0] S1x512x256.size inb_S49x512x256_S1x512x256_22_0_0
abbrev rP23 : Rect S49x512x256 := Rect.unit (s := S49x512x256) ![23, 0, 0] S1x512x256.size inb_S49x512x256_S1x512x256_23_0_0
abbrev rP24 : Rect S49x512x256 := Rect.unit (s := S49x512x256) ![24, 0, 0] S1x512x256.size inb_S49x512x256_S1x512x256_24_0_0
abbrev rP25 : Rect S49x512x256 := Rect.unit (s := S49x512x256) ![25, 0, 0] S1x512x256.size inb_S49x512x256_S1x512x256_25_0_0
abbrev rP26 : Rect S49x512x256 := Rect.unit (s := S49x512x256) ![26, 0, 0] S1x512x256.size inb_S49x512x256_S1x512x256_26_0_0
abbrev rP27 : Rect S49x512x256 := Rect.unit (s := S49x512x256) ![27, 0, 0] S1x512x256.size inb_S49x512x256_S1x512x256_27_0_0
abbrev rP28 : Rect S49x512x256 := Rect.unit (s := S49x512x256) ![28, 0, 0] S1x512x256.size inb_S49x512x256_S1x512x256_28_0_0
abbrev rP29 : Rect S49x512x256 := Rect.unit (s := S49x512x256) ![29, 0, 0] S1x512x256.size inb_S49x512x256_S1x512x256_29_0_0
abbrev rP30 : Rect S49x512x256 := Rect.unit (s := S49x512x256) ![30, 0, 0] S1x512x256.size inb_S49x512x256_S1x512x256_30_0_0
abbrev rP31 : Rect S49x512x256 := Rect.unit (s := S49x512x256) ![31, 0, 0] S1x512x256.size inb_S49x512x256_S1x512x256_31_0_0
abbrev rP32 : Rect S49x512x256 := Rect.unit (s := S49x512x256) ![32, 0, 0] S1x512x256.size inb_S49x512x256_S1x512x256_32_0_0
abbrev rP33 : Rect S49x512x256 := Rect.unit (s := S49x512x256) ![33, 0, 0] S1x512x256.size inb_S49x512x256_S1x512x256_33_0_0
abbrev rP34 : Rect S49x512x256 := Rect.unit (s := S49x512x256) ![34, 0, 0] S1x512x256.size inb_S49x512x256_S1x512x256_34_0_0
abbrev rP35 : Rect S49x512x256 := Rect.unit (s := S49x512x256) ![35, 0, 0] S1x512x256.size inb_S49x512x256_S1x512x256_35_0_0
abbrev rP36 : Rect S49x512x256 := Rect.unit (s := S49x512x256) ![36, 0, 0] S1x512x256.size inb_S49x512x256_S1x512x256_36_0_0
abbrev rP37 : Rect S49x512x256 := Rect.unit (s := S49x512x256) ![37, 0, 0] S1x512x256.size inb_S49x512x256_S1x512x256_37_0_0
abbrev rP38 : Rect S49x512x256 := Rect.unit (s := S49x512x256) ![38, 0, 0] S1x512x256.size inb_S49x512x256_S1x512x256_38_0_0
abbrev rP39 : Rect S49x512x256 := Rect.unit (s := S49x512x256) ![39, 0, 0] S1x512x256.size inb_S49x512x256_S1x512x256_39_0_0
abbrev rP40 : Rect S49x512x256 := Rect.unit (s := S49x512x256) ![40, 0, 0] S1x512x256.size inb_S49x512x256_S1x512x256_40_0_0
abbrev rP41 : Rect S49x512x256 := Rect.unit (s := S49x512x256) ![41, 0, 0] S1x512x256.size inb_S49x512x256_S1x512x256_41_0_0
abbrev rP42 : Rect S49x512x256 := Rect.unit (s := S49x512x256) ![42, 0, 0] S1x512x256.size inb_S49x512x256_S1x512x256_42_0_0
abbrev rP43 : Rect S49x512x256 := Rect.unit (s := S49x512x256) ![43, 0, 0] S1x512x256.size inb_S49x512x256_S1x512x256_43_0_0
abbrev rP44 : Rect S49x512x256 := Rect.unit (s := S49x512x256) ![44, 0, 0] S1x512x256.size inb_S49x512x256_S1x512x256_44_0_0
abbrev rP45 : Rect S49x512x256 := Rect.unit (s := S49x512x256) ![45, 0, 0] S1x512x256.size inb_S49x512x256_S1x512x256_45_0_0
abbrev rP46 : Rect S49x512x256 := Rect.unit (s := S49x512x256) ![46, 0, 0] S1x512x256.size inb_S49x512x256_S1x512x256_46_0_0
abbrev rP47 : Rect S49x512x256 := Rect.unit (s := S49x512x256) ![47, 0, 0] S1x512x256.size inb_S49x512x256_S1x512x256_47_0_0
abbrev rP48 : Rect S49x512x256 := Rect.unit (s := S49x512x256) ![48, 0, 0] S1x512x256.size inb_S49x512x256_S1x512x256_48_0_0
abbrev rW1 : Rect S256x512 := Rect.unit (s := S256x512) ![0, 0] S256x512.size inb_S256x512_S256x512_0_0
abbrev rW2 : Rect S512x256 := Rect.unit (s := S512x256) ![0, 0] S512x256.size inb_S512x256_S512x256_0_0

/-! ## What the body leaves in the output window's buffer -/

/-- The output window's buffer after the body, from the input windows' blocks: its one store, whose payload is the
    chain of the five partial sums of planes, the scaling, and the embedding. -/
def out0_3 (x0 : Vec F S49x512x256 .f32) (x1 : Vec F S256x512 .f32) (x2 : Vec F S512x256 .f32) : Vec F S512x256 .bf16 :=
  View.canon [⟨rW2, k0_pay1 (k0_pay6 (k0_pay5 (k0_pay4 (k0_pay3 (k0_pay2 (View.ld x0 rP0) (View.ld x0 rP1) (View.ld x0 rP2) (View.ld x0 rP3) (View.ld x0 rP4) (View.ld x0 rP5) (View.ld x0 rP6) (View.ld x0 rP7) (View.ld x0 rP8) (View.ld x0 rP9)) (View.ld x0 rP10) (View.ld x0 rP11) (View.ld x0 rP12) (View.ld x0 rP13) (View.ld x0 rP14) (View.ld x0 rP15) (View.ld x0 rP16) (View.ld x0 rP17) (View.ld x0 rP18) (View.ld x0 rP19)) (View.ld x0 rP20) (View.ld x0 rP21) (View.ld x0 rP22) (View.ld x0 rP23) (View.ld x0 rP24) (View.ld x0 rP25) (View.ld x0 rP26) (View.ld x0 rP27) (View.ld x0 rP28) (View.ld x0 rP29)) (View.ld x0 rP30) (View.ld x0 rP31) (View.ld x0 rP32) (View.ld x0 rP33) (View.ld x0 rP34) (View.ld x0 rP35) (View.ld x0 rP36) (View.ld x0 rP37) (View.ld x0 rP38) (View.ld x0 rP39)) (View.ld x0 rP40) (View.ld x0 rP41) (View.ld x0 rP42) (View.ld x0 rP43) (View.ld x0 rP44) (View.ld x0 rP45) (View.ld x0 rP46) (View.ld x0 rP47) (View.ld x0 rP48)) (View.ld x1 rW1) (View.ld x2 rW2)⟩]

/-- The store covers the buffer. -/
theorem cover0_3 (p0 : Vec F S512x256 .bf16) (y : S512x256.Idx) :
    ∃ pc ∈ ([⟨rW2, p0⟩] : List (View.Piece (Elt F) S512x256 .bf16)), y ∈ pc.1.set :=
  View.cover_of_tiled [⟨rW2, p0⟩] S512x256.size (by rfl) y

/-! ## The body's triple -/

set_option maxHeartbeats 4000000 in
/-- The body on whole buffers, the inputs' at read contents `x0 x1 x2` and the output's at anything, runs to the
    continuation holding the inputs' as they were and the output's at `out0_3` of the inputs'. -/
theorem sound_kernel0 (c : Dev nD) (E : Set ℕ) (i : grid0.Coords)
    (arg1 : Memref sig .tc .vmem S49x512x256 .f32) (harg1 : arg1.IsWhole) (arg2 : Memref sig .tc .vmem S256x512 .f32) (harg2 : arg2.IsWhole)
    (arg3 : Memref sig .tc .vmem S512x256 .f32) (harg3 : arg3.IsWhole) (arg4 : Memref sig .tc .vmem S512x256 .bf16) (harg4 : arg4.IsWhole)
    (x0 : Vec F S49x512x256 .f32) (x1 : Vec F S256x512 .f32) (x2 : Vec F S512x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__query_body i arg1 harg1 arg2 harg2 arg3 harg3 arg4 harg4) K := by
  simp only [cc0__query_body_eq_skeleton]; unfold cc0__query_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The pipeline's proof data -/

/-- The proof data of the first launch on core `c`: the arrays as the launch finds them; after the body at point
    `t` each input's buffer at its block and the output's at `out0_3` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Runs.lean ====
/-
  The second launch (the context pass): what its three kinds of grid point share.

  The grid has 48 points. The body zeroes its two accumulators at point 0, adds one block of 256 context rows'
  contribution to them at every point, and at point 47 divides, applies the last two linear maps and stores the
  result block. So a point is of one of three kinds, told apart by two conditions on the grid coordinate:
  the first point (reset, accumulate), a middle point (accumulate), the last point (accumulate, finish).
  This module states the two conditions in closed form, where the result window is idle, the staging and
  accumulator memrefs the body is called on, and each window's block at a point read off the array the launch finds.
-/
import proofs.«136693_g50800873177169_feedfinal_599_15_alg».proof.Proof.Gen.KernelIdeal.Launch
import proofs.«136693_g50800873177169_feedfinal_599_15_alg».proof.Proof.Gen.KernelIdeal.Skeleton
import proofs.«136693_g50800873177169_feedfinal_599_15_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

end

/-! ## The two conditions -/

/-- "This is the first point": the body's first conditional, from the grid coordinate. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 48 = 0 :=
  (by decide +kernel : ∀ t : Fin grid1.N, cond1_0 (grid1.coords t) ↔ t.val % 48 = 0)

/-- "This is the last point": the body's second conditional. -/
abbrev cond1_1 (i : grid1.Coords) : Prop := k1_cond2 i = 1#1
theorem hcond1_1 : ∀ t : Fin cfg1.N, cond1_1 (grid1.coords t) ↔ t.val % 48 = 47 :=
  (by decide +kernel : ∀ t : Fin grid1.N, cond1_1 (grid1.coords t) ↔ t.val % 48 = 47)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- At the first point and at the middle points the result window is idle and not written back; at the last it is live. -/
theorem idleAt1_8_A : ∀ t : Fin cfg1.N, cond1_0 (grid1.coords t) → ¬cond1_1 (grid1.coords t) → cfg1.idle 8 (grid1.coords t) = true := by decide +kernel
theorem noFlush1_8_A : ∀ t : Fin cfg1.N, cond1_0 (grid1.coords t) → ¬cond1_1 (grid1.coords t) → (cfg1.win 8).flush t = false := by decide +kernel
theorem idleAt1_8_B : ∀ t : Fin cfg1.N, ¬cond1_0 (grid1.coords t) → ¬cond1_1 (grid1.coords t) → cfg1.idle 8 (grid1.coords t) = true := by decide +kernel
theorem noFlush1_8_B : ∀ t : Fin cfg1.N, ¬cond1_0 (grid1.coords t) → ¬cond1_1 (grid1.coords t) → (cfg1.win 8).flush t = false := by decide +kernel
theorem liveAt1_8_C : ∀ t : Fin cfg1.N, ¬cond1_0 (grid1.coords t) → cond1_1 (grid1.coords t) → cfg1.idle 8 (grid1.coords t) = false := by decide +kernel

/-! ## The memrefs the body is called on -/

/-- One staging buffer of the result window, through which its contents are stated. -/
abbrev VO1_8 : View sig .tc .vmem S4096x256 .f32 := (Memref.whole cc1_stg8_0 : Memref sig .tc .vmem S4096x256 .f32).view
abbrev ms1_0 (t : Fin cfg1.N) : Memref sig .tc .vmem S49x256x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S4096x256 .f32 := win1_8.stage (cfg1.slots t 8)
abbrev hs1_8 (t : Fin cfg1.N) : (ms1_8 t).IsWhole := hstage1_8 ((cfg1.slots t 8).cast nbuf1_8)
/-- The two accumulators: whole scoped buffers of the kernel's own, passed beside the windows. -/
abbrev scM1_0 : Memref sig .tc .vmem S4096x256 .f32 := Memref.whole cc1_scratch0
abbrev scM1_1 : Memref sig .tc .vmem S4096x1 .f32 := Memref.whole cc1_scratch1
abbrev VS1_0 : View sig .tc .vmem S4096x256 .f32 := scM1_0.view
abbrev VS1_1 : View sig .tc .vmem S4096x1 .f32 := scM1_1.view

/-- The other launch's six staging buffers, each whole at some contents: they ride through this launch untouched. -/
abbrev stgRest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The class invariant spelled out: the other launch's staging buffers, the two accumulators owned at some contents,
    and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.KernelIdeal.Hand

end
-- ==== Proof.R1RunA.lean ====
/-
  The whole body of the context pass run at the first point (reset, then accumulate): on whole staging memrefs holding the point's input
  blocks, the result buffer at contents handed back untouched and the two accumulators at anything,
  the body runs to its end leaving the inputs as they were and each buffer it stored into with its stores
  written as a list of pieces (last first) — the lists are what the symbolic run finds.
-/
import proofs.«136693_g50800873177169_feedfinal_599_15_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_A (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) :
    Σ' (L8 : List (View.Piece (Elt F) S4096x256 .f32)) (LS0 : List (View.Piece (Elt F) S4096x256 .f32)), { LS1 : List (View.Piece (Elt F) S4096x1 .f32) //
      ∀ (xi8 : Vec F S4096x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__ctx_attn_body i arg1 harg1 arg2 harg2 arg3 harg3 arg4 harg4 arg5 harg5 arg6 harg6 arg7 harg7 arg8 harg8 arg9 harg9 arg10 harg10 arg11 harg11) K } := by
  refine ⟨[], ?_, ?_, fun xi8 E K => ?run⟩
  case run =>
    simp only [cc1__ctx_attn_body_eq_skeleton]; unfold cc1__ctx_attn_body_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.R1RunB.lean ====
/-
  The whole body of the context pass run at a middle point (accumulate): on whole staging memrefs holding the point's input
  blocks, the result buffer at contents handed back untouched and the two accumulators at the contents the point before left,
  the body runs to its end leaving the inputs as they were and each buffer it stored into with its stores
  written as a list of pieces (last first) — the lists are what the symbolic run finds.
-/
import proofs.«136693_g50800873177169_feedfinal_599_15_alg».proof.Proof.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_B (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) :
    Σ' (L8 : List (View.Piece (Elt F) S4096x256 .f32)) (LS0 : List (View.Piece (Elt F) S4096x256 .f32)), { LS1 : List (View.Piece (Elt F) S4096x1 .f32) //
      ∀ (xi8 : Vec F S4096x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__ctx_attn_body i arg1 harg1 arg2 harg2 arg3 harg3 arg4 harg4 arg5 harg5 arg6 harg6 arg7 harg7 arg8 harg8 arg9 harg9 arg10 harg10 arg11 harg11) K } := by
  refine ⟨[], ?_, ?_, fun xi8 E K => ?run⟩
  case run =>
    simp only [cc1__ctx_attn_body_eq_skeleton]; unfold cc1__ctx_attn_body_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.R1RunC.lean ====
/-
  The whole body of the context pass run at the last point (accumulate, then finish): on whole staging memrefs holding the point's input
  blocks, the result buffer at anything and the two accumulators at the contents the point before left,
  the body runs to its end leaving the inputs as they were and each buffer it stored into with its stores
  written as a list of pieces (last first) — the lists are what the symbolic run finds.
-/
import proofs.«136693_g50800873177169_feedfinal_599_15_alg».proof.Proof.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_C (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) :
    Σ' (L8 : List (View.Piece (Elt F) S4096x256 .f32)) (LS0 : List (View.Piece (Elt F) S4096x256 .f32)), { LS1 : List (View.Piece (Elt F) S4096x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__ctx_attn_body i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__ctx_attn_body_eq_skeleton]; unfold cc1__ctx_attn_body_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]; · iexists _; iexact HS0
    iexists _; iexact HS1

end Cert.KernelIdeal.Hand

end
-- ==== Proof.R1.lean ====
/-
  The second launch (the context pass), point by point.

  After the body at point n the result buffer and the two accumulators hold what the point's kind of run leaves:
  at point 0 the accumulators restart from zero, at every later point they continue from what the point before
  left, and only the last point stores the result block (elsewhere the result window is idle and is not written
  back). The launch's invariant between points is the rest of the scoped memory together with the two accumulators
  at exactly those contents; the proof data name them, and the body's triple at a generic point is the run of the
  point's kind.
-/
import proofs.«136693_g50800873177169_feedfinal_599_15_alg».proof.Proof.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ### the first point (reset, then accumulate) -/

/-- Nothing is stored into the result buffer here (the window is idle and not written back): a placeholder nothing consults. -/
def out1_A_8 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) : Vec F S4096x256 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1)

/-- The stores into the first accumulator include one of the whole buffer, so they cover it. -/
theorem scover1_A_0 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (y : S4096x256.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_wholeMem (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1 (by sl_whole_mem) y

/-- What the first accumulator holds after the body. -/
def sout1_A_0 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) : Vec F S4096x256 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1)

/-- The stores into the second accumulator include one of the whole buffer, so they cover it. -/
theorem scover1_A_1 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (y : S4096x1.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1, y ∈ pc.1.set :=
  View.cover_of_wholeMem (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1 (by sl_whole_mem) y

/-- What the second accumulator holds after the body. -/
def sout1_A_1 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) : Vec F S4096x1 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1)

/-! ### a middle point (accumulate) -/

/-- Nothing is stored into the result buffer here (the window is idle and not written back): a placeholder nothing consults. -/
def out1_B_8 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) : Vec F S4096x256 .f32 :=
  VO1_8.read (Elt F) (VO1_8.writes (Elt F) VO1_8.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1)

/-- The stores into the first accumulator include one of the whole buffer, so they cover it. -/
theorem scover1_B_0 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) (y : S4096x256.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1, y ∈ pc.1.set :=
  View.cover_of_wholeMem (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1 (by sl_whole_mem) y

/-- What the first accumulator holds after the body. -/
def sout1_B_0 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) : Vec F S4096x256 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1)

/-- The stores into the second accumulator include one of the whole buffer, so they cover it. -/
theorem scover1_B_1 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) (y : S4096x1.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1, y ∈ pc.1.set :=
  View.cover_of_wholeMem (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1 (by sl_whole_mem) y

/-- What the second accumulator holds after the body. -/
def sout1_B_1 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) : Vec F S4096x1 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1)

/-! ### the last point (accumulate, then finish) -/

/-- The one store into the result buffer is of the whole block, so the stores cover it. -/
theorem cover1_C_8 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) (y : S4096x256.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1, y ∈ pc.1.set :=
  View.cover_of_wholeMem (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1 (by sl_whole_mem) y

/-- What the result buffer holds after the body: its stores read back. -/
def out1_C_8 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) : Vec F S4096x256 .f32 :=
  VO1_8.read (Elt F) (VO1_8.writes (Elt F) VO1_8.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1)

/-- The stores into the first accumulator include one of the whole buffer, so they cover it. -/
theorem scover1_C_0 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) (y : S4096x256.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1, y ∈ pc.1.set :=
  View.cover_of_wholeMem (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1 (by sl_whole_mem) y

/-- What the first accumulator holds after the body. -/
def sout1_C_0 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) : Vec F S4096x256 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1)

/-- The stores into the second accumulator include one of the whole buffer, so they cover it. -/
theorem scover1_C_1 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) (y : S4096x1.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1, y ∈ pc.1.set :=
  View.cover_of_wholeMem (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1 (by sl_whole_mem) y

/-- What the second accumulator holds after the body. -/
def sout1_C_1 (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) : Vec F S4096x1 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1)

variable (V : (c : Dev nD) → (b : Ref sig .tc) → Buf (Elt F) ((c : Thread nD τ).loc b))

/-! ## What the buffers hold after each point -/

/-- The result buffer and the two accumulators after the body at position `n`. -/
def outsAt1 (c : Dev nD) : (n : ℕ) → n < cfg1.N → Vec F S4096x256 .f32 × Vec F S4096x256 .f32 × Vec F S4096x1 .f32
  | 0, hn => (out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 48 = 0 then
      False.elim (by have hN : n + 1 < 48 := lt_of_lt_of_eq hn (show cfg1.N = 48 from N_1); omega)
    else
      if h1 : (n + 1) % 48 = 47 then
        (out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.1 (outsAt1 c n (Nat.lt_of_succ_lt hn)).2.2)
      else
        (out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.1 (outsAt1 c n (Nat.lt_of_succ_lt hn)).2.2)

/-- At the first point: the restart. -/
theorem outsAt1_A (c : Dev nD) (t : Fin cfg1.N) (h0 : t.val % 48 = 0) (h1 : ¬t.val % 48 = 47) :
    outsAt1 V c t.val t.isLt = (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (by exfalso; have hN : n + 1 < 48 := lt_of_lt_of_eq hn (show cfg1.N = 48 from N_1); (try dsimp only at h0); omega)

/-- At a middle point: the continuation of what the point before left. -/
theorem outsAt1_B (c : Dev nD) (t : Fin cfg1.N) (h0 : ¬t.val % 48 = 0) (h1 : ¬t.val % 48 = 47) :
    outsAt1 V c t.val t.isLt = (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At the last point: the continuation, and the result block. -/
theorem outsAt1_C (c : Dev nD) (t : Fin cfg1.N) (h0 : ¬t.val % 48 = 0) (h1 : t.val % 48 = 47) :
    outsAt1 V c t.val t.isLt = (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The launch's invariant before position `n`: at first the class's (every scoped buffer at anything); afterwards the
    other launch's staging buffers at anything, the two accumulators at what the point before left, and the generator
    register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
      ∗ owns (c : Thread nD τ) scM1_0 fullShare ((outsAt1 V c n hn).2.1) ∗ owns (c : Thread nD τ) scM1_1 fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
      ∗ owns (c : Thread nD τ) scM1_0 fullShare ((outsAt1 V c n hn).2.1) ∗ owns (c : Thread nD τ) scM1_1 fullShare ((outsAt1 V c n hn).2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
      ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The proof data -/

/-- The arrays as the launch finds them; after the body at point `t` each input's buffer at its block and the result
    buffer at `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point: the inputs' memrefs hold their blocks; the closed forms say which kind of point it is; the
    invariant hands the body the accumulators at what the point before left (at anything at the first point) and takes
    them back at this point's contents; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS V c (t.val + 1) t.isLt from rfl, PhiS_succ]
  have hN : t.val < 48 := lt_of_lt_of_eq t.isLt (show cfg1.N = 48 from N_1)
  by_cases h0 : t.val % 48 = 0
  · by_cases h1 : t.val % 48 = 47
    · exfalso; omega
    · have hz : t.val = 0 := by omega
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [Dat.leavesExact_idle (dat1 V c) 8 t (idleAt1_8_A t ((hcond1_0 t).mpr h0) (fun h => h1 ((hcond1_1 t).mp h))) (noFlush1_8_A t ((hcond1_0 t).mpr h0) (fun h => h1 ((hcond1_1 t).mp h)))]
      rw [outsAt1_A V c t h0 h1]
      unfold sout1_A_0 sout1_A_1; (try dsimp only)
      rw [PhiS_castSucc V c t, PhiS_zero V c _ _ hz, PhiA1_eq]
      iintro ⟨⟨⟨HA1, HA2, HA3, HA4, HA5, HA6, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, ⟨%es0, HS0⟩, ⟨%es1, HS1⟩⟩
      isplitl [HA1 HA2 HA3 HA4 HA5 HA6 HS0 HS1 Hg]
      · isplitl [HA1 HA2 HA3 HA4 HA5 HA6 HS0 HS1]
        · isplitl [HA1]; · iexact HA1
          isplitl [HA2]; · iexact HA2
          isplitl [HA3]; · iexact HA3
          isplitl [HA4]; · iexact HA4
          isplitl [HA5]; · iexact HA5
          isplitl [HA6]; · iexact HA6
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ )
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz : t.val ≠ 0 := fun e => h0 (by rw [e])
    by_cases h1 : t.val % 48 = 47
    · skip
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8_C t (fun h => h0 ((hcond1_0 t).mp h)) ((hcond1_1 t).mpr h1)], after1_8]
      rw [outsAt1_C V c t h0 h1]
      unfold out1_C_8 sout1_C_0 sout1_C_1; (try dsimp only)
      rw [PhiS_castSucc V c t, PhiS_pos V c _ _ hz]
      iintro ⟨⟨⟨HA1, HA2, HA3, HA4, HA5, HA6, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, ⟨%e8, H8⟩, ⟨%es0, HS0⟩, ⟨%es1, HS1⟩⟩
      isplitl [HA1 HA2 HA3 HA4 HA5 HA6 HS0 HS1 Hg]
      · isplitl [HA1 HA2 HA3 HA4 HA5 HA6 HS0 HS1]
        · isplitl [HA1]; · iexact HA1
          isplitl [HA2]; · iexact HA2
          isplitl [HA3]; · iexact HA3
          isplitl [HA4]; · iexact HA4
          isplitl [HA5]; · iexact HA5
          isplitl [HA6]; · iexact HA6
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_C_8 c _ _ _ _ _ _ _ _ _ _ _ _ _ _ _ _ _ _ _ _ _ _ _ _ _ _ _ _ _ _ _ _ _ _ _)
    · skip
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [Dat.leavesExact_idle (dat1 V c) 8 t (idleAt1_8_B t (fun h => h0 ((hcond1_0 t).mp h)) (fun h => h1 ((hcond1_1 t).mp h))) (noFlush1_8_B t (fun h => h0 ((hcond1_0 t).mp h)) (fun h => h1 ((hcond1_1 t).mp h)))]
      rw [outsAt1_B V c t h0 h1]
      unfold sout1_B_0 sout1_B_1; (try dsimp only)
      rw [PhiS_castSucc V c t, PhiS_pos V c _ _ hz]
      iintro ⟨⟨⟨HA1, HA2, HA3, HA4, HA5, HA6, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, ⟨%es0, HS0⟩, ⟨%es1, HS1⟩⟩
      isplitl [HA1 HA2 HA3 HA4 HA5 HA6 HS0 HS1 Hg]
      · isplitl [HA1 HA2 HA3 HA4 HA5 HA6 HS0 HS1]
        · isplitl [HA1]; · iexact HA1
          isplitl [HA2]; · iexact HA2
          isplitl [HA3]; · iexact HA3
          isplitl [HA4]; · iexact HA4
          isplitl [HA5]; · iexact HA5
          isplitl [HA6]; · iexact HA6
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HA1, HA2, HA3, HA4, HA5, HA6, HS0, HS1⟩, Hg⟩
  isplitl [HA1 HA2 HA3 HA4 HA5 HA6 HS0 HS1]
  · isplitl [HA1]; · iexact HA1
    isplitl [HA2]; · iexact HA2
    isplitl [HA3]; · iexact HA3
    isplitl [HA4]; · iexact HA4
    isplitl [HA5]; · iexact HA5
    isplitl [HA6]; · iexact HA6
    isplitl [HS0]; · iexists _; iexact HS0
    iexists _; iexact HS1
  iexact Hg

theorem hout1 (c : Dev nD) : (dat1 V c).Φ (Fin.last cfg1.N) ⊢ Pipeline.ΦA spec1 c :=
  Phi_out1 V c _ (by rw [Fin.val_last]; have : cfg1.N = 48 := N_1; omega)

end Cert.KernelIdeal.Hand

end
-- ==== Proof.Run.lean ====
/-
  The whole program as a run: the four layout operations on the host, the query pass, the context pass.

  Between two of these the core's unscoped buffers are held at named contents: as launched, then with the host's
  four results written, then with the query array replaced by what the query pass's write-backs leave, then with the
  result array replaced by what the context pass's write-backs leave. Each pass is entered from the contents before it
  and left at the contents after it; the accumulators of the context pass live in its own invariant. At the end every
  unscoped buffer is read at the last contents: the ten argument arrays walk back to the launch memory, and the
  result array is what the context pass's proof data compute.
-/
import proofs.«136693_g50800873177169_feedfinal_599_15_alg».proof.Proof.R0
import proofs.«136693_g50800873177169_feedfinal_599_15_alg».proof.Proof.R1
import proofs.«136693_g50800873177169_feedfinal_599_15_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents between the items -/

/-- As launched. -/
abbrev W0 (m : (ℓ : Loc nD τ sig) → Buf (Elt F) ℓ) (ρ : Dev nD → PrngReg) : Dev nD → Valuation τ sig (Elt F) := fun c => Gen.V0 m c
/-- After the host's layout operations. -/
abbrev W1 (m : (ℓ : Loc nD τ sig) → Buf (Elt F) ℓ) (ρ : Dev nD → PrngReg) : Dev nD → Valuation τ sig (Elt F) := fun c => Gen.V1 m c
abbrev V1 : (c : Dev nD) → (b : Ref sig .tc) → Buf (Elt F) ((c : Thread nD τ).loc b) := fun c b => W1 m ρ c b
/-- After the query pass: its arrays at what its write-backs leave, every other buffer as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the context pass. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := Gen.V1_of m c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := Gen.V1_of m c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := Gen.V1_of m c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := Gen.V1_of m c main_arg3 (by decide)
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := (W3_arr m ρ c 2).trans (((dat1 (V2 m ρ) c).arrAt_in 2 rfl _).trans (A_eq1 (V2 m ρ) c 2))
    _ = W1 m ρ c (Proc.devRef .tc main_arg4) := W2_of_ne m ρ c main_arg4 (by decide)
    _ = W0 m ρ c (Proc.devRef .tc main_arg4) := Gen.V1_of m c main_arg4 (by decide)
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := (W3_arr m ρ c 3).trans (((dat1 (V2 m ρ) c).arrAt_in 3 rfl _).trans (A_eq1 (V2 m ρ) c 3))
    _ = W1 m ρ c (Proc.devRef .tc main_arg5) := W2_of_ne m ρ c main_arg5 (by decide)
    _ = W0 m ρ c (Proc.devRef .tc main_arg5) := Gen.V1_of m c main_arg5 (by decide)
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := (W3_arr m ρ c 4).trans (((dat1 (V2 m ρ) c).arrAt_in 4 rfl _).trans (A_eq1 (V2 m ρ) c 4))
    _ = W1 m ρ c (Proc.devRef .tc main_arg6) := W2_of_ne m ρ c main_arg6 (by decide)
    _ = W0 m ρ c (Proc.devRef .tc main_arg6) := Gen.V1_of m c main_arg6 (by decide)
    _ = m ((c : Thread nD τ).loc main_arg6) := rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := (W3_arr m ρ c 5).trans (((dat1 (V2 m ρ) c).arrAt_in 5 rfl _).trans (A_eq1 (V2 m ρ) c 5))
    _ = W1 m ρ c (Proc.devRef .tc main_arg7) := W2_of_ne m ρ c main_arg7 (by decide)
    _ = W0 m ρ c (Proc.devRef .tc main_arg7) := Gen.V1_of m c main_arg7 (by decide)
    _ = m ((c : Thread nD τ).loc main_arg7) := rfl

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := (W3_arr m ρ c 6).trans (((dat1 (V2 m ρ) c).arrAt_in 6 rfl _).trans (A_eq1 (V2 m ρ) c 6))
    _ = W1 m ρ c (Proc.devRef .tc main_arg8) := W2_of_ne m ρ c main_arg8 (by decide)
    _ = W0 m ρ c (Proc.devRef .tc main_arg8) := Gen.V1_of m c main_arg8 (by decide)
    _ = m ((c : Thread nD τ).loc main_arg8) := rfl

theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := (W3_arr m ρ c 7).trans (((dat1 (V2 m ρ) c).arrAt_in 7 rfl _).trans (A_eq1 (V2 m ρ) c 7))
    _ = W1 m ρ c (Proc.devRef .tc main_arg9) := W2_of_ne m ρ c main_arg9 (by decide)
    _ = W0 m ρ c (Proc.devRef .tc main_arg9) := Gen.V1_of m c main_arg9 (by decide)
    _ = m ((c : Thread nD τ).loc main_arg9) := rfl

/-- The result array at the end is what the context pass's proof data compute. -/
theorem W3_main_v5 (c : Dev nD) : W3 m ρ c (Proc.devRef .tc main_v5) = (dat1 (V2 m ρ) c).arrAt 8 cfg1.N :=
  W3_arr m ρ c 8

/-! ## The proof data family and the thread state -/

def pdats : (p : Fin 2) → (c : Dev nD) → Dat τ (Elt F) Unit ℕ (UR sig nD τ) ℕ (Pipeline.pin (pcfgs (F := F)) Gen.adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The two passes as segments -/

set_option backward.isDefEq.respectTransparency.types false in
def reg0 : Pipeline.RegionSeg (pcfgs (F := F)) Gen.adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) Gen.adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) Gen.adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) Gen.adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) Gen.adm (pdats m ρ) () defs₀ 𝒱₀ L lv) :=
  [ .host (hseg hostOps0 hostOps0_sub Gen.hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution from memory `m` with zero counters terminates, nothing faulting, and every final state
    holds each unscoped buffer at the last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) Gen.adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c)⟩) (run_all m ρ)

/-- The run with the result named: the result array ends at what the context pass's proof data compute, the arguments as launched. -/
theorem run_value : θ_run defs (onTc (τ := τ) (main (F := F))) ⟨m, fun _ => 0, ρ⟩ (fun r => ∀ c : Dev nD,
      r.2.mem ((c.tc : Thread nD τ).loc main_v5) = (dat1 (V2 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v5 (by decide))).trans (W3_main_v5 m ρ c),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c)⟩) (run_all m ρ)

end Cert.KernelIdeal.Hand

end
-- ==== Proof.Spec.lean ====
/-
  The mathematics of the cross-frame attention, index by index on the extended reals, as the fused kernel
  arranges it. Every array is a curried function of literal coordinates.

  * `pool x r c`      : the mean over the 49 spatial positions of row `r`, channel `c` (the sum times 1/49);
  * `mlp x w1 w2`     : two linear maps with a rectifier between them;
  * `l2n y`           : a row divided by the larger of its Euclidean norm and the small constant `eps`;
  * `query`           : the normalised query embedding times the softmax scale 6.25;
  * `key`, `value`    : the normalised key embedding and the value embedding of a context row;
  * `score`           : the inner product of a (scaled) query row and a key row;
  * `num`, `den`      : the exponential weights against the values, and their plain sum, both accumulated
                        over the 48 blocks of 256 context rows (context row `256 * b + j`);
  * `attn`            : their quotient, and `out` the final embedding of it.
-/
import Mathlib
import Idealize.ShloMosaic.PureOps.Ideal
import Idealize.ShloMosaic.Lib.ValueIdx

noncomputable section

namespace Cert.Spec

open Idealize.ShloMosaic Idealize.ShloMosaic.ValueIdx

/-- An array of rank 2, 3 or 4 as a curried function of its coordinates. -/
def cur2 {n0 n1 : ℕ} (x : (⟨2, ![n0, n1]⟩ : Shape).Idx → EReal) (a : Fin n0) (b : Fin n1) : EReal := x (ix2 a b)
def cur3 {n0 n1 n2 : ℕ} (x : (⟨3, ![n0, n1, n2]⟩ : Shape).Idx → EReal) (a : Fin n0) (b : Fin n1) (c : Fin n2) : EReal :=
  x (ix3 a b c)
def cur4 {n0 n1 n2 n3 : ℕ} (x : (⟨4, ![n0, n1, n2, n3]⟩ : Shape).Idx → EReal) (a : Fin n0) (b : Fin n1) (c : Fin n2)
    (d : Fin n3) : EReal := x (ix4 a b c d)

/-- The small constant under the norm (the f32 nearest 1e-12), as the extended real its pattern denotes. -/
def eps : EReal := Ideal.ofBits .f32 0x2B8CBCCC#32
/-- The softmax scale 6.25, as the extended real its pattern denotes. -/
def scale : EReal := Ideal.ofBits .f32 0x40C80000#32

/-- Spatial position `s` of 49 is the pair `(s / 7, s % 7)`. -/
def posA (s : Fin 49) : Fin 7 := ⟨s.val / 7, by have := s.isLt; omega⟩
def posB (s : Fin 49) : Fin 7 := ⟨s.val % 7, Nat.mod_lt _ (by norm_num)⟩

/-- The mean over 49 planes `p s` of an array laid out plane by plane. -/
def pool49 {R : ℕ} (p : Fin 49 → Fin R → Fin 256 → EReal) (r : Fin R) (c : Fin 256) : EReal :=
  (∑ s : Fin 49, p s r c) * ((1 / 49 : ℝ) : EReal)

/-- The planes of a feature array: plane `s` is spatial position `(s / 7, s % 7)`. -/
def planes {R : ℕ} (x : Fin R → Fin 256 → Fin 7 → Fin 7 → EReal) (s : Fin 49) (r : Fin R) (c : Fin 256) : EReal :=
  x r c (posA s) (posB s)

/-- The mean over the 49 spatial positions. -/
def pool {R : ℕ} (x : Fin R → Fin 256 → Fin 7 → Fin 7 → EReal) (r : Fin R) (c : Fin 256) : EReal :=
  pool49 (planes x) r c

/-- Linear, rectifier, linear. -/
def mlp {R : ℕ} (x : Fin R → Fin 256 → EReal) (w1 : Fin 256 → Fin 512 → EReal) (w2 : Fin 512 → Fin 256 → EReal)
    (r : Fin R) (k : Fin 256) : EReal :=
  ∑ j : Fin 512, max (∑ c : Fin 256, x r c * w1 c j) 0 * w2 j k

/-- A row over the larger of its Euclidean norm and `eps`. -/
def l2n {R : ℕ} (y : Fin R → Fin 256 → EReal) (r : Fin R) (k : Fin 256) : EReal :=
  Ideal.div (y r k) (max (Ideal.sqrt (∑ k' : Fin 256, y r k' * y r k')) eps)

section
variable (qw1 : Fin 256 → Fin 512 → EReal) (qw2 : Fin 512 → Fin 256 → EReal)
  (kw1 : Fin 256 → Fin 512 → EReal) (kw2 : Fin 512 → Fin 256 → EReal)
  (vw1 : Fin 256 → Fin 512 → EReal) (vw2 : Fin 512 → Fin 256 → EReal)
  (fw1 : Fin 256 → Fin 512 → EReal) (fw2 : Fin 512 → Fin 256 → EReal)

/-- The scaled, normalised query rows from the planes of the central features (what the first launch writes). -/
def queryP {R : ℕ} (pc : Fin 49 → Fin R → Fin 256 → EReal) (n : Fin R) (k : Fin 256) : EReal :=
  l2n (mlp (pool49 pc) qw1 qw2) n k * scale
/-- The normalised key rows from the planes of the context features. -/
def keyP {R : ℕ} (pt : Fin 49 → Fin R → Fin 256 → EReal) (t : Fin R) (k : Fin 256) : EReal :=
  l2n (mlp (pool49 pt) kw1 kw2) t k
/-- The value rows from the planes of the context features. -/
def valueP {R : ℕ} (pt : Fin 49 → Fin R → Fin 256 → EReal) (t : Fin R) (d : Fin 256) : EReal :=
  mlp (pool49 pt) vw1 vw2 t d

/-- Context row `256 * b + j`. -/
def crow (b : Fin 48) (j : Fin 256) : Fin 12288 := ⟨256 * b.val + j.val, by have := b.isLt; have := j.isLt; omega⟩

variable (pt : Fin 49 → Fin 12288 → Fin 256 → EReal)

/-- The logit of query `n` against context row `t`, from a query array `q` (already scaled). -/
def score (q : Fin 4096 → Fin 256 → EReal) (n : Fin 4096) (t : Fin 12288) : EReal :=
  ∑ k : Fin 256, q n k * keyP kw1 kw2 pt t k

/-- The exponential weights against the values, and their plain sum, block by block. -/
def num (q : Fin 4096 → Fin 256 → EReal) (n : Fin 4096) (d : Fin 256) : EReal :=
  ∑ b : Fin 48, ∑ j : Fin 256, Ideal.exp (score kw1 kw2 pt q n (crow b j)) * valueP vw1 vw2 pt (crow b j) d
def den (q : Fin 4096 → Fin 256 → EReal) (n : Fin 4096) : EReal :=
  ∑ b : Fin 48, ∑ j : Fin 256, Ideal.exp (score kw1 kw2 pt q n (crow b j))

/-- The attention rows from a query array `q`. -/
def attn (q : Fin 4096 → Fin 256 → EReal) (n : Fin 4096) (d : Fin 256) : EReal :=
  Ideal.div (num kw1 kw2 vw1 vw2 pt q n d) (den kw1 kw2 pt q n)

/-- The second launch's result from the context planes `pt` and a query array `q`. -/
def outOf (q : Fin 4096 → Fin 256 → EReal) (n : Fin 4096) (c : Fin 256) : EReal :=
  mlp (attn kw1 kw2 vw1 vw2 pt q) fw1 fw2 n c

/-- The whole kernel on the feature arrays: the second launch on the first launch's queries. -/
def out (central : Fin 4096 → Fin 256 → Fin 7 → Fin 7 → EReal) (context : Fin 12288 → Fin 256 → Fin 7 → Fin 7 → EReal)
    (n : Fin 4096) (c : Fin 256) : EReal :=
  outOf kw1 kw2 vw1 vw2 fw1 fw2 (planes context) (queryP qw1 qw2 (planes central)) n c
end

end Cert.Spec

end
-- ==== Proof.HostPlanes.lean ====
/-
  The host's layout operations read at an index.

  Before the two launches the host transposes each feature array [rows, 256, 7, 7] to [7, 7, rows, 256] and views it as
  49 planes [49, rows, 256]: plane s = 7 a + b, row r, channel c of the view is entry (r, c, a, b) of the array.
-/
import proofs.«136693_g50800873177169_feedfinal_599_15_alg».proof.Proof.Gen.KernelIdeal.Regions
import proofs.«136693_g50800873177169_feedfinal_599_15_alg».proof.Proof.Spec
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- Position `s` of 49 is `7 * (s / 7) + s % 7`. -/
theorem pos_split (s : Fin 49) : (Cert.Spec.posA s).val * 7 + (Cert.Spec.posB s).val = s.val := by
  show s.val / 7 * 7 + s.val % 7 = s.val
  omega

/-- The planes of the central features as the host lays them out. -/
theorem v1_term (c : Dev nD) :
    (Gen.V1 (F := Ideal) m c (Proc.devRef .tc main_v1) : S49x4096x256.Idx → EReal)
      = shapeCast S49x4096x256 (transpose S7x7x4096x256 [2, 3, 0, 1] (m ((c : Thread nD τ).loc main_arg0) : S4096x256x7x7.Idx → EReal) transposes_S4096x256x7x7_S7x7x4096x256_2_3_0_1) shapeCasts_S7x7x4096x256_S49x4096x256 := by
  dsimp only [Gen.V1, Gen.V0, Gen.hostOps0]; after_results; rfl

/-- The planes of the context features as the host lays them out. -/
theorem v3_term (c : Dev nD) :
    (Gen.V1 (F := Ideal) m c (Proc.devRef .tc main_v3) : S49x12288x256.Idx → EReal)
      = shapeCast S49x12288x256 (transpose S7x7x12288x256 [2, 3, 0, 1] (m ((c : Thread nD τ).loc main_arg1) : S12288x256x7x7.Idx → EReal) transposes_S12288x256x7x7_S7x7x12288x256_2_3_0_1) shapeCasts_S7x7x12288x256_S49x12288x256 := by
  dsimp only [Gen.V1, Gen.V0, Gen.hostOps0]; after_results; rfl

theorem v1_apply (c : Dev nD) (s : Fin 49) (r : Fin 4096) (ch : Fin 256) :
    (Gen.V1 (F := Ideal) m c (Proc.devRef .tc main_v1) : S49x4096x256.Idx → EReal) (ix3 s r ch)
      = (m ((c : Thread nD τ).loc main_arg0) : S4096x256x7x7.Idx → EReal) (ix4 r ch (Cert.Spec.posA s) (Cert.Spec.posB s)) := by
  rw [v1_term]
  refine (shapeCast_apply _ _ (ix3 s r ch) (ix4 (Cert.Spec.posA s) (Cert.Spec.posB s) r ch) ?_).trans ?_
  · rw [Shape.rowMajor_val_four, Shape.rowMajor_val_three]
    have := pos_split s
    show (((Cert.Spec.posA s).val * 7 + (Cert.Spec.posB s).val) * 4096 + r.val) * 256 + ch.val = (s.val * 4096 + r.val) * 256 + ch.val
    rw [this]
  · exact transpose_apply _ _ _ _ (ix4 r ch (Cert.Spec.posA s) (Cert.Spec.posB s))
      (fun b => by match b with | ⟨0, _⟩ => rfl | ⟨1, _⟩ => rfl | ⟨2, _⟩ => rfl | ⟨3, _⟩ => rfl)

theorem v3_apply (c : Dev nD) (s : Fin 49) (r : Fin 12288) (ch : Fin 256) :
    (Gen.V1 (F := Ideal) m c (Proc.devRef .tc main_v3) : S49x12288x256.Idx → EReal) (ix3 s r ch)
      = (m ((c : Thread nD τ).loc main_arg1) : S12288x256x7x7.Idx → EReal) (ix4 r ch (Cert.Spec.posA s) (Cert.Spec.posB s)) := by
  rw [v3_term]
  refine (shapeCast_apply _ _ (ix3 s r ch) (ix4 (Cert.Spec.posA s) (Cert.Spec.posB s) r ch) ?_).trans ?_
  · rw [Shape.rowMajor_val_four, Shape.rowMajor_val_three]
    have := pos_split s
    show (((Cert.Spec.posA s).val * 7 + (Cert.Spec.posB s).val) * 12288 + r.val) * 256 + ch.val = (s.val * 12288 + r.val) * 256 + ch.val
    rw [this]
  · exact transpose_apply _ _ _ _ (ix4 r ch (Cert.Spec.posA s) (Cert.Spec.posB s))
      (fun b => by match b with | ⟨0, _⟩ => rfl | ⟨1, _⟩ => rfl | ⟨2, _⟩ => rfl | ⟨3, _⟩ => rfl)

/-- As curried functions: the host's view is the planes of the array. -/
theorem cur3_v1 (c : Dev nD) :
    Cert.Spec.cur3 (Gen.V1 (F := Ideal) m c (Proc.devRef .tc main_v1) : S49x4096x256.Idx → EReal)
      = Cert.Spec.planes (Cert.Spec.cur4 (m ((c : Thread nD τ).loc main_arg0) : S4096x256x7x7.Idx → EReal)) := by
  funext s r ch; exact v1_apply m c s r ch

theorem cur3_v3 (c : Dev nD) :
    Cert.Spec.cur3 (Gen.V1 (F := Ideal) m c (Proc.devRef .tc main_v3) : S49x12288x256.Idx → EReal)
      = Cert.Spec.planes (Cert.Spec.cur4 (m ((c : Thread nD τ).loc main_arg1) : S12288x256x7x7.Idx → EReal)) := by
  funext s r ch; exact v3_apply m c s r ch

end Cert.KernelIdeal.Hand

end
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«136693_g50800873177169_feedfinal_599_15_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.LibKeepdimsCols.lean ====
/-
  Column vectors read at an index.

  A row reduction with `keepdims` leaves an `[a]` array that is then viewed as the column `[a, 1]` and broadcast along
  the rows of an `[a, b]` array. Read at an index:

  * an `[a]` array cast to `[a, 1]` reads, at `(p, u)`, the operand at `p` (`shapeCast_a_a1_apply`);
  * an `[a, 1]` column broadcast to `[a, b]` reads, at `(p, c)`, the column at `(p, 0)` (`broadcastTo_a1_ab_apply`).

  Both are generic in the extents and in the element type.
-/
import Idealize.ShloMosaic.Lib.Pipeline.Value
import Idealize.ShloMosaic.Lib.ValueIdx

namespace Cert.LibKeepdimsCols

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCols
-- ==== Proof.R1PayMlp.lean ====
/-
  The two building blocks of every embedding of the kernel, read at an index and generic in the number of rows:

  * two plain matrix products into zero accumulators with a maximum against zero between them are the
    linear-rectifier-linear map `mlp` of the specification;
  * a row divided by the larger of the square root of its sum of squares (a row sum kept as a column and broadcast
    back along the row) and the small constant is the normalisation `l2n` of the specification.
-/
import proofs.«136693_g50800873177169_feedfinal_599_15_alg».proof.Proof.Spec
import proofs.«136693_g50800873177169_feedfinal_599_15_alg».proof.Proof.LibRowReduceProducts
import proofs.«136693_g50800873177169_feedfinal_599_15_alg».proof.Proof.LibKeepdimsCols
import Idealize.ShloMosaic.Lib.ValueIdx
import Idealize.ShloMosaic.Lib.Pipeline.Value
import Idealize.ShloMosaic.PureOps.Ideal.Laws

noncomputable section

open scoped BigOperators

namespace Cert.KernelIdeal.R1Pay

open Idealize.ShloMosaic Idealize.ShloMosaic.ValueIdx Cert.Spec

/-- The index lists of a plain product: the left operand's second axis against the right operand's first. -/
def IsNN {M K N : ℕ} (D : DotDims ⟨2, ![M, K]⟩ ⟨2, ![K, N]⟩ ⟨2, ![M, N]⟩) : Prop :=
  D.lhsContracting = [1] ∧ D.rhsContracting = [0] ∧ D.lhsNonContracting = [0] ∧ D.rhsNonContracting = [1] ∧
    D.lhsBatch = [] ∧ D.rhsBatch = []

/-- The index lists of a product with the transpose: both operands contracted over their second axes. -/
def IsNT {M K N : ℕ} (D : DotDims ⟨2, ![M, K]⟩ ⟨2, ![N, K]⟩ ⟨2, ![M, N]⟩) : Prop :=
  D.lhsContracting = [1] ∧ D.rhsContracting = [1] ∧ D.lhsNonContracting = [0] ∧ D.rhsNonContracting = [0] ∧
    D.lhsBatch = [] ∧ D.rhsBatch = []

/-- Entry (e, o) of a plain product into a zero accumulator. -/
theorem nn_apply {M K N : ℕ} {φ₁ φ₂ : FTy} (D : DotDims ⟨2, ![M, K]⟩ ⟨2, ![K, N]⟩ ⟨2, ![M, N]⟩) (h : IsNN D)
    (x : FVec Ideal ⟨2, ![M, K]⟩ φ₁) (y : FVec Ideal ⟨2, ![K, N]⟩ φ₂) (e : Fin M) (o : Fin N) :
    FloatOps.matmul D none x y (constant ⟨2, ![M, N]⟩ .f32 0x00000000#32) (ix2 e o)
      = ∑ r : Fin K, x (ix2 e r) * y (ix2 r o) :=
  Cert.LibRowReduceProducts.matmulNN D h.1 h.2.1 h.2.2.1 h.2.2.2.1 h.2.2.2.2.1 h.2.2.2.2.2 none x y e o

/-- Entry (e, o) of a product with the transpose into a zero accumulator. -/
theorem nt_apply {M K N : ℕ} {φ₁ φ₂ : FTy} (D : DotDims ⟨2, ![M, K]⟩ ⟨2, ![N, K]⟩ ⟨2, ![M, N]⟩) (h : IsNT D)
    (x : FVec Ideal ⟨2, ![M, K]⟩ φ₁) (y : FVec Ideal ⟨2, ![N, K]⟩ φ₂) (e : Fin M) (o : Fin N) :
    FloatOps.matmul D none x y (constant ⟨2, ![M, N]⟩ .f32 0x00000000#32) (ix2 e o)
      = ∑ r : Fin K, x (ix2 e r) * y (ix2 o r) :=
  Cert.LibRowReduceProducts.matmulNT D h.1 h.2.1 h.2.2.1 h.2.2.2.1 h.2.2.2.2.1 h.2.2.2.2.2 none x y e o

/-- Linear, rectifier, linear: two products into zero accumulators with a maximum against zero between. -/
theorem mlp_pay {R : ℕ} (D1 : DotDims ⟨2, ![R, 256]⟩ ⟨2, ![256, 512]⟩ ⟨2, ![R, 512]⟩) (h1 : IsNN D1)
    (D2 : DotDims ⟨2, ![R, 512]⟩ ⟨2, ![512, 256]⟩ ⟨2, ![R, 256]⟩) (h2 : IsNN D2)
    (x : FVec Ideal ⟨2, ![R, 256]⟩ .f32) (w1 : FVec Ideal ⟨2, ![256, 512]⟩ .f32)
    (w2 : FVec Ideal ⟨2, ![512, 256]⟩ .f32) (r : Fin R) (k : Fin 256) :
    FloatOps.matmul D2 none
        (maximumf (FloatOps.matmul D1 none x w1 (constant (F := Ideal) ⟨2, ![R, 512]⟩ .f32 0x00000000#32))
          (broadcast ⟨2, ![R, 512]⟩ (Scalar.ofBits (F := Ideal) .f32 0x00000000#32)))
        w2 (constant (F := Ideal) ⟨2, ![R, 256]⟩ .f32 0x00000000#32) (ix2 r k)
      = mlp (cur2 x) (cur2 w1) (cur2 w2) r k := by
  refine (nn_apply D2 h2 _ w2 r k).trans ?_
  unfold mlp
  refine Finset.sum_congr rfl fun j _ => ?_
  refine congrArg (fun z => z * w2 (ix2 j k)) ?_
  show max (FloatOps.matmul D1 none x w1 (constant (F := Ideal) ⟨2, ![R, 512]⟩ .f32 0x00000000#32) (ix2 r j))
      (Ideal.ofBits .f32 0x00000000#32) = max (∑ c : Fin 256, cur2 x r c * cur2 w1 c j) 0
  rw [nn_apply D1 h1 x w1 r j, Ideal.ofBits_zero_f32]
  rfl

/-- A row over the larger of its Euclidean norm and the small constant: the sum of squares along the row, kept as a
    column, its square root, the maximum with the constant, broadcast back along the row, and the quotient. -/
theorem l2n_pay {R : ℕ} (y : FVec Ideal ⟨2, ![R, 256]⟩ .f32)
    (hred : Shape.Reduces ⟨2, ![R, 256]⟩ [1] ⟨1, ![R]⟩) (hφ : FKind.Formats .f32)
    (hacc : (0x00000000#32 : BitVec 32) = FKind.add.neutral .f32 hφ)
    (hsc : (⟨1, ![R]⟩ : Shape).ShapeCasts ⟨2, ![R, 1]⟩) (hbc : (⟨2, ![R, 1]⟩ : Shape).Broadcasts ⟨2, ![R, 256]⟩)
    (r : Fin R) (k : Fin 256) :
    divf y (broadcastTo ⟨2, ![R, 256]⟩
        (maximumf
          (sqrt (shapeCast ⟨2, ![R, 1]⟩ (multiReduction .add [1] ⟨1, ![R]⟩ (mulf y y) 0x00000000#32 hred hφ hacc) hsc))
          (broadcast ⟨2, ![R, 1]⟩ (Scalar.ofBits (F := Ideal) .f32 0x2B8CBCCC#32))) hbc) (ix2 r k)
      = l2n (cur2 y) r k := by
  unfold l2n
  refine congrArg (Ideal.div (y (ix2 r k))) ?_
  refine (Cert.LibKeepdimsCols.broadcastTo_a1_ab_apply _ hbc r k).trans ?_
  refine congrArg (fun z => max (Ideal.sqrt z) eps) ?_
  refine (Cert.LibKeepdimsCols.shapeCast_a_a1_apply _ hsc r 0).trans ?_
  exact Cert.LibRowReduceProducts.rowSum_apply (mulf y y) hred hφ hacc r

end Cert.KernelIdeal.R1Pay

end
-- ==== Proof.R1PayPool.lean ====
/-
  The pooled block of the second launch, read at an index: the sum of the 49 planes of a block of 256 context rows
  times the constant 1/49 (the named constant "inv_49", which denotes the real 1/49 on the extended reals).
-/
import proofs.«136693_g50800873177169_feedfinal_599_15_alg».proof.Proof.Gen.KernelIdeal.Skeleton
import proofs.«136693_g50800873177169_feedfinal_599_15_alg».proof.Proof.Spec
import Idealize.ShloMosaic.Lib.ValueIdx
import Idealize.ShloMosaic.PureOps.Ideal.Laws

noncomputable section

open scoped BigOperators

namespace Cert.KernelIdeal.R1Pay

open Idealize.ShloMosaic Idealize.ShloMosaic.ValueIdx Cert.KernelIdeal Cert.KernelIdeal.Gen Cert.Spec

/-- The named constant "inv_49" is the real number 1/49. -/
theorem inv49_eq : Named.named (F := Ideal) Cert.KernelIdeal.κ "inv_49" (φ := .f32) 0x3CA72F05#32 = ((1 / 49 : ℝ) : EReal) :=
  IdealRules.named_const.ideal_named_scalar _ _ _ _ rfl

/-- The pooled block as a curried function: entry (r, c) of the summed planes times 1/49. -/
def P49 (P : FVec Ideal S256x256 .f32) : Fin 256 → Fin 256 → EReal :=
  fun (r : Fin 256) (c : Fin 256) => P (ix2 r c) * ((1 / 49 : ℝ) : EReal)

/-- The scaled block at an index. -/
theorem pay10_apply (P : FVec Ideal S256x256 .f32) (r c : Fin 256) :
    k1_pay10 (F := Ideal) P (ix2 r c) = P (ix2 r c) * ((1 / 49 : ℝ) : EReal) := by
  unfold k1_pay10
  exact congrArg (fun z => P (ix2 r c) * z) inv49_eq

/-- The scaled block, curried, is P49. -/
theorem cur2_pay10 (P : FVec Ideal S256x256 .f32) : cur2 (k1_pay10 (F := Ideal) P) = P49 P :=
  funext fun r => funext fun c => pay10_apply P r c

end Cert.KernelIdeal.R1Pay

end
-- ==== Proof.R0Value.lean ====
/-
  The value of the first launch at the extended reals: after the launch the output array holds, at row n and
  channel k, the scaled and normalised query embedding of row n of the central features,
  `queryP qw1 qw2 planes n k`.

  Two halves.

  * The body's arithmetic at an index. Each of the 49 planes of a block is loaded through the unit rectangle at
    that plane and viewed as a 512 x 256 matrix; the planes are added one after another in five stretches, the sum
    is multiplied by the constant 1/49, sent through the two linear maps with the rectifier between, divided by the
    larger of its row's Euclidean norm and the small constant, and multiplied by 6.25; the narrowing to the shorter
    format is the identity on the extended reals. The left-nested sum of the 49 planes is the sum over the planes
    (`planes_sum`), so the pooled block is `pool49` of the block (`pooled_apply`), and the stored value at row p,
    channel q of the block is `queryP` of the block at (p, q) (`out0_3_apply`).
  * From blocks to the array. Point t reads rows 512 t … 512 t + 511 of the planes and the two weight arrays whole,
    and writes back rows 512 t … 512 t + 511 of the output. A query row depends only on that row of the planes
    (`queryP_row`), so what point t writes back is block t of one function of the arrays (`flushed3_eq`); the row
    n lies in the block of point n / 512, so the eight blocks cover the array (`cover3`), and the array after the
    launch is that function (`q_value`).
-/
import proofs.«136693_g50800873177169_feedfinal_599_15_alg».proof.Proof.R0
import proofs.«136693_g50800873177169_feedfinal_599_15_alg».proof.Proof.Spec
import proofs.«136693_g50800873177169_feedfinal_599_15_alg».proof.Proof.R1PayMlp
import proofs.«136693_g50800873177169_feedfinal_599_15_alg».proof.Proof.R1PayPool
import Idealize.ShloMosaic.PureOps.IdealRules
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Spec

/-! ## The body's arithmetic at an index -/

/-- A plane viewed as a matrix reads, at (p, q), the plane at (0, p, q). -/
theorem plane_cast (v : Vec Ideal S1x512x256 .f32) (p : Fin 512) (q : Fin 256) :
    shapeCast S512x256 v shapeCasts_S1x512x256_S512x256 (ix2 p q) = v (ix3 (0 : Fin 1) p q) :=
  shapeCast_1ab_ab_apply v shapeCasts_S1x512x256_S512x256 p q

/-- Plane `s` of a block at row p and channel q, for a natural number `s` (zero from 49 on). -/
def planeN (x0 : Vec Ideal S49x512x256 .f32) (p : Fin 512) (q : Fin 256) (s : ℕ) : EReal :=
  if h : s < 49 then cur3 x0 ⟨s, h⟩ p q else 0

/-- The load through the unit rectangle at plane `s` reads, at (0, p, q), the block at (s, p, q). -/
theorem ld_plane (x0 : Vec Ideal S49x512x256 .f32) (s : ℕ) (hs : s < 49)
    (inb : ∀ a, (![s, 0, 0] : Fin 3 → Nat) a + S1x512x256.size a ≤ S49x512x256.size a) (p : Fin 512) (q : Fin 256) :
    View.ld x0 (Rect.unit (s := S49x512x256) ![s, 0, 0] S1x512x256.size inb) (ix3 (0 : Fin 1) p q) = planeN x0 p q s := by
  unfold planeN
  rw [dif_pos hs]
  show x0 ((Rect.unit (s := S49x512x256) ![s, 0, 0] S1x512x256.size inb).idx (ix3 (0 : Fin 1) p q)) = x0 (ix3 ⟨s, hs⟩ p q)
  refine congrArg x0 (funext fun a => Fin.ext ?_)
  match a with
  | ⟨0, _⟩ => show s + 1 * 0 = s; omega
  | ⟨1, _⟩ => show 0 + 1 * p.val = p.val; omega
  | ⟨2, _⟩ => show 0 + 1 * q.val = q.val; omega

/-- The sum of the first ten planes, at row p and channel q. -/
theorem pay2_apply (v0 v2 v5 v8 v11 v14 v17 v20 v23 v26 : Vec Ideal S1x512x256 .f32) (p : Fin 512) (q : Fin 256) :
    k0_pay2 (F := Ideal) v0 v2 v5 v8 v11 v14 v17 v20 v23 v26 (ix2 p q)
      = v0 (ix3 (0 : Fin 1) p q) + v2 (ix3 (0 : Fin 1) p q) + v5 (ix3 (0 : Fin 1) p q) + v8 (ix3 (0 : Fin 1) p q) + v11 (ix3 (0 : Fin 1) p q) + v14 (ix3 (0 : Fin 1) p q) + v17 (ix3 (0 : Fin 1) p q) + v20 (ix3 (0 : Fin 1) p q) + v23 (ix3 (0 : Fin 1) p q) + v26 (ix3 (0 : Fin 1) p q) := by
  have e : ∀ v : Vec Ideal S1x512x256 .f32,
      shapeCast S512x256 v shapeCasts_S1x512x256_S512x256 (ix2 p q) = v (ix3 (0 : Fin 1) p q) :=
    fun v => plane_cast v p q
  unfold k0_pay2
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (e v0) (e v2)) (e v5)) (e v8)) (e v11)) (e v14)) (e v17)) (e v20)) (e v23)) (e v26))

/-- The running sum after ten more planes, at row p and channel q. -/
theorem pay3_apply (v28 : FVec Ideal S512x256 .f32) (v29 v32 v35 v38 v41 v44 v47 v50 v53 v56 : Vec Ideal S1x512x256 .f32) (p : Fin 512) (q : Fin 256) :
    k0_pay3 (F := Ideal) v28 v29 v32 v35 v38 v41 v44 v47 v50 v53 v56 (ix2 p q)
      = v28 (ix2 p q) + v29 (ix3 (0 : Fin 1) p q) + v32 (ix3 (0 : Fin 1) p q) + v35 (ix3 (0 : Fin 1) p q) + v38 (ix3 (0 : Fin 1) p q) + v41 (ix3 (0 : Fin 1) p q) + v44 (ix3 (0 : Fin 1) p q) + v47 (ix3 (0 : Fin 1) p q) + v50 (ix3 (0 : Fin 1) p q) + v53 (ix3 (0 : Fin 1) p q) + v56 (ix3 (0 : Fin 1) p q) := by
  have e : ∀ v : Vec Ideal S1x512x256 .f32,
      shapeCast S512x256 v shapeCasts_S1x512x256_S512x256 (ix2 p q) = v (ix3 (0 : Fin 1) p q) :=
    fun v => plane_cast v p q
  unfold k0_pay3
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (rfl : v28 (ix2 p q) = v28 (ix2 p q)) (e v29)) (e v32)) (e v35)) (e v38)) (e v41)) (e v44)) (e v47)) (e v50)) (e v53)) (e v56))

/-- The running sum after ten more planes, at row p and channel q. -/
theorem pay4_apply (v58 : FVec Ideal S512x256 .f32) (v59 v62 v65 v68 v71 v74 v77 v80 v83 v86 : Vec Ideal S1x512x256 .f32) (p : Fin 512) (q : Fin 256) :
    k0_pay4 (F := Ideal) v58 v59 v62 v65 v68 v71 v74 v77 v80 v83 v86 (ix2 p q)
      = v58 (ix2 p q) + v59 (ix3 (0 : Fin 1) p q) + v62 (ix3 (0 : Fin 1) p q) + v65 (ix3 (0 : Fin 1) p q) + v68 (ix3 (0 : Fin 1) p q) + v71 (ix3 (0 : Fin 1) p q) + v74 (ix3 (0 : Fin 1) p q) + v77 (ix3 (0 : Fin 1) p q) + v80 (ix3 (0 : Fin 1) p q) + v83 (ix3 (0 : Fin 1) p q) + v86 (ix3 (0 : Fin 1) p q) := by
  have e : ∀ v : Vec Ideal S1x512x256 .f32,
      shapeCast S512x256 v shapeCasts_S1x512x256_S512x256 (ix2 p q) = v (ix3 (0 : Fin 1) p q) :=
    fun v => plane_cast v p q
  unfold k0_pay4
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (rfl : v58 (ix2 p q) = v58 (ix2 p q)) (e v59)) (e v62)) (e v65)) (e v68)) (e v71)) (e v74)) (e v77)) (e v80)) (e v83)) (e v86))

/-- The running sum after ten more planes, at row p and channel q. -/
theorem pay5_apply (v88 : FVec Ideal S512x256 .f32) (v89 v92 v95 v98 v101 v104 v107 v110 v113 v116 : Vec Ideal S1x512x256 .f32) (p : Fin 512) (q : Fin 256) :
    k0_pay5 (F := Ideal) v88 v89 v92 v95 v98 v101 v104 v107 v110 v113 v116 (ix2 p q)
      = v88 (ix2 p q) + v89 (ix3 (0 : Fin 1) p q) + v92 (ix3 (0 : Fin 1) p q) + v95 (ix3 (0 : Fin 1) p q) + v98 (ix3 (0 : Fin 1) p q) + v101 (ix3 (0 : Fin 1) p q) + v104 (ix3 (0 : Fin 1) p q) + v107 (ix3 (0 : Fin 1) p q) + v110 (ix3 (0 : Fin 1) p q) + v113 (ix3 (0 : Fin 1) p q) + v116 (ix3 (0 : Fin 1) p q) := by
  have e : ∀ v : Vec Ideal S1x512x256 .f32,
      shapeCast S512x256 v shapeCasts_S1x512x256_S512x256 (ix2 p q) = v (ix3 (0 : Fin 1) p q) :=
    fun v => plane_cast v p q
  unfold k0_pay5
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (rfl : v88 (ix2 p q) = v88 (ix2 p q)) (e v89)) (e v92)) (e v95)) (e v98)) (e v101)) (e v104)) (e v107)) (e v110)) (e v113)) (e v116))

/-- The last stretch of nine planes, and the product with the constant 1/49. -/
theorem pay6_apply (v118 : FVec Ideal S512x256 .f32) (v119 v122 v125 v128 v131 v134 v137 v140 v143 : Vec Ideal S1x512x256 .f32) (p : Fin 512) (q : Fin 256) :
    k0_pay6 (F := Ideal) v118 v119 v122 v125 v128 v131 v134 v137 v140 v143 (ix2 p q)
      = (v118 (ix2 p q) + v119 (ix3 (0 : Fin 1) p q) + v122 (ix3 (0 : Fin 1) p q) + v125 (ix3 (0 : Fin 1) p q) + v128 (ix3 (0 : Fin 1) p q) + v131 (ix3 (0 : Fin 1) p q) + v134 (ix3 (0 : Fin 1) p q) + v137 (ix3 (0 : Fin 1) p q) + v140 (ix3 (0 : Fin 1) p q) + v143 (ix3 (0 : Fin 1) p q)) * ((1 / 49 : ℝ) : EReal) := by
  have e : ∀ v : Vec Ideal S1x512x256 .f32,
      shapeCast S512x256 v shapeCasts_S1x512x256_S512x256 (ix2 p q) = v (ix3 (0 : Fin 1) p q) :=
    fun v => plane_cast v p q
  unfold k0_pay6
  exact congrArg₂ (· * ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (rfl : v118 (ix2 p q) = v118 (ix2 p q)) (e v119)) (e v122)) (e v125)) (e v128)) (e v131)) (e v134)) (e v137)) (e v140)) (e v143)) Cert.KernelIdeal.R1Pay.inv49_eq

/-- The left-nested sum of the 49 planes is the sum over the planes. -/
theorem planes_sum (g : ℕ → EReal) :
    g 0 + g 1 + g 2 + g 3 + g 4 + g 5 + g 6 + g 7 + g 8 + g 9 + g 10 + g 11 + g 12 + g 13 + g 14 + g 15 + g 16 + g 17 + g 18 + g 19 + g 20 + g 21 + g 22 + g 23 + g 24 + g 25 + g 26 + g 27 + g 28 + g 29 + g 30 + g 31 + g 32 + g 33 + g 34 + g 35 + g 36 + g 37 + g 38 + g 39 + g 40 + g 41 + g 42 + g 43 + g 44 + g 45 + g 46 + g 47 + g 48 = ∑ i ∈ Finset.range 49, g i := by
  simp only [Finset.sum_range_succ, Finset.sum_range_zero, zero_add]

/-- The pooled block of query rows: the five stretches of planes chained, over the loads of a block `x0`. -/
def pooled (x0 : Vec Ideal S49x512x256 .f32) : FVec Ideal S512x256 .f32 :=
  k0_pay6 (k0_pay5 (k0_pay4 (k0_pay3 (k0_pay2 (View.ld x0 rP0) (View.ld x0 rP1) (View.ld x0 rP2) (View.ld x0 rP3) (View.ld x0 rP4) (View.ld x0 rP5) (View.ld x0 rP6) (View.ld x0 rP7) (View.ld x0 rP8) (View.ld x0 rP9)) (View.ld x0 rP10) (View.ld x0 rP11) (View.ld x0 rP12) (View.ld x0 rP13) (View.ld x0 rP14) (View.ld x0 rP15) (View.ld x0 rP16) (View.ld x0 rP17) (View.ld x0 rP18) (View.ld x0 rP19)) (View.ld x0 rP20) (View.ld x0 rP21) (View.ld x0 rP22) (View.ld x0 rP23) (View.ld x0 rP24) (View.ld x0 rP25) (View.ld x0 rP26) (View.ld x0 rP27) (View.ld x0 rP28) (View.ld x0 rP29)) (View.ld x0 rP30) (View.ld x0 rP31) (View.ld x0 rP32) (View.ld x0 rP33) (View.ld x0 rP34) (View.ld x0 rP35) (View.ld x0 rP36) (View.ld x0 rP37) (View.ld x0 rP38) (View.ld x0 rP39)) (View.ld x0 rP40) (View.ld x0 rP41) (View.ld x0 rP42) (View.ld x0 rP43) (View.ld x0 rP44) (View.ld x0 rP45) (View.ld x0 rP46) (View.ld x0 rP47) (View.ld x0 rP48)

/-- The pooled block at row p and channel q: the mean over the 49 planes. -/
theorem pooled_apply (x0 : Vec Ideal S49x512x256 .f32) (p : Fin 512) (q : Fin 256) :
    pooled x0 (ix2 p q) = pool49 (cur3 x0) p q := by
  unfold pooled
  rw [pay6_apply, pay5_apply, pay4_apply, pay3_apply, pay2_apply]
  rw [ld_plane x0 0 (by decide) inb_S49x512x256_S1x512x256_0_0_0 p q,
    ld_plane x0 1 (by decide) inb_S49x512x256_S1x512x256_1_0_0 p q,
    ld_plane x0 2 (by decide) inb_S49x512x256_S1x512x256_2_0_0 p q,
    ld_plane x0 3 (by decide) inb_S49x512x256_S1x512x256_3_0_0 p q,
    ld_plane x0 4 (by decide) inb_S49x512x256_S1x512x256_4_0_0 p q,
    ld_plane x0 5 (by decide) inb_S49x512x256_S1x512x256_5_0_0 p q,
    ld_plane x0 6 (by decide) inb_S49x512x256_S1x512x256_6_0_0 p q,
    ld_plane x0 7 (by decide) inb_S49x512x256_S1x512x256_7_0_0 p q,
    ld_plane x0 8 (by decide) inb_S49x512x256_S1x512x256_8_0_0 p q,
    ld_plane x0 9 (by decide) inb_S49x512x256_S1x512x256_9_0_0 p q,
    ld_plane x0 10 (by decide) inb_S49x512x256_S1x512x256_10_0_0 p q,
    ld_plane x0 11 (by decide) inb_S49x512x256_S1x512x256_11_0_0 p q,
    ld_plane x0 12 (by decide) inb_S49x512x256_S1x512x256_12_0_0 p q,
    ld_plane x0 13 (by decide) inb_S49x512x256_S1x512x256_13_0_0 p q,
    ld_plane x0 14 (by decide) inb_S49x512x256_S1x512x256_14_0_0 p q,
    ld_plane x0 15 (by decide) inb_S49x512x256_S1x512x256_15_0_0 p q,
    ld_plane x0 16 (by decide) inb_S49x512x256_S1x512x256_16_0_0 p q,
    ld_plane x0 17 (by decide) inb_S49x512x256_S1x512x256_17_0_0 p q,
    ld_plane x0 18 (by decide) inb_S49x512x256_S1x512x256_18_0_0 p q,
    ld_plane x0 19 (by decide) inb_S49x512x256_S1x512x256_19_0_0 p q,
    ld_plane x0 20 (by decide) inb_S49x512x256_S1x512x256_20_0_0 p q,
    ld_plane x0 21 (by decide) inb_S49x512x256_S1x512x256_21_0_0 p q,
    ld_plane x0 22 (by decide) inb_S49x512x256_S1x512x256_22_0_0 p q,
    ld_plane x0 23 (by decide) inb_S49x512x256_S1x512x256_23_0_0 p q,
    ld_plane x0 24 (by decide) inb_S49x512x256_S1x512x256_24_0_0 p q,
    ld_plane x0 25 (by decide) inb_S49x512x256_S1x512x256_25_0_0 p q,
    ld_plane x0 26 (by decide) inb_S49x512x256_S1x512x256_26_0_0 p q,
    ld_plane x0 27 (by decide) inb_S49x512x256_S1x512x256_27_0_0 p q,
    ld_plane x0 28 (by decide) inb_S49x512x256_S1x512x256_28_0_0 p q,
    ld_plane x0 29 (by decide) inb_S49x512x256_S1x512x256_29_0_0 p q,
    ld_plane x0 30 (by decide) inb_S49x512x256_S1x512x256_30_0_0 p q,
    ld_plane x0 31 (by decide) inb_S49x512x256_S1x512x256_31_0_0 p q,
    ld_plane x0 32 (by decide) inb_S49x512x256_S1x512x256_32_0_0 p q,
    ld_plane x0 33 (by decide) inb_S49x512x256_S1x512x256_33_0_0 p q,
    ld_plane x0 34 (by decide) inb_S49x512x256_S1x512x256_34_0_0 p q,
    ld_plane x0 35 (by decide) inb_S49x512x256_S1x512x256_35_0_0 p q,
    ld_plane x0 36 (by decide) inb_S49x512x256_S1x512x256_36_0_0 p q,
    ld_plane x0 37 (by decide) inb_S49x512x256_S1x512x256_37_0_0 p q,
    ld_plane x0 38 (by decide) inb_S49x512x256_S1x512x256_38_0_0 p q,
    ld_plane x0 39 (by decide) inb_S49x512x256_S1x512x256_39_0_0 p q,
    ld_plane x0 40 (by decide) inb_S49x512x256_S1x512x256_40_0_0 p q,
    ld_plane x0 41 (by decide) inb_S49x512x256_S1x512x256_41_0_0 p q,
    ld_plane x0 42 (by decide) inb_S49x512x256_S1x512x256_42_0_0 p q,
    ld_plane x0 43 (by decide) inb_S49x512x256_S1x512x256_43_0_0 p q,
    ld_plane x0 44 (by decide) inb_S49x512x256_S1x512x256_44_0_0 p q,
    ld_plane x0 45 (by decide) inb_S49x512x256_S1x512x256_45_0_0 p q,
    ld_plane x0 46 (by decide) inb_S49x512x256_S1x512x256_46_0_0 p q,
    ld_plane x0 47 (by decide) inb_S49x512x256_S1x512x256_47_0_0 p q,
    ld_plane x0 48 (by decide) inb_S49x512x256_S1x512x256_48_0_0 p q]
  unfold pool49
  rw [planes_sum (planeN x0 p q), Finset.sum_fin_eq_sum_range]
  rfl

/-- The embedding, the normalisation and the scale, at row p and channel q. -/
theorem pay1_apply (v147 : FVec Ideal S512x256 .f32) (v148 : FVec Ideal S256x512 .f32) (v152 : FVec Ideal S512x256 .f32)
    (p : Fin 512) (q : Fin 256) :
    k0_pay1 (F := Ideal) v147 v148 v152 (ix2 p q)
      = l2n (mlp (cur2 v147) (cur2 v148) (cur2 v152)) p q * scale := by
  unfold k0_pay1
  refine (congrArg (fun z => z * scale) (Cert.KernelIdeal.R1Pay.l2n_pay (R := 512) _ reduces_S512x256_S512 (.inl rfl) rfl
    shapeCasts_S512_S512x1 broadcasts_S512x1_S512x256 p q)).trans ?_
  refine congrArg (fun f => l2n f p q * scale) (funext fun r => funext fun k => ?_)
  exact Cert.KernelIdeal.R1Pay.mlp_pay (R := 512) dot_S512x256_S256x512_S512x512_1_0_0_1_n_n ⟨rfl, rfl, rfl, rfl, rfl, rfl⟩
    dot_S512x512_S512x256_S512x256_1_0_0_1_n_n ⟨rfl, rfl, rfl, rfl, rfl, rfl⟩ v147 v148 v152 r k

theorem hzero2 : (![0, 0] : Fin 2 → Nat) = fun _ => 0 := funext fun a => by fin_cases a <;> rfl

/-- What the body leaves in the output buffer, at row p and channel q of the block: the scaled, normalised query
    embedding of the block's row p. -/
theorem out0_3_apply (x0 : Vec Ideal S49x512x256 .f32) (x1 : Vec Ideal S256x512 .f32) (x2 : Vec Ideal S512x256 .f32)
    (p : Fin 512) (q : Fin 256) :
    out0_3 (F := Ideal) x0 x1 x2 (ix2 p q) = queryP (cur2 x1) (cur2 x2) (cur3 x0) p q := by
  unfold out0_3
  rw [View.canon_unit_zero hzero2]
  simp only [View.ld_unit_zero (S := S256x512) hzero2, View.ld_unit_zero (S := S512x256) hzero2]
  refine (pay1_apply (pooled x0) x1 x2 p q).trans ?_
  unfold queryP
  exact congrArg (fun f => l2n (mlp f (cur2 x1) (cur2 x2)) p q * scale)
    (funext fun r => funext fun c => pooled_apply x0 r c)

/-! ## From blocks to the array -/

section Array

-- the TensorCore's buffer contents when the launch is entered, at the ideal values
variable (V : (c : Dev nD) → (b : Ref sig .tc) → Buf (Elt Ideal) ((c : Thread nD τ).loc b))

/-- The block index maps over the 8 grid points: the planes' window moves with the output along the rows, the
    weights' windows stay at block (0, 0), the output's block index is (t, 0). -/
theorem idx_facts0 : ∀ t : Fin cfg0.N,
    win0_0.index t (0 : Fin 3) = 0 ∧ win0_0.index t (1 : Fin 3) = win0_3.index t (0 : Fin 2) ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 7 ∧ win0_3.index t (1 : Fin 2) = 0 :=
  (by decide +kernel : ∀ t : Fin grid0.N, _)

/-- Every block of rows is some point's. -/
theorem idx_onto0 : ∀ q0 : Fin 8, ∃ t : Fin cfg0.N, win0_3.index t = ![q0.val, 0] :=
  (by decide +kernel : ∀ q0 : Fin 8, ∃ t : Fin grid0.N, win0_3.index t = ![q0.val, 0])

/-- The first weight window's block is its array. -/
theorem iblk_w1 (c : Dev nD) (t : Fin cfg0.N) (y : S256x512.Idx) :
    (iblk0 V c 1 t : Vec Ideal S256x512 .f32) y = (V c main_arg2 : S256x512.Idx → EReal) y := by
  obtain ⟨-, -, -, e0, e1, -, -, -, -⟩ := idx_facts0 t
  show V c main_arg2 (((cfg0.win 1).blk t).view.emb y) = V c main_arg2 y
  refine congrArg (V c main_arg2) (funext fun a => Fin.ext ?_)
  match a with
  | ⟨0, _⟩ => show win0_1.index t (0 : Fin 2) * 256 + 1 * (y 0).val = (y 0).val; omega
  | ⟨1, _⟩ => show win0_1.index t (1 : Fin 2) * 512 + 1 * (y 1).val = (y 1).val; omega

/-- The second weight window's block is its array. -/
theorem iblk_w2 (c : Dev nD) (t : Fin cfg0.N) (y : S512x256.Idx) :
    (iblk0 V c 2 t : Vec Ideal S512x256 .f32) y = (V c main_arg3 : S512x256.Idx → EReal) y := by
  obtain ⟨-, -, -, -, -, e0, e1, -, -⟩ := idx_facts0 t
  show V c main_arg3 (((cfg0.win 2).blk t).view.emb y) = V c main_arg3 y
  refine congrArg (V c main_arg3) (funext fun a => Fin.ext ?_)
  match a with
  | ⟨0, _⟩ => show win0_2.index t (0 : Fin 2) * 512 + 1 * (y 0).val = (y 0).val; omega
  | ⟨1, _⟩ => show win0_2.index t (1 : Fin 2) * 256 + 1 * (y 1).val = (y 1).val; omega

/-- The planes' window's block at point t holds, at (s, p, q), the array at (s, n, q) for the row n = 512 * (block index) + p. -/
theorem iblk_planes (c : Dev nD) (t : Fin cfg0.N) (s : Fin 49) (p : Fin 512) (q : Fin 256) (n : Fin 4096)
    (hn : n.val = win0_3.index t (0 : Fin 2) * 512 + p.val) :
    (iblk0 V c 0 t : Vec Ideal S49x512x256 .f32) (ix3 s p q) = (V c main_v1 : S49x4096x256.Idx → EReal) (ix3 s n q) := by
  obtain ⟨e0, e1, e2, -, -, -, -, -, -⟩ := idx_facts0 t
  show V c main_v1 (((cfg0.win 0).blk t).view.emb (ix3 s p q)) = V c main_v1 (ix3 s n q)
  refine congrArg (V c main_v1) (funext fun a => Fin.ext ?_)
  match a with
  | ⟨0, _⟩ => show win0_0.index t (0 : Fin 3) * 49 + 1 * s.val = s.val; omega
  | ⟨1, _⟩ => show win0_0.index t (1 : Fin 3) * 512 + 1 * p.val = n.val; omega
  | ⟨2, _⟩ => show win0_0.index t (2 : Fin 3) * 256 + 1 * q.val = q.val; omega

/-- A query row depends only on that row of the planes. -/
theorem queryP_row {R R' : ℕ} (w1 : Fin 256 → Fin 512 → EReal) (w2 : Fin 512 → Fin 256 → EReal)
    (pc : Fin 49 → Fin R → Fin 256 → EReal) (pc' : Fin 49 → Fin R' → Fin 256 → EReal) (n : Fin R) (n' : Fin R')
    (h : ∀ s c, pc s n c = pc' s n' c) (k : Fin 256) : queryP w1 w2 pc n k = queryP w1 w2 pc' n' k := by
  unfold queryP l2n mlp pool49
  simp only [h]

/-- The array of scaled, normalised queries from the arrays the launch finds. -/
def Q (c : Dev nD) : S4096x256.Idx → EReal :=
  fun i => queryP (cur2 (V c main_arg2 : S256x512.Idx → EReal)) (cur2 (V c main_arg3 : S512x256.Idx → EReal))
    (cur3 (V c main_v1 : S49x4096x256.Idx → EReal)) (i 0) (i 1)

/-- Row p, channel q of what point t leaves in the output buffer is the query array at the row 512 * (block index) + p. -/
theorem block_eq (c : Dev nD) (t : Fin cfg0.N) (p : Fin 512) (q : Fin 256) (i : S4096x256.Idx)
    (hi0 : (i 0).val = win0_3.index t (0 : Fin 2) * 512 + p.val) (hi1 : (i 1).val = q.val) :
    out0_3 (F := Ideal) (iblk0 V c 0 t) (iblk0 V c 1 t) (iblk0 V c 2 t) (ix2 p q) = Q V c i := by
  refine (out0_3_apply (iblk0 V c 0 t) (iblk0 V c 1 t) (iblk0 V c 2 t) p q).trans ?_
  have h1 : cur2 (iblk0 V c 1 t : Vec Ideal S256x512 .f32) = cur2 (V c main_arg2 : S256x512.Idx → EReal) :=
    funext fun a => funext fun b => iblk_w1 V c t (ix2 a b)
  have h2 : cur2 (iblk0 V c 2 t : Vec Ideal S512x256 .f32) = cur2 (V c main_arg3 : S512x256.Idx → EReal) :=
    funext fun a => funext fun b => iblk_w2 V c t (ix2 a b)
  rw [h1, h2]
  refine (queryP_row _ _ (cur3 (iblk0 V c 0 t : Vec Ideal S49x512x256 .f32)) (cur3 (V c main_v1 : S49x4096x256.Idx → EReal)) p (i 0)
    (fun s cc => iblk_planes V c t s p cc (i 0) hi0) q).trans ?_
  unfold Q
  exact congrArg (queryP _ _ _ (i 0)) (Fin.ext hi1.symm)

/-- What point t writes back is block t of the query array. -/
theorem flushed3_eq (c : Dev nD) (t : Fin cfg0.N) :
    (dat0 V c).flushed 3 t = ((cfg0.win 3).blk t).view.read (Elt Ideal) (Q V c) := by
  show (cfg0.win 3).cut (grid0.coords t) ((dat0 V c).after 3 t) = _
  rw [after0_3]
  obtain ⟨-, -, -, -, -, -, -, -, e1⟩ := idx_facts0 t
  funext j
  show out0_3 (F := Ideal) (iblk0 V c 0 t) (iblk0 V c 1 t) (iblk0 V c 2 t) (j : S512x256.Idx) = Q V c (((cfg0.win 3).blk t).view.emb j)
  refine (congrArg (out0_3 (F := Ideal) (iblk0 V c 0 t) (iblk0 V c 1 t) (iblk0 V c 2 t)) (eq_ix2 (j : S512x256.Idx))).trans ?_
  exact block_eq V c t (j 0) (j 1) (((cfg0.win 3).blk t).view.emb j)
    (by show win0_3.index t (0 : Fin 2) * 512 + 1 * (j 0).val = win0_3.index t (0 : Fin 2) * 512 + (j 0).val; omega)
    (by show win0_3.index t (1 : Fin 2) * 256 + 1 * (j 1).val = (j 1).val; omega)

/-- An index of the array is in point t's block iff each coordinate is in the block's range on its axis. -/
theorem mem_blk3 (t : Fin cfg0.N) (i : S4096x256.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v4).slice (win0_3.rect t)).set ↔ _
  rw [View.set_slice_whole, Rect.mem_set_unit]
  exact Iff.rfl

/-- Every index of the array is in the block of the point that holds its row: point (row / 512). -/
theorem cover3 (i : S4096x256.Idx) : ∃ t : Fin cfg0.N, (cfg0.win 3).flush t = true ∧ i ∈ ((cfg0.win 3).blk t).view.set := by
  have hi0 : (i 0).val < 4096 := (i 0).isLt
  have hi1 : (i 1).val < 256 := (i 1).isLt
  obtain ⟨t, ht⟩ := idx_onto0 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 256 ≤ (i 1).val ∧ (i 1).val < win0_3.index t (1 : Fin 2) * 256 + 256; omega

/-- The output array after the launch: the scaled, normalised query embedding of every row. -/
theorem q_value (c : Dev nD) :
    (dat0 (F := Ideal) V c).arrAt 3 cfg0.N
      = fun i => Cert.Spec.queryP (cur2 (V c main_arg2)) (cur2 (V c main_arg3)) (cur3 (V c main_v1)) (i 0) (i 1) :=
  (dat0 V c).arrAt_eq_of_cover 3 (Q V c) (fun t _ => flushed3_eq V c t) (cover3)

end Array

end Cert.KernelIdeal.Hand

end
-- ==== Proof.KernelValue0.lean ====
/-
  What the context pass is handed, in terms of the arguments.

  The weight arrays reach the context pass as launched; its context planes are the host's view of the context features;
  its query array is what the query pass wrote, the scaled normalised queries of the central features' planes.
-/
import proofs.«136693_g50800873177169_feedfinal_599_15_alg».proof.Proof.Run
import proofs.«136693_g50800873177169_feedfinal_599_15_alg».proof.Proof.HostPlanes
import proofs.«136693_g50800873177169_feedfinal_599_15_alg».proof.Proof.R0Value

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Spec

variable (m : (ℓ : Loc nD τ sig) → Buf (Elt Ideal) ℓ) (ρ : Dev nD → PrngReg)

/-- A weight array no launch writes is, at the context pass's entry, as launched. -/
theorem V2_main_arg4 (c : Dev nD) : V2 m ρ c main_arg4 = m ((c : Thread nD τ).loc main_arg4) :=
  (W2_of_ne m ρ c main_arg4 (by decide)).trans (Gen.V1_of m c main_arg4 (by decide))
theorem V2_main_arg5 (c : Dev nD) : V2 m ρ c main_arg5 = m ((c : Thread nD τ).loc main_arg5) :=
  (W2_of_ne m ρ c main_arg5 (by decide)).trans (Gen.V1_of m c main_arg5 (by decide))
theorem V2_main_arg6 (c : Dev nD) : V2 m ρ c main_arg6 = m ((c : Thread nD τ).loc main_arg6) :=
  (W2_of_ne m ρ c main_arg6 (by decide)).trans (Gen.V1_of m c main_arg6 (by decide))
theorem V2_main_arg7 (c : Dev nD) : V2 m ρ c main_arg7 = m ((c : Thread nD τ).loc main_arg7) :=
  (W2_of_ne m ρ c main_arg7 (by decide)).trans (Gen.V1_of m c main_arg7 (by decide))
theorem V2_main_arg8 (c : Dev nD) : V2 m ρ c main_arg8 = m ((c : Thread nD τ).loc main_arg8) :=
  (W2_of_ne m ρ c main_arg8 (by decide)).trans (Gen.V1_of m c main_arg8 (by decide))
theorem V2_main_arg9 (c : Dev nD) : V2 m ρ c main_arg9 = m ((c : Thread nD τ).loc main_arg9) :=
  (W2_of_ne m ρ c main_arg9 (by decide)).trans (Gen.V1_of m c main_arg9 (by decide))
theorem V1_main_arg2 (c : Dev nD) : V1 m ρ c main_arg2 = m ((c : Thread nD τ).loc main_arg2) :=
  Gen.V1_of m c main_arg2 (by decide)
theorem V1_main_arg3 (c : Dev nD) : V1 m ρ c main_arg3 = m ((c : Thread nD τ).loc main_arg3) :=
  Gen.V1_of m c main_arg3 (by decide)

/-- The context planes at the context pass's entry are the host's view of the context features. -/
theorem V2_main_v3 (c : Dev nD) : V2 m ρ c main_v3 = Gen.V1 m c (Proc.devRef .tc main_v3) :=
  W2_of_ne m ρ c main_v3 (by decide)

/-- The query array at the context pass's entry is what the query pass wrote: the scaled, normalised queries. -/
theorem V2_main_v4 (c : Dev nD) :
    cur2 (V2 m ρ c main_v4 : S4096x256.Idx → EReal)
      = queryP (cur2 (m ((c : Thread nD τ).loc main_arg2) : S256x512.Idx → EReal)) (cur2 (m ((c : Thread nD τ).loc main_arg3) : S512x256.Idx → EReal)) (planes (cur4 (m ((c : Thread nD τ).loc main_arg0) : S4096x256x7x7.Idx → EReal))) := by
  funext n k
  show (V2 m ρ c main_v4 : S4096x256.Idx → EReal) (ix2 n k) = _
  rw [show (V2 m ρ c main_v4 : S4096x256.Idx → EReal) = (dat0 (F := Ideal) (V1 m ρ) c).arrAt 3 cfg0.N from W2_arr m ρ c 3, q_value (V1 m ρ) c]
  show queryP (cur2 (V1 m ρ c main_arg2)) (cur2 (V1 m ρ c main_arg3)) (cur3 (V1 m ρ c main_v1)) n k = _
  rw [V1_main_arg2 m ρ c, V1_main_arg3 m ρ c]
  exact congrArg (fun p => queryP _ _ p n k) (cur3_v1 m c)

end Cert.KernelIdeal.Hand

end
-- ==== Proof.R1ValPieces.lean ====
/-
  What each kind of grid point of the second launch leaves in the two accumulators and in the result buffer, as the
  stored values of the body applied to the point's input blocks.

  Every store and every load of an accumulator or of a whole input block goes through the unit rectangle at zero offsets
  of the buffer's own extents, so a store leaves its stored value and a load reads the contents. At the first point the
  accumulators are first stored at zero and the zero is read back; at the last point the result is computed from the
  accumulators as the point has just left them. The 49 planes of the context block are loaded one by one through the
  unit rectangle at each plane.
-/
import proofs.«136693_g50800873177169_feedfinal_599_15_alg».proof.Proof.R1
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable {F : FTy → Type} [FloatOps F] [Named F]

/-- The unit rectangle at plane s of a block of 49 planes. -/
abbrev rC0 : Rect S49x256x256 := Rect.unit (s := S49x256x256) ![0, 0, 0] S1x256x256.size inb_S49x256x256_S1x256x256_0_0_0
abbrev rC1 : Rect S49x256x256 := Rect.unit (s := S49x256x256) ![1, 0, 0] S1x256x256.size inb_S49x256x256_S1x256x256_1_0_0
abbrev rC2 : Rect S49x256x256 := Rect.unit (s := S49x256x256) ![2, 0, 0] S1x256x256.size inb_S49x256x256_S1x256x256_2_0_0
abbrev rC3 : Rect S49x256x256 := Rect.unit (s := S49x256x256) ![3, 0, 0] S1x256x256.size inb_S49x256x256_S1x256x256_3_0_0
abbrev rC4 : Rect S49x256x256 := Rect.unit (s := S49x256x256) ![4, 0, 0] S1x256x256.size inb_S49x256x256_S1x256x256_4_0_0
abbrev rC5 : Rect S49x256x256 := Rect.unit (s := S49x256x256) ![5, 0, 0] S1x256x256.size inb_S49x256x256_S1x256x256_5_0_0
abbrev rC6 : Rect S49x256x256 := Rect.unit (s := S49x256x256) ![6, 0, 0] S1x256x256.size inb_S49x256x256_S1x256x256_6_0_0
abbrev rC7 : Rect S49x256x256 := Rect.unit (s := S49x256x256) ![7, 0, 0] S1x256x256.size inb_S49x256x256_S1x256x256_7_0_0
abbrev rC8 : Rect S49x256x256 := Rect.unit (s := S49x256x256) ![8, 0, 0] S1x256x256.size inb_S49x256x256_S1x256x256_8_0_0
abbrev rC9 : Rect S49x256x256 := Rect.unit (s := S49x256x256) ![9, 0, 0] S1x256x256.size inb_S49x256x256_S1x256x256_9_0_0
abbrev rC10 : Rect S49x256x256 := Rect.unit (s := S49x256x256) ![10, 0, 0] S1x256x256.size inb_S49x256x256_S1x256x256_10_0_0
abbrev rC11 : Rect S49x256x256 := Rect.unit (s := S49x256x256) ![11, 0, 0] S1x256x256.size inb_S49x256x256_S1x256x256_11_0_0
abbrev rC12 : Rect S49x256x256 := Rect.unit (s := S49x256x256) ![12, 0, 0] S1x256x256.size inb_S49x256x256_S1x256x256_12_0_0
abbrev rC13 : Rect S49x256x256 := Rect.unit (s := S49x256x256) ![13, 0, 0] S1x256x256.size inb_S49x256x256_S1x256x256_13_0_0
abbrev rC14 : Rect S49x256x256 := Rect.unit (s := S49x256x256) ![14, 0, 0] S1x256x256.size inb_S49x256x256_S1x256x256_14_0_0
abbrev rC15 : Rect S49x256x256 := Rect.unit (s := S49x256x256) ![15, 0, 0] S1x256x256.size inb_S49x256x256_S1x256x256_15_0_0
abbrev rC16 : Rect S49x256x256 := Rect.unit (s := S49x256x256) ![16, 0, 0] S1x256x256.size inb_S49x256x256_S1x256x256_16_0_0
abbrev rC17 : Rect S49x256x256 := Rect.unit (s := S49x256x256) ![17, 0, 0] S1x256x256.size inb_S49x256x256_S1x256x256_17_0_0
abbrev rC18 : Rect S49x256x256 := Rect.unit (s := S49x256x256) ![18, 0, 0] S1x256x256.size inb_S49x256x256_S1x256x256_18_0_0
abbrev rC19 : Rect S49x256x256 := Rect.unit (s := S49x256x256) ![19, 0, 0] S1x256x256.size inb_S49x256x256_S1x256x256_19_0_0
abbrev rC20 : Rect S49x256x256 := Rect.unit (s := S49x256x256) ![20, 0, 0] S1x256x256.size inb_S49x256x256_S1x256x256_20_0_0
abbrev rC21 : Rect S49x256x256 := Rect.unit (s := S49x256x256) ![21, 0, 0] S1x256x256.size inb_S49x256x256_S1x256x256_21_0_0
abbrev rC22 : Rect S49x256x256 := Rect.unit (s := S49x256x256) ![22, 0, 0] S1x256x256.size inb_S49x256x256_S1x256x256_22_0_0
abbrev rC23 : Rect S49x256x256 := Rect.unit (s := S49x256x256) ![23, 0, 0] S1x256x256.size inb_S49x256x256_S1x256x256_23_0_0
abbrev rC24 : Rect S49x256x256 := Rect.unit (s := S49x256x256) ![24, 0, 0] S1x256x256.size inb_S49x256x256_S1x256x256_24_0_0
abbrev rC25 : Rect S49x256x256 := Rect.unit (s := S49x256x256) ![25, 0, 0] S1x256x256.size inb_S49x256x256_S1x256x256_25_0_0
abbrev rC26 : Rect S49x256x256 := Rect.unit (s := S49x256x256) ![26, 0, 0] S1x256x256.size inb_S49x256x256_S1x256x256_26_0_0
abbrev rC27 : Rect S49x256x256 := Rect.unit (s := S49x256x256) ![27, 0, 0] S1x256x256.size inb_S49x256x256_S1x256x256_27_0_0
abbrev rC28 : Rect S49x256x256 := Rect.unit (s := S49x256x256) ![28, 0, 0] S1x256x256.size inb_S49x256x256_S1x256x256_28_0_0
abbrev rC29 : Rect S49x256x256 := Rect.unit (s := S49x256x256) ![29, 0, 0] S1x256x256.size inb_S49x256x256_S1x256x256_29_0_0
abbrev rC30 : Rect S49x256x256 := Rect.unit (s := S49x256x256) ![30, 0, 0] S1x256x256.size inb_S49x256x256_S1x256x256_30_0_0
abbrev rC31 : Rect S49x256x256 := Rect.unit (s := S49x256x256) ![31, 0, 0] S1x256x256.size inb_S49x256x256_S1x256x256_31_0_0
abbrev rC32 : Rect S49x256x256 := Rect.unit (s := S49x256x256) ![32, 0, 0] S1x256x256.size inb_S49x256x256_S1x256x256_32_0_0
abbrev rC33 : Rect S49x256x256 := Rect.unit (s := S49x256x256) ![33, 0, 0] S1x256x256.size inb_S49x256x256_S1x256x256_33_0_0
abbrev rC34 : Rect S49x256x256 := Rect.unit (s := S49x256x256) ![34, 0, 0] S1x256x256.size inb_S49x256x256_S1x256x256_34_0_0
abbrev rC35 : Rect S49x256x256 := Rect.unit (s := S49x256x256) ![35, 0, 0] S1x256x256.size inb_S49x256x256_S1x256x256_35_0_0
abbrev rC36 : Rect S49x256x256 := Rect.unit (s := S49x256x256) ![36, 0, 0] S1x256x256.size inb_S49x256x256_S1x256x256_36_0_0
abbrev rC37 : Rect S49x256x256 := Rect.unit (s := S49x256x256) ![37, 0, 0] S1x256x256.size inb_S49x256x256_S1x256x256_37_0_0
abbrev rC38 : Rect S49x256x256 := Rect.unit (s := S49x256x256) ![38, 0, 0] S1x256x256.size inb_S49x256x256_S1x256x256_38_0_0
abbrev rC39 : Rect S49x256x256 := Rect.unit (s := S49x256x256) ![39, 0, 0] S1x256x256.size inb_S49x256x256_S1x256x256_39_0_0
abbrev rC40 : Rect S49x256x256 := Rect.unit (s := S49x256x256) ![40, 0, 0] S1x256x256.size inb_S49x256x256_S1x256x256_40_0_0
abbrev rC41 : Rect S49x256x256 := Rect.unit (s := S49x256x256) ![41, 0, 0] S1x256x256.size inb_S49x256x256_S1x256x256_41_0_0
abbrev rC42 : Rect S49x256x256 := Rect.unit (s := S49x256x256) ![42, 0, 0] S1x256x256.size inb_S49x256x256_S1x256x256_42_0_0
abbrev rC43 : Rect S49x256x256 := Rect.unit (s := S49x256x256) ![43, 0, 0] S1x256x256.size inb_S49x256x256_S1x256x256_43_0_0
abbrev rC44 : Rect S49x256x256 := Rect.unit (s := S49x256x256) ![44, 0, 0] S1x256x256.size inb_S49x256x256_S1x256x256_44_0_0
abbrev rC45 : Rect S49x256x256 := Rect.unit (s := S49x256x256) ![45, 0, 0] S1x256x256.size inb_S49x256x256_S1x256x256_45_0_0
abbrev rC46 : Rect S49x256x256 := Rect.unit (s := S49x256x256) ![46, 0, 0] S1x256x256.size inb_S49x256x256_S1x256x256_46_0_0
abbrev rC47 : Rect S49x256x256 := Rect.unit (s := S49x256x256) ![47, 0, 0] S1x256x256.size inb_S49x256x256_S1x256x256_47_0_0
abbrev rC48 : Rect S49x256x256 := Rect.unit (s := S49x256x256) ![48, 0, 0] S1x256x256.size inb_S49x256x256_S1x256x256_48_0_0

/-- The sum of the 49 planes of a block as the body forms it: nine planes, then four stretches of ten. -/
def blockSum (x0 : Vec F S49x256x256 .f32) : FVec F S256x256 .f32 :=
  k1_pay9 (k1_pay8 (k1_pay7 (k1_pay6 (k1_pay5 (View.ld x0 rC0) (View.ld x0 rC1) (View.ld x0 rC2) (View.ld x0 rC3) (View.ld x0 rC4) (View.ld x0 rC5) (View.ld x0 rC6) (View.ld x0 rC7) (View.ld x0 rC8)) (View.ld x0 rC9) (View.ld x0 rC10) (View.ld x0 rC11) (View.ld x0 rC12) (View.ld x0 rC13) (View.ld x0 rC14) (View.ld x0 rC15) (View.ld x0 rC16) (View.ld x0 rC17) (View.ld x0 rC18)) (View.ld x0 rC19) (View.ld x0 rC20) (View.ld x0 rC21) (View.ld x0 rC22) (View.ld x0 rC23) (View.ld x0 rC24) (View.ld x0 rC25) (View.ld x0 rC26) (View.ld x0 rC27) (View.ld x0 rC28)) (View.ld x0 rC29) (View.ld x0 rC30) (View.ld x0 rC31) (View.ld x0 rC32) (View.ld x0 rC33) (View.ld x0 rC34) (View.ld x0 rC35) (View.ld x0 rC36) (View.ld x0 rC37) (View.ld x0 rC38)) (View.ld x0 rC39) (View.ld x0 rC40) (View.ld x0 rC41) (View.ld x0 rC42) (View.ld x0 rC43) (View.ld x0 rC44) (View.ld x0 rC45) (View.ld x0 rC46) (View.ld x0 rC47) (View.ld x0 rC48)

theorem ctxOff2 : (![0, 0] : Fin 2 → Nat) = fun _ => 0 := funext fun a => by fin_cases a <;> rfl

/-! ## The first point -/

/-- The numerator accumulator after the first point: the block's contribution added to the zero just stored. -/
theorem sout1_A_0_eq (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) :
    sout1_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 = k1_pay12 (blockSum x0) x2 x3 x4 x5 x1 k1_pay3 := by
  unfold sout1_A_0
  rw [View.read_writes_eq_canon _ _ _ (scover1_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7)]
  unfold kernelRun1_A
  dsimp only
  sl_unfold_words
  rw [View.canon_cons_unit_zero (S := S4096x256) ctxOff2, View.readCov_unit_zero (S := S4096x256) _ ctxOff2]
  simp only [View.readAt_eq_ld, harg1.read_unread, harg2.read_unread, harg3.read_unread, harg4.read_unread, harg5.read_unread, harg6.read_unread, harg7.read_unread, harg8.read_unread, harg10.read_unread, harg11.read_unread, View.ld_unit_zero (S := S4096x256) ctxOff2, View.ld_unit_zero (S := S4096x1) ctxOff2, View.ld_unit_zero (S := S256x512) ctxOff2, View.ld_unit_zero (S := S512x256) ctxOff2]
  rfl

/-- The denominator accumulator after the first point. -/
theorem sout1_A_1_eq (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) :
    sout1_A_1 c i arg1 harg1 arg2 harg2 arg3 harg3 arg4 harg4 arg5 harg5 arg6 harg6 arg7 harg7 arg8 harg8 arg9 harg9 arg10 harg10 arg11 harg11 hc0 hc1 x0 x1 x2 x3 x4 x5 x6 x7 = k1_pay1 (k1_pay11 (blockSum x0) x2 x3 x1) k1_pay4 := by
  unfold sout1_A_1
  rw [View.read_writes_eq_canon _ _ _ (scover1_A_1 c i arg1 harg1 arg2 harg2 arg3 harg3 arg4 harg4 arg5 harg5 arg6 harg6 arg7 harg7 arg8 harg8 arg9 harg9 arg10 harg10 arg11 harg11 hc0 hc1 x0 x1 x2 x3 x4 x5 x6 x7)]
  unfold kernelRun1_A
  dsimp only
  sl_unfold_words
  rw [View.canon_cons_unit_zero (S := S4096x1) ctxOff2, View.readCov_unit_zero (S := S4096x1) _ ctxOff2]
  simp only [View.readAt_eq_ld, harg1.read_unread, harg2.read_unread, harg3.read_unread, harg4.read_unread, harg5.read_unread, harg6.read_unread, harg7.read_unread, harg8.read_unread, harg10.read_unread, harg11.read_unread, View.ld_unit_zero (S := S4096x256) ctxOff2, View.ld_unit_zero (S := S4096x1) ctxOff2, View.ld_unit_zero (S := S256x512) ctxOff2, View.ld_unit_zero (S := S512x256) ctxOff2]
  rfl

/-! ## A middle point -/

/-- The numerator accumulator after a middle point: the block's contribution added to what the point before left. -/
theorem sout1_B_0_eq (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) :
    sout1_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 = k1_pay12 (blockSum x0) x2 x3 x4 x5 x1 xs0 := by
  unfold sout1_B_0
  rw [View.read_writes_eq_canon _ _ _ (scover1_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1)]
  unfold kernelRun1_B
  dsimp only
  sl_unfold_words
  rw [View.canon_unit_zero ctxOff2]
  simp only [View.readAt_eq_ld, harg1.read_unread, harg2.read_unread, harg3.read_unread, harg4.read_unread, harg5.read_unread, harg6.read_unread, harg7.read_unread, harg8.read_unread, harg10.read_unread, harg11.read_unread, View.ld_unit_zero (S := S4096x256) ctxOff2, View.ld_unit_zero (S := S4096x1) ctxOff2, View.ld_unit_zero (S := S256x512) ctxOff2, View.ld_unit_zero (S := S512x256) ctxOff2]
  rfl

/-- The denominator accumulator after a middle point. -/
theorem sout1_B_1_eq (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : ¬cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) :
    sout1_B_1 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 = k1_pay1 (k1_pay11 (blockSum x0) x2 x3 x1) xs1 := by
  unfold sout1_B_1
  rw [View.read_writes_eq_canon _ _ _ (scover1_B_1 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1)]
  unfold kernelRun1_B
  dsimp only
  sl_unfold_words
  rw [View.canon_unit_zero ctxOff2]
  simp only [View.readAt_eq_ld, harg1.read_unread, harg2.read_unread, harg3.read_unread, harg4.read_unread, harg5.read_unread, harg6.read_unread, harg7.read_unread, harg8.read_unread, harg10.read_unread, harg11.read_unread, View.ld_unit_zero (S := S4096x256) ctxOff2, View.ld_unit_zero (S := S4096x1) ctxOff2, View.ld_unit_zero (S := S256x512) ctxOff2, View.ld_unit_zero (S := S512x256) ctxOff2]
  rfl

/-! ## The last point -/

/-- The numerator accumulator after the last point. -/
theorem sout1_C_0_eq (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) :
    sout1_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 = k1_pay12 (blockSum x0) x2 x3 x4 x5 x1 xs0 := by
  unfold sout1_C_0
  rw [View.read_writes_eq_canon _ _ _ (scover1_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1)]
  unfold kernelRun1_C
  dsimp only
  sl_unfold_words
  rw [View.canon_unit_zero ctxOff2]
  simp only [View.readAt_eq_ld, harg1.read_unread, harg2.read_unread, harg3.read_unread, harg4.read_unread, harg5.read_unread, harg6.read_unread, harg7.read_unread, harg8.read_unread, harg10.read_unread, harg11.read_unread, View.ld_unit_zero (S := S4096x256) ctxOff2, View.ld_unit_zero (S := S4096x1) ctxOff2, View.ld_unit_zero (S := S256x512) ctxOff2, View.ld_unit_zero (S := S512x256) ctxOff2]
  rfl

/-- The denominator accumulator after the last point. -/
theorem sout1_C_1_eq (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) :
    sout1_C_1 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 = k1_pay1 (k1_pay11 (blockSum x0) x2 x3 x1) xs1 := by
  unfold sout1_C_1
  rw [View.read_writes_eq_canon _ _ _ (scover1_C_1 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1)]
  unfold kernelRun1_C
  dsimp only
  sl_unfold_words
  rw [View.canon_unit_zero ctxOff2]
  simp only [View.readAt_eq_ld, harg1.read_unread, harg2.read_unread, harg3.read_unread, harg4.read_unread, harg5.read_unread, harg6.read_unread, harg7.read_unread, harg8.read_unread, harg10.read_unread, harg11.read_unread, View.ld_unit_zero (S := S4096x256) ctxOff2, View.ld_unit_zero (S := S4096x1) ctxOff2, View.ld_unit_zero (S := S256x512) ctxOff2, View.ld_unit_zero (S := S512x256) ctxOff2]
  rfl

/-- The result buffer after the last point: the final embedding of the quotient of the two accumulators as the point leaves them. -/
theorem out1_C_8_eq (c : Dev nD) (i : grid1.Coords) (arg1 : Memref sig .tc .vmem S49x256x256 .f32) (harg1 : arg1.IsWhole) (arg2 : Memref sig .tc .vmem S4096x256 .bf16) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x512 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S4096x1 .f32) (harg11 : arg11.IsWhole) (hc0 : ¬cond1_0 i) (hc1 : cond1_1 i)
    (x0 : Vec F S49x256x256 .f32) (x1 : Vec F S4096x256 .bf16) (x2 : Vec F S256x512 .f32) (x3 : Vec F S512x256 .f32) (x4 : Vec F S256x512 .f32) (x5 : Vec F S512x256 .f32) (x6 : Vec F S256x512 .f32) (x7 : Vec F S512x256 .f32) (xs0 : Vec F S4096x256 .f32) (xs1 : Vec F S4096x1 .f32) :
    out1_C_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 = k1_pay2 (k1_pay12 (blockSum x0) x2 x3 x4 x5 x1 xs0) (k1_pay1 (k1_pay11 (blockSum x0) x2 x3 x1) xs1) x6 x7 := by
  unfold out1_C_8
  rw [View.read_writes_eq_canon _ _ _ (cover1_C_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1)]
  unfold kernelRun1_C
  dsimp only
  sl_unfold_words
  rw [View.canon_unit_zero ctxOff2, View.readCov_unit_zero (S := S4096x256) _ ctxOff2, View.readCov_unit_zero (S := S4096x1) _ ctxOff2]
  simp only [View.readAt_eq_ld, harg1.read_unread, harg2.read_unread, harg3.read_unread, harg4.read_unread, harg5.read_unread, harg6.read_unread, harg7.read_unread, harg8.read_unread, harg10.read_unread, harg11.read_unread, View.ld_unit_zero (S := S4096x256) ctxOff2, View.ld_unit_zero (S := S4096x1) ctxOff2, View.ld_unit_zero (S := S256x512) ctxOff2, View.ld_unit_zero (S := S512x256) ctxOff2]
  rfl

end Cert.KernelIdeal.Hand

end
-- ==== Proof.R1PayScore.lean ====
/-
  The exponential weights of one block of 256 context rows, read at an index: the key embedding of the pooled block
  (linear, rectifier, linear, then each row over the larger of its norm and the small constant), the logits of every
  query row against the 256 key rows (a product with the transpose of the keys into a zero accumulator; the change of
  float format of the keys is the identity on the extended reals), and the exponential of each logit.
-/
import proofs.«136693_g50800873177169_feedfinal_599_15_alg».proof.Proof.Gen.KernelIdeal.Skeleton
import proofs.«136693_g50800873177169_feedfinal_599_15_alg».proof.Proof.Spec
import proofs.«136693_g50800873177169_feedfinal_599_15_alg».proof.Proof.R1PayPool
import proofs.«136693_g50800873177169_feedfinal_599_15_alg».proof.Proof.R1PayMlp

noncomputable section

open scoped BigOperators

namespace Cert.KernelIdeal.R1Pay

open Idealize.ShloMosaic Idealize.ShloMosaic.ValueIdx Cert.KernelIdeal Cert.KernelIdeal.Gen Cert.Spec

theorem nn_256_256_512 : IsNN dot_S256x256_S256x512_S256x512_1_0_0_1_n_n := ⟨rfl, rfl, rfl, rfl, rfl, rfl⟩
theorem nn_256_512_256 : IsNN dot_S256x512_S512x256_S256x256_1_0_0_1_n_n := ⟨rfl, rfl, rfl, rfl, rfl, rfl⟩
theorem nt_4096_256_256 : IsNT dot_S4096x256_S256x256_S4096x256_1_1_0_0_n_n := ⟨rfl, rfl, rfl, rfl, rfl, rfl⟩

/-- The embedding of the pooled block: linear, rectifier, linear of the scaled block. -/
theorem embed_apply (P : FVec Ideal S256x256 .f32) (w1 : FVec Ideal S256x512 .f32) (w2 : FVec Ideal S512x256 .f32)
    (r k : Fin 256) :
    matmul dot_S256x512_S512x256_S256x256_1_0_0_1_n_n none
        (maximumf (matmul dot_S256x256_S256x512_S256x512_1_0_0_1_n_n none (k1_pay10 (F := Ideal) P) w1
            (constant (F := Ideal) S256x512 .f32 0x00000000#32))
          (broadcast S256x512 (Scalar.ofBits (F := Ideal) .f32 0x00000000#32)))
        w2 (constant (F := Ideal) S256x256 .f32 0x00000000#32) (ix2 r k)
      = mlp (P49 P) (cur2 w1) (cur2 w2) r k :=
  (mlp_pay _ nn_256_256_512 _ nn_256_512_256 (k1_pay10 (F := Ideal) P) w1 w2 r k).trans
    (congrArg (fun x => mlp x (cur2 w1) (cur2 w2) r k) (cur2_pay10 P))

/-- The exponential weight of query row n against key row j of the block. -/
theorem pay11_apply (P : FVec Ideal S256x256 .f32) (w1 : Vec Ideal S256x512 .f32) (w2 : Vec Ideal S512x256 .f32)
    (q : Vec Ideal S4096x256 .bf16) (n : Fin 4096) (j : Fin 256) :
    k1_pay11 (F := Ideal) P w1 w2 q (ix2 n j)
      = Ideal.exp (∑ k : Fin 256, q (ix2 n k) * l2n (mlp (P49 P) (cur2 w1) (cur2 w2)) j k) := by
  unfold k1_pay11
  refine congrArg Ideal.exp ?_
  refine (nt_apply _ nt_4096_256_256 _ _ n j).trans ?_
  refine Finset.sum_congr rfl fun k _ => ?_
  refine congr (congrArg HMul.hMul (congrFun (shapeCast_self q _) (ix2 n k))) ?_
  refine (l2n_pay _ _ _ _ _ _ j k).trans ?_
  exact congrArg (fun y => l2n y j k) (funext fun r => funext fun c => embed_apply P w1 w2 r c)

end Cert.KernelIdeal.R1Pay

end
-- ==== Proof.R1PayAcc.lean ====
/-
  The numerator accumulator after one block of 256 context rows, read at an index: what it held before plus, for each
  query row, the exponential weights of the block against the value embedding of the block (a plain product into a zero
  accumulator; both changes of float format are the identity on the extended reals).
-/
import proofs.«136693_g50800873177169_feedfinal_599_15_alg».proof.Proof.Gen.KernelIdeal.Skeleton
import proofs.«136693_g50800873177169_feedfinal_599_15_alg».proof.Proof.Spec
import proofs.«136693_g50800873177169_feedfinal_599_15_alg».proof.Proof.R1PayPool
import proofs.«136693_g50800873177169_feedfinal_599_15_alg».proof.Proof.R1PayMlp
import proofs.«136693_g50800873177169_feedfinal_599_15_alg».proof.Proof.R1PayScore

noncomputable section

open scoped BigOperators

namespace Cert.KernelIdeal.R1Pay

open Idealize.ShloMosaic Idealize.ShloMosaic.ValueIdx Cert.KernelIdeal Cert.KernelIdeal.Gen Cert.Spec

theorem nn_4096_256_256 : IsNN dot_S4096x256_S256x256_S4096x256_1_0_0_1_n_n := ⟨rfl, rfl, rfl, rfl, rfl, rfl⟩

/-- The accumulator of query row n, channel d, after the block. -/
theorem pay12_apply (P : FVec Ideal S256x256 .f32) (w1 : Vec Ideal S256x512 .f32) (w2 : Vec Ideal S512x256 .f32)
    (w3 : Vec Ideal S256x512 .f32) (w4 : Vec Ideal S512x256 .f32) (q : Vec Ideal S4096x256 .bf16)
    (acc : Vec Ideal S4096x256 .f32) (n : Fin 4096) (d : Fin 256) :
    k1_pay12 (F := Ideal) P w1 w2 w3 w4 q acc (ix2 n d)
      = acc (ix2 n d)
        + ∑ j : Fin 256, k1_pay11 (F := Ideal) P w1 w2 q (ix2 n j) * mlp (P49 P) (cur2 w3) (cur2 w4) j d := by
  unfold k1_pay12
  refine (congrFun (shapeCast_self _ _) (ix2 n d)).trans ?_
  refine congrArg (fun z => acc (ix2 n d) + z) ?_
  refine (nn_apply _ nn_4096_256_256 _ _ n d).trans ?_
  refine Finset.sum_congr rfl fun j _ => ?_
  exact congrArg (fun z => k1_pay11 (F := Ideal) P w1 w2 q (ix2 n j) * z) (embed_apply P w3 w4 j d)

end Cert.KernelIdeal.R1Pay

end
-- ==== Proof.R1PayDen.lean ====
/-
  The denominator accumulator after one block, read at an index: what it held before plus the sum of the block's 256
  exponential weights of the query row (a row sum kept as a column).
-/
import proofs.«136693_g50800873177169_feedfinal_599_15_alg».proof.Proof.Gen.KernelIdeal.Skeleton
import proofs.«136693_g50800873177169_feedfinal_599_15_alg».proof.Proof.Spec
import proofs.«136693_g50800873177169_feedfinal_599_15_alg».proof.Proof.LibRowReduceProducts
import proofs.«136693_g50800873177169_feedfinal_599_15_alg».proof.Proof.LibKeepdimsCols
import Idealize.ShloMosaic.Lib.ValueIdx
import Idealize.ShloMosaic.Lib.Pipeline.Value

noncomputable section

open scoped BigOperators

namespace Cert.KernelIdeal.R1Pay

open Idealize.ShloMosaic Idealize.ShloMosaic.ValueIdx Cert.KernelIdeal Cert.KernelIdeal.Gen Cert.Spec

/-- The denominator of query row n after the block. -/
theorem pay1_apply (e : FVec Ideal S4096x256 .f32) (dn : Vec Ideal S4096x1 .f32) (n : Fin 4096) :
    k1_pay1 (F := Ideal) e dn (ix2 n (0 : Fin 1)) = dn (ix2 n (0 : Fin 1)) + ∑ j : Fin 256, e (ix2 n j) := by
  unfold k1_pay1
  refine (congrFun (shapeCast_self _ _) (ix2 n (0 : Fin 1))).trans ?_
  refine congrArg (fun z => dn (ix2 n (0 : Fin 1)) + z) ?_
  refine (Cert.LibKeepdimsCols.shapeCast_a_a1_apply _ _ n 0).trans ?_
  exact Cert.LibRowReduceProducts.rowSum_apply e _ _ _ n

end Cert.KernelIdeal.R1Pay

end
-- ==== Proof.R1PayOut.lean ====
/-
  The stored result of the last grid point, read at an index: each numerator row divided by its denominator (the
  denominator column broadcast along the row), then linear, rectifier, linear.
-/
import proofs.«136693_g50800873177169_feedfinal_599_15_alg».proof.Proof.Gen.KernelIdeal.Skeleton
import proofs.«136693_g50800873177169_feedfinal_599_15_alg».proof.Proof.Spec
import proofs.«136693_g50800873177169_feedfinal_599_15_alg».proof.Proof.R1PayMlp
import proofs.«136693_g50800873177169_feedfinal_599_15_alg».proof.Proof.LibKeepdimsCols

noncomputable section

open scoped BigOperators

namespace Cert.KernelIdeal.R1Pay

open Idealize.ShloMosaic Idealize.ShloMosaic.ValueIdx Cert.KernelIdeal Cert.KernelIdeal.Gen Cert.Spec

theorem nn_4096_256_512 : IsNN dot_S4096x256_S256x512_S4096x512_1_0_0_1_n_n := ⟨rfl, rfl, rfl, rfl, rfl, rfl⟩
theorem nn_4096_512_256 : IsNN dot_S4096x512_S512x256_S4096x256_1_0_0_1_n_n := ⟨rfl, rfl, rfl, rfl, rfl, rfl⟩

/-- The result at query row n, channel c. -/
theorem pay2_apply (acc : Vec Ideal S4096x256 .f32) (dn : Vec Ideal S4096x1 .f32) (w7 : Vec Ideal S256x512 .f32)
    (w8 : Vec Ideal S512x256 .f32) (n : Fin 4096) (c : Fin 256) :
    k1_pay2 (F := Ideal) acc dn w7 w8 (ix2 n c)
      = mlp (fun (n : Fin 4096) (d : Fin 256) => Ideal.div (acc (ix2 n d)) (dn (ix2 n (0 : Fin 1)))) (cur2 w7) (cur2 w8)
          n c := by
  unfold k1_pay2
  refine (mlp_pay _ nn_4096_256_512 _ nn_4096_512_256 _ w7 w8 n c).trans ?_
  refine congrArg (fun x => mlp x (cur2 w7) (cur2 w8) n c) ?_
  funext n' d
  exact congrArg (Ideal.div (acc (ix2 n' d))) (Cert.LibKeepdimsCols.broadcastTo_a1_ab_apply dn _ n' d)

end Cert.KernelIdeal.R1Pay

end
-- ==== Proof.R1PayPlanes.lean ====
/-
  The running sum of the 49 planes of a block of 256 context rows, read at an index. Each plane is loaded as a
  [1, 256, 256] array and viewed as [256, 256]; the planes are added one after another, nine in the first stretch and
  ten in each of the four that follow.
-/
import proofs.«136693_g50800873177169_feedfinal_599_15_alg».proof.Proof.Gen.KernelIdeal.Skeleton
import proofs.«136693_g50800873177169_feedfinal_599_15_alg».proof.Proof.Spec
import Idealize.ShloMosaic.Lib.ValueIdx
import Idealize.ShloMosaic.Lib.ValueLayout
import Idealize.ShloMosaic.Lib.Pipeline.Value

noncomputable section

open scoped BigOperators

namespace Cert.KernelIdeal.R1Pay

open Idealize.ShloMosaic Idealize.ShloMosaic.ValueIdx Cert.KernelIdeal Cert.KernelIdeal.Gen Cert.Spec

/-- A plane viewed as a matrix reads, at (r, c), the plane at (0, r, c). -/
theorem plane_apply (v : Vec Ideal S1x256x256 .f32) (h : S1x256x256.ShapeCasts S256x256) (r c : Fin 256) :
    shapeCast S256x256 v h (ix2 r c) = v (ix3 (0 : Fin 1) r c) :=
  shapeCast_1ab_ab_apply v h r c

/-- The sum of the first nine planes of the block, at row r and channel c. -/
theorem pay5_apply (v3 v5 v8 v11 v14 v17 v20 v23 v26 : Vec Ideal S1x256x256 .f32) (r c : Fin 256) :
    k1_pay5 (F := Ideal) v3 v5 v8 v11 v14 v17 v20 v23 v26 (ix2 r c)
      = v3 (ix3 (0 : Fin 1) r c) + v5 (ix3 (0 : Fin 1) r c) + v8 (ix3 (0 : Fin 1) r c) + v11 (ix3 (0 : Fin 1) r c) + v14 (ix3 (0 : Fin 1) r c) + v17 (ix3 (0 : Fin 1) r c) + v20 (ix3 (0 : Fin 1) r c) + v23 (ix3 (0 : Fin 1) r c) + v26 (ix3 (0 : Fin 1) r c) := by
  have e : ∀ v : Vec Ideal S1x256x256 .f32,
      shapeCast S256x256 v shapeCasts_S1x256x256_S256x256 (ix2 r c) = v (ix3 (0 : Fin 1) r c) :=
    fun v => plane_apply v _ r c
  unfold k1_pay5
  exact (congrArg₂ (· + ·) (congrArg₂ (· + ·) (congrArg₂ (· + ·) (congrArg₂ (· + ·) (congrArg₂ (· + ·) (congrArg₂ (· + ·) (congrArg₂ (· + ·) (congrArg₂ (· + ·) (e v3) (e v5)) (e v8)) (e v11)) (e v14)) (e v17)) (e v20)) (e v23)) (e v26))

/-- The running sum of the planes after ten more planes, at row r and channel c. -/
theorem pay6_apply (v28 : FVec Ideal S256x256 .f32) (v29 v32 v35 v38 v41 v44 v47 v50 v53 v56 : Vec Ideal S1x256x256 .f32) (r c : Fin 256) :
    k1_pay6 (F := Ideal) v28 v29 v32 v35 v38 v41 v44 v47 v50 v53 v56 (ix2 r c)
      = v28 (ix2 r c) + v29 (ix3 (0 : Fin 1) r c) + v32 (ix3 (0 : Fin 1) r c) + v35 (ix3 (0 : Fin 1) r c) + v38 (ix3 (0 : Fin 1) r c) + v41 (ix3 (0 : Fin 1) r c) + v44 (ix3 (0 : Fin 1) r c) + v47 (ix3 (0 : Fin 1) r c) + v50 (ix3 (0 : Fin 1) r c) + v53 (ix3 (0 : Fin 1) r c) + v56 (ix3 (0 : Fin 1) r c) := by
  have e : ∀ v : Vec Ideal S1x256x256 .f32,
      shapeCast S256x256 v shapeCasts_S1x256x256_S256x256 (ix2 r c) = v (ix3 (0 : Fin 1) r c) :=
    fun v => plane_apply v _ r c
  unfold k1_pay6
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (rfl : v28 (ix2 r c) = v28 (ix2 r c)) (e v29)) (e v32)) (e v35)) (e v38)) (e v41)) (e v44)) (e v47)) (e v50)) (e v53)) (e v56))

/-- The running sum of the planes after ten more planes, at row r and channel c. -/
theorem pay7_apply (v58 : FVec Ideal S256x256 .f32) (v59 v62 v65 v68 v71 v74 v77 v80 v83 v86 : Vec Ideal S1x256x256 .f32) (r c : Fin 256) :
    k1_pay7 (F := Ideal) v58 v59 v62 v65 v68 v71 v74 v77 v80 v83 v86 (ix2 r c)
      = v58 (ix2 r c) + v59 (ix3 (0 : Fin 1) r c) + v62 (ix3 (0 : Fin 1) r c) + v65 (ix3 (0 : Fin 1) r c) + v68 (ix3 (0 : Fin 1) r c) + v71 (ix3 (0 : Fin 1) r c) + v74 (ix3 (0 : Fin 1) r c) + v77 (ix3 (0 : Fin 1) r c) + v80 (ix3 (0 : Fin 1) r c) + v83 (ix3 (0 : Fin 1) r c) + v86 (ix3 (0 : Fin 1) r c) := by
  have e : ∀ v : Vec Ideal S1x256x256 .f32,
      shapeCast S256x256 v shapeCasts_S1x256x256_S256x256 (ix2 r c) = v (ix3 (0 : Fin 1) r c) :=
    fun v => plane_apply v _ r c
  unfold k1_pay7
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (rfl : v58 (ix2 r c) = v58 (ix2 r c)) (e v59)) (e v62)) (e v65)) (e v68)) (e v71)) (e v74)) (e v77)) (e v80)) (e v83)) (e v86))

/-- The running sum of the planes after ten more planes, at row r and channel c. -/
theorem pay8_apply (v88 : FVec Ideal S256x256 .f32) (v89 v92 v95 v98 v101 v104 v107 v110 v113 v116 : Vec Ideal S1x256x256 .f32) (r c : Fin 256) :
    k1_pay8 (F := Ideal) v88 v89 v92 v95 v98 v101 v104 v107 v110 v113 v116 (ix2 r c)
      = v88 (ix2 r c) + v89 (ix3 (0 : Fin 1) r c) + v92 (ix3 (0 : Fin 1) r c) + v95 (ix3 (0 : Fin 1) r c) + v98 (ix3 (0 : Fin 1) r c) + v101 (ix3 (0 : Fin 1) r c) + v104 (ix3 (0 : Fin 1) r c) + v107 (ix3 (0 : Fin 1) r c) + v110 (ix3 (0 : Fin 1) r c) + v113 (ix3 (0 : Fin 1) r c) + v116 (ix3 (0 : Fin 1) r c) := by
  have e : ∀ v : Vec Ideal S1x256x256 .f32,
      shapeCast S256x256 v shapeCasts_S1x256x256_S256x256 (ix2 r c) = v (ix3 (0 : Fin 1) r c) :=
    fun v => plane_apply v _ r c
  unfold k1_pay8
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (rfl : v88 (ix2 r c) = v88 (ix2 r c)) (e v89)) (e v92)) (e v95)) (e v98)) (e v101)) (e v104)) (e v107)) (e v110)) (e v113)) (e v116))

/-- The running sum of the planes after ten more planes, at row r and channel c. -/
theorem pay9_apply (v118 : FVec Ideal S256x256 .f32) (v119 v122 v125 v128 v131 v134 v137 v140 v143 v146 : Vec Ideal S1x256x256 .f32) (r c : Fin 256) :
    k1_pay9 (F := Ideal) v118 v119 v122 v125 v128 v131 v134 v137 v140 v143 v146 (ix2 r c)
      = v118 (ix2 r c) + v119 (ix3 (0 : Fin 1) r c) + v122 (ix3 (0 : Fin 1) r c) + v125 (ix3 (0 : Fin 1) r c) + v128 (ix3 (0 : Fin 1) r c) + v131 (ix3 (0 : Fin 1) r c) + v134 (ix3 (0 : Fin 1) r c) + v137 (ix3 (0 : Fin 1) r c) + v140 (ix3 (0 : Fin 1) r c) + v143 (ix3 (0 : Fin 1) r c) + v146 (ix3 (0 : Fin 1) r c) := by
  have e : ∀ v : Vec Ideal S1x256x256 .f32,
      shapeCast S256x256 v shapeCasts_S1x256x256_S256x256 (ix2 r c) = v (ix3 (0 : Fin 1) r c) :=
    fun v => plane_apply v _ r c
  unfold k1_pay9
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (rfl : v118 (ix2 r c) = v118 (ix2 r c)) (e v119)) (e v122)) (e v125)) (e v128)) (e v131)) (e v134)) (e v137)) (e v140)) (e v143)) (e v146))

end Cert.KernelIdeal.R1Pay

end
-- ==== Proof.R1PayZero.lean ====
/-
  The two accumulators as the first grid point resets them: zero everywhere.
-/
import proofs.«136693_g50800873177169_feedfinal_599_15_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.R1Pay

open Idealize.ShloMosaic Idealize.ShloMosaic.ValueIdx Cert.KernelIdeal Cert.KernelIdeal.Gen

/-- The numerator accumulator is reset to zero. -/
theorem pay3_apply (i : S4096x256.Idx) : k1_pay3 (F := Ideal) i = 0 := by
  unfold k1_pay3
  exact (congrFun (shapeCast_self _ _) i).trans Ideal.ofBits_zero_f32

/-- The denominator accumulator is reset to zero. -/
theorem pay4_apply (i : S4096x1.Idx) : k1_pay4 (F := Ideal) i = 0 := by
  unfold k1_pay4
  exact (congrFun (shapeCast_self _ _) i).trans Ideal.ofBits_zero_f32

end Cert.KernelIdeal.R1Pay

end
-- ==== Proof.R1Pay.lean ====
/-
  The values the second launch stores, each read at an index on the extended reals: the reset accumulators, the running
  sum of the 49 planes of a block and its mean, the exponential weights of the block, the numerator and denominator
  accumulators after the block, and the final embedding of their quotient.
-/
import proofs.«136693_g50800873177169_feedfinal_599_15_alg».proof.Proof.R1PayPool
import proofs.«136693_g50800873177169_feedfinal_599_15_alg».proof.Proof.R1PayMlp
import proofs.«136693_g50800873177169_feedfinal_599_15_alg».proof.Proof.R1PayScore
import proofs.«136693_g50800873177169_feedfinal_599_15_alg».proof.Proof.R1PayAcc
import proofs.«136693_g50800873177169_feedfinal_599_15_alg».proof.Proof.R1PayDen
import proofs.«136693_g50800873177169_feedfinal_599_15_alg».proof.Proof.R1PayOut
import proofs.«136693_g50800873177169_feedfinal_599_15_alg».proof.Proof.R1PayPlanes
import proofs.«136693_g50800873177169_feedfinal_599_15_alg».proof.Proof.R1PayZero
-- ==== Proof.R1ValMath.lean ====
/-
  The mathematics of one block of 256 context rows inside the whole attention sum.

  * a sum over 49 planes written out term by term;
  * the linear-rectifier-linear map and the normalisation act row by row, so the rows of a block are rows of the whole
    array: the block's keys and values are the keys and values of context rows `crow b j`;
  * with the pooled block equal to the sums of the planes at those rows, the block's exponential weights are the
    exponentials of the scores against those rows, and the two accumulators grow by the block's terms of the numerator
    and denominator sums;
  * the partial sums over the first blocks, which after all 48 blocks are the numerator and the denominator.
-/
import proofs.«136693_g50800873177169_feedfinal_599_15_alg».proof.Proof.Spec
import proofs.«136693_g50800873177169_feedfinal_599_15_alg».proof.Proof.R1Pay

noncomputable section

open scoped BigOperators

namespace Cert.KernelIdeal.R1Val

open Idealize.ShloMosaic Idealize.ShloMosaic.ValueIdx Cert.KernelIdeal Cert.KernelIdeal.Gen Cert.Spec
open Cert.KernelIdeal.R1Pay

/-! ## A sum over 49 planes, term by term -/

/-- The sum over 49 indices is the 49 terms added one after another from the first. -/
theorem sum49 (f : Fin 49 → EReal) :
    ∑ s : Fin 49, f s = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + f 31 + f 32 + f 33 + f 34 + f 35 + f 36 + f 37 + f 38 + f 39 + f 40 + f 41 + f 42 + f 43 + f 44 + f 45 + f 46 + f 47 + f 48 := by
  have h : ∑ s : Fin 49, f s = ∑ k ∈ Finset.range 49, (if h : k < 49 then f ⟨k, h⟩ else 0) := by
    rw [Finset.sum_range]
    exact Finset.sum_congr rfl fun i _ => by rw [dif_pos i.isLt]
  rw [h]
  simp only [Finset.sum_range_succ, Finset.sum_range_zero, zero_add, Nat.reduceLT, dite_true]
  rfl

/-! ## Row by row -/

/-- The linear-rectifier-linear map of a row depends on that row only. -/
theorem mlp_row {R R' : ℕ} (x : Fin R → Fin 256 → EReal) (x' : Fin R' → Fin 256 → EReal)
    (w1 : Fin 256 → Fin 512 → EReal) (w2 : Fin 512 → Fin 256 → EReal) (r : Fin R) (r' : Fin R')
    (h : ∀ c, x r c = x' r' c) (k : Fin 256) : mlp x w1 w2 r k = mlp x' w1 w2 r' k := by
  unfold mlp
  simp only [h]

/-- The normalisation of a row depends on that row only. -/
theorem l2n_row {R R' : ℕ} (y : Fin R → Fin 256 → EReal) (y' : Fin R' → Fin 256 → EReal) (r : Fin R) (r' : Fin R')
    (h : ∀ k, y r k = y' r' k) (k : Fin 256) : l2n y r k = l2n y' r' k := by
  unfold l2n
  simp only [h]

/-! ## One block -/

section Block

variable (kw1 : Fin 256 → Fin 512 → EReal) (kw2 : Fin 512 → Fin 256 → EReal)
  (vw1 : Fin 256 → Fin 512 → EReal) (vw2 : Fin 512 → Fin 256 → EReal)
  (pt : Fin 49 → Fin 12288 → Fin 256 → EReal) (b : Fin 48)
  (P : FVec Ideal S256x256 .f32) (hP : ∀ r c, P (ix2 r c) = ∑ s : Fin 49, pt s (crow b r) c)

include hP

/-- The scaled block is the mean over the planes at the block's rows. -/
theorem P49_eq_pool (r c : Fin 256) : P49 P r c = pool49 pt (crow b r) c := by
  unfold P49 pool49
  rw [hP r c]

/-- The block's key rows are the key rows of the whole planes. -/
theorem block_key (j k : Fin 256) : l2n (mlp (P49 P) kw1 kw2) j k = keyP kw1 kw2 pt (crow b j) k := by
  unfold keyP
  exact l2n_row _ _ j (crow b j) (fun k' => mlp_row _ _ kw1 kw2 j (crow b j) (P49_eq_pool pt b P hP j) k') k

/-- The block's value rows are the value rows of the whole planes. -/
theorem block_value (j d : Fin 256) : mlp (P49 P) vw1 vw2 j d = valueP vw1 vw2 pt (crow b j) d := by
  unfold valueP
  exact mlp_row _ _ vw1 vw2 j (crow b j) (P49_eq_pool pt b P hP j) d

end Block

/-- The numerator's term of block b. -/
def numTerm (kw1 : Fin 256 → Fin 512 → EReal) (kw2 : Fin 512 → Fin 256 → EReal)
    (vw1 : Fin 256 → Fin 512 → EReal) (vw2 : Fin 512 → Fin 256 → EReal)
    (pt : Fin 49 → Fin 12288 → Fin 256 → EReal) (q : Fin 4096 → Fin 256 → EReal) (n : Fin 4096) (d : Fin 256)
    (b : Fin 48) : EReal :=
  ∑ j : Fin 256, Ideal.exp (score kw1 kw2 pt q n (crow b j)) * valueP vw1 vw2 pt (crow b j) d

/-- The denominator's term of block b. -/
def denTerm (kw1 : Fin 256 → Fin 512 → EReal) (kw2 : Fin 512 → Fin 256 → EReal)
    (pt : Fin 49 → Fin 12288 → Fin 256 → EReal) (q : Fin 4096 → Fin 256 → EReal) (n : Fin 4096) (b : Fin 48) : EReal :=
  ∑ j : Fin 256, Ideal.exp (score kw1 kw2 pt q n (crow b j))

section BlockPay

variable (w1 : Vec Ideal S256x512 .f32) (w2 : Vec Ideal S512x256 .f32)
  (w3 : Vec Ideal S256x512 .f32) (w4 : Vec Ideal S512x256 .f32)
  (pt : Fin 49 → Fin 12288 → Fin 256 → EReal) (b : Fin 48)
  (P : FVec Ideal S256x256 .f32) (hP : ∀ r c, P (ix2 r c) = ∑ s : Fin 49, pt s (crow b r) c)
  (q : Vec Ideal S4096x256 .bf16)

include hP

/-- The block's exponential weight of query row n against its row j is the exponential of the score against context
    row `crow b j`. -/
theorem weight_eq (n : Fin 4096) (j : Fin 256) :
    k1_pay11 (F := Ideal) P w1 w2 q (ix2 n j) = Ideal.exp (score (cur2 w1) (cur2 w2) pt (cur2 q) n (crow b j)) := by
  rw [pay11_apply]
  unfold score
  exact congrArg Ideal.exp (Finset.sum_congr rfl fun k _ =>
    congrArg (fun z => q (ix2 n k) * z) (block_key (cur2 w1) (cur2 w2) pt b P hP j k))

/-- The numerator accumulator grows by the block's term. -/
theorem acc_step (acc : Vec Ideal S4096x256 .f32) (n : Fin 4096) (d : Fin 256) :
    k1_pay12 (F := Ideal) P w1 w2 w3 w4 q acc (ix2 n d)
      = acc (ix2 n d) + numTerm (cur2 w1) (cur2 w2) (cur2 w3) (cur2 w4) pt (cur2 q) n d b := by
  rw [pay12_apply]
  unfold numTerm
  refine congrArg (fun z => acc (ix2 n d) + z) (Finset.sum_congr rfl fun j _ => ?_)
  rw [weight_eq w1 w2 pt b P hP q n j, block_value (cur2 w3) (cur2 w4) pt b P hP j d]

/-- The denominator accumulator grows by the block's term. -/
theorem den_step (dn : Vec Ideal S4096x1 .f32) (n : Fin 4096) :
    k1_pay1 (F := Ideal) (k1_pay11 (F := Ideal) P w1 w2 q) dn (ix2 n (0 : Fin 1))
      = dn (ix2 n (0 : Fin 1)) + denTerm (cur2 w1) (cur2 w2) pt (cur2 q) n b := by
  rw [pay1_apply]
  unfold denTerm
  exact congrArg (fun z => dn (ix2 n (0 : Fin 1)) + z) (Finset.sum_congr rfl fun j _ => weight_eq w1 w2 pt b P hP q n j)

end BlockPay

/-! ## Partial sums over the first blocks -/

/-- The sum of the first m terms of a family indexed by the 48 blocks. -/
def part (g : Fin 48 → EReal) (m : ℕ) : EReal :=
  ∑ k ∈ Finset.range m, (if h : k < 48 then g ⟨k, h⟩ else 0)

theorem part_zero (g : Fin 48 → EReal) : part g 0 = 0 := by
  unfold part
  rw [Finset.range_zero, Finset.sum_empty]

theorem part_succ (g : Fin 48 → EReal) (m : ℕ) (h : m < 48) : part g (m + 1) = part g m + g ⟨m, h⟩ := by
  unfold part
  rw [Finset.sum_range_succ, dif_pos h]

theorem part_all (g : Fin 48 → EReal) : part g 48 = ∑ b : Fin 48, g b := by
  unfold part
  rw [Finset.sum_range]
  exact Finset.sum_congr rfl fun i _ => by rw [dif_pos i.isLt]

/-- All 48 numerator terms are the numerator. -/
theorem part_num (kw1 : Fin 256 → Fin 512 → EReal) (kw2 : Fin 512 → Fin 256 → EReal)
    (vw1 : Fin 256 → Fin 512 → EReal) (vw2 : Fin 512 → Fin 256 → EReal)
    (pt : Fin 49 → Fin 12288 → Fin 256 → EReal) (q : Fin 4096 → Fin 256 → EReal) (n : Fin 4096) (d : Fin 256) :
    part (numTerm kw1 kw2 vw1 vw2 pt q n d) 48 = num kw1 kw2 vw1 vw2 pt q n d :=
  part_all _

/-- All 48 denominator terms are the denominator. -/
theorem part_den (kw1 : Fin 256 → Fin 512 → EReal) (kw2 : Fin 512 → Fin 256 → EReal)
    (pt : Fin 49 → Fin 12288 → Fin 256 → EReal) (q : Fin 4096 → Fin 256 → EReal) (n : Fin 4096) :
    part (denTerm kw1 kw2 pt q n) 48 = den kw1 kw2 pt q n :=
  part_all _

end Cert.KernelIdeal.R1Val

end
-- ==== Proof.R1ValAcc.lean ====
/-
  The two accumulators of the second launch after each grid point, on the extended reals.

  The sum of the 49 planes of a block, at row r and channel q, is the sum over the planes of the block's entries
  (each plane is read through the unit rectangle at that plane). With the context block of point t holding rows
  256 t … 256 t + 255 of every plane and the other inputs read whole, the body adds to the numerator accumulator the
  term of block t of the numerator sum and to the denominator accumulator the term of block t of the denominator sum;
  the first point starts both from zero. By induction on the point, after point n the accumulators hold the sums of
  the terms of blocks 0 … n; after the last point they hold the numerator and the denominator, and the result buffer
  holds the final embedding of their quotient.
-/
import proofs.«136693_g50800873177169_feedfinal_599_15_alg».proof.Proof.R1
import proofs.«136693_g50800873177169_feedfinal_599_15_alg».proof.Proof.R1ValPieces
import proofs.«136693_g50800873177169_feedfinal_599_15_alg».proof.Proof.R1ValMath
import proofs.«136693_g50800873177169_feedfinal_599_15_alg».proof.Proof.R1Pay
import proofs.«136693_g50800873177169_feedfinal_599_15_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

open Cert.Spec Cert.KernelIdeal.R1Pay Cert.KernelIdeal.R1Val

/-! ## The sum of the planes of a block -/

/-- The load through the unit rectangle at plane s reads, at (0, r, q), the block at (s, r, q). -/
theorem ld_plane1 (x0 : Vec Ideal S49x256x256 .f32) (s : ℕ) (hs : s < 49)
    (inb : ∀ a, (![s, 0, 0] : Fin 3 → Nat) a + S1x256x256.size a ≤ S49x256x256.size a) (r q : Fin 256) :
    View.ld x0 (Rect.unit (s := S49x256x256) ![s, 0, 0] S1x256x256.size inb) (ix3 (0 : Fin 1) r q)
      = x0 (ix3 (⟨s, hs⟩ : Fin 49) r q) := by
  show x0 ((Rect.unit (s := S49x256x256) ![s, 0, 0] S1x256x256.size inb).idx (ix3 (0 : Fin 1) r q)) = x0 (ix3 ⟨s, hs⟩ r q)
  refine congrArg x0 (funext fun a => Fin.ext ?_)
  match a with
  | ⟨0, _⟩ => show s + 1 * 0 = s; omega
  | ⟨1, _⟩ => show 0 + 1 * r.val = r.val; omega
  | ⟨2, _⟩ => show 0 + 1 * q.val = q.val; omega

/-- The sum of the planes as the body forms it is the sum over the 49 planes. -/
theorem blockSum_apply (x0 : Vec Ideal S49x256x256 .f32) (r q : Fin 256) :
    blockSum (F := Ideal) x0 (ix2 r q) = ∑ s : Fin 49, x0 (ix3 s r q) := by
  unfold blockSum
  rw [pay9_apply, pay8_apply, pay7_apply, pay6_apply, pay5_apply]
  rw [ld_plane1 x0 0 (by decide) inb_S49x256x256_S1x256x256_0_0_0 r q,
    ld_plane1 x0 1 (by decide) inb_S49x256x256_S1x256x256_1_0_0 r q,
    ld_plane1 x0 2 (by decide) inb_S49x256x256_S1x256x256_2_0_0 r q,
    ld_plane1 x0 3 (by decide) inb_S49x256x256_S1x256x256_3_0_0 r q,
    ld_plane1 x0 4 (by decide) inb_S49x256x256_S1x256x256_4_0_0 r q,
    ld_plane1 x0 5 (by decide) inb_S49x256x256_S1x256x256_5_0_0 r q,
    ld_plane1 x0 6 (by decide) inb_S49x256x256_S1x256x256_6_0_0 r q,
    ld_plane1 x0 7 (by decide) inb_S49x256x256_S1x256x256_7_0_0 r q,
    ld_plane1 x0 8 (by decide) inb_S49x256x256_S1x256x256_8_0_0 r q,
    ld_plane1 x0 9 (by decide) inb_S49x256x256_S1x256x256_9_0_0 r q,
    ld_plane1 x0 10 (by decide) inb_S49x256x256_S1x256x256_10_0_0 r q,
    ld_plane1 x0 11 (by decide) inb_S49x256x256_S1x256x256_11_0_0 r q,
    ld_plane1 x0 12 (by decide) inb_S49x256x256_S1x256x256_12_0_0 r q,
    ld_plane1 x0 13 (by decide) inb_S49x256x256_S1x256x256_13_0_0 r q,
    ld_plane1 x0 14 (by decide) inb_S49x256x256_S1x256x256_14_0_0 r q,
    ld_plane1 x0 15 (by decide) inb_S49x256x256_S1x256x256_15_0_0 r q,
    ld_plane1 x0 16 (by decide) inb_S49x256x256_S1x256x256_16_0_0 r q,
    ld_plane1 x0 17 (by decide) inb_S49x256x256_S1x256x256_17_0_0 r q,
    ld_plane1 x0 18 (by decide) inb_S49x256x256_S1x256x256_18_0_0 r q,
    ld_plane1 x0 19 (by decide) inb_S49x256x256_S1x256x256_19_0_0 r q,
    ld_plane1 x0 20 (by decide) inb_S49x256x256_S1x256x256_20_0_0 r q,
    ld_plane1 x0 21 (by decide) inb_S49x256x256_S1x256x256_21_0_0 r q,
    ld_plane1 x0 22 (by decide) inb_S49x256x256_S1x256x256_22_0_0 r q,
    ld_plane1 x0 23 (by decide) inb_S49x256x256_S1x256x256_23_0_0 r q,
    ld_plane1 x0 24 (by decide) inb_S49x256x256_S1x256x256_24_0_0 r q,
    ld_plane1 x0 25 (by decide) inb_S49x256x256_S1x256x256_25_0_0 r q,
    ld_plane1 x0 26 (by decide) inb_S49x256x256_S1x256x256_26_0_0 r q,
    ld_plane1 x0 27 (by decide) inb_S49x256x256_S1x256x256_27_0_0 r q,
    ld_plane1 x0 28 (by decide) inb_S49x256x256_S1x256x256_28_0_0 r q,
    ld_plane1 x0 29 (by decide) inb_S49x256x256_S1x256x256_29_0_0 r q,
    ld_plane1 x0 30 (by decide) inb_S49x256x256_S1x256x256_30_0_0 r q,
    ld_plane1 x0 31 (by decide) inb_S49x256x256_S1x256x256_31_0_0 r q,
    ld_plane1 x0 32 (by decide) inb_S49x256x256_S1x256x256_32_0_0 r q,
    ld_plane1 x0 33 (by decide) inb_S49x256x256_S1x256x256_33_0_0 r q,
    ld_plane1 x0 34 (by decide) inb_S49x256x256_S1x256x256_34_0_0 r q,
    ld_plane1 x0 35 (by decide) inb_S49x256x256_S1x256x256_35_0_0 r q,
    ld_plane1 x0 36 (by decide) inb_S49x256x256_S1x256x256_36_0_0 r q,
    ld_plane1 x0 37 (by decide) inb_S49x256x256_S1x256x256_37_0_0 r q,
    ld_plane1 x0 38 (by decide) inb_S49x256x256_S1x256x256_38_0_0 r q,
    ld_plane1 x0 39 (by decide) inb_S49x256x256_S1x256x256_39_0_0 r q,
    ld_plane1 x0 40 (by decide) inb_S49x256x256_S1x256x256_40_0_0 r q,
    ld_plane1 x0 41 (by decide) inb_S49x256x256_S1x256x256_41_0_0 r q,
    ld_plane1 x0 42 (by decide) inb_S49x256x256_S1x256x256_42_0_0 r q,
    ld_plane1 x0 43 (by decide) inb_S49x256x256_S1x256x256_43_0_0 r q,
    ld_plane1 x0 44 (by decide) inb_S49x256x256_S1x256x256_44_0_0 r q,
    ld_plane1 x0 45 (by decide) inb_S49x256x256_S1x256x256_45_0_0 r q,
    ld_plane1 x0 46 (by decide) inb_S49x256x256_S1x256x256_46_0_0 r q,
    ld_plane1 x0 47 (by decide) inb_S49x256x256_S1x256x256_47_0_0 r q,
    ld_plane1 x0 48 (by decide) inb_S49x256x256_S1x256x256_48_0_0 r q]
  exact (sum49 (fun s => x0 (ix3 s r q))).symm

/-! ## The accumulators point by point -/

attribute [local irreducible] sout1_A_0 sout1_A_1 sout1_B_0 sout1_B_1 sout1_C_0 sout1_C_1 out1_A_8 out1_B_8 out1_C_8
  outsAt1 iblk1

section Points

variable (V : (c : Dev nD) → (b : Ref sig .tc) → Buf (Elt Ideal) ((c : Thread nD τ).loc b)) (c : Dev nD)

/-- The accumulators and the result buffer after point t, as stored values of the point's blocks. -/
theorem acc0_A (t : Fin cfg1.N) (h0 : t.val % 48 = 0) (h1 : ¬t.val % 48 = 47) :
    (outsAt1 V c t.val t.isLt).2.1
      = k1_pay12 (F := Ideal) (blockSum (iblk1 V c 0 t)) (iblk1 V c 2 t) (iblk1 V c 3 t) (iblk1 V c 4 t) (iblk1 V c 5 t)
          (iblk1 V c 1 t) (k1_pay3 (F := Ideal)) :=
  (congrArg (fun z => z.2.1) (outsAt1_A V c t h0 h1)).trans
    (sout1_A_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))

theorem acc1_A (t : Fin cfg1.N) (h0 : t.val % 48 = 0) (h1 : ¬t.val % 48 = 47) :
    (outsAt1 V c t.val t.isLt).2.2
      = k1_pay1 (F := Ideal) (k1_pay11 (blockSum (iblk1 V c 0 t)) (iblk1 V c 2 t) (iblk1 V c 3 t) (iblk1 V c 1 t)) (k1_pay4 (F := Ideal)) :=
  (congrArg (fun z => z.2.2) (outsAt1_A V c t h0 h1)).trans
    (sout1_A_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t))

theorem acc0_B (t : Fin cfg1.N) (h0 : ¬t.val % 48 = 0) (h1 : ¬t.val % 48 = 47) :
    (outsAt1 V c t.val t.isLt).2.1
      = k1_pay12 (F := Ideal) (blockSum (iblk1 V c 0 t)) (iblk1 V c 2 t) (iblk1 V c 3 t) (iblk1 V c 4 t) (iblk1 V c 5 t)
          (iblk1 V c 1 t) (outsAt1 V c (t.val - 1) (Nat.lt_of_le_of_lt (Nat.sub_le _ _) t.isLt)).2.1 :=
  (congrArg (fun z => z.2.1) (outsAt1_B V c t h0 h1)).trans
    (sout1_B_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2)

theorem acc1_B (t : Fin cfg1.N) (h0 : ¬t.val % 48 = 0) (h1 : ¬t.val % 48 = 47) :
    (outsAt1 V c t.val t.isLt).2.2
      = k1_pay1 (F := Ideal) (k1_pay11 (blockSum (iblk1 V c 0 t)) (iblk1 V c 2 t) (iblk1 V c 3 t) (iblk1 V c 1 t))
          (outsAt1 V c (t.val - 1) (Nat.lt_of_le_of_lt (Nat.sub_le _ _) t.isLt)).2.2 :=
  (congrArg (fun z => z.2.2) (outsAt1_B V c t h0 h1)).trans
    (sout1_B_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2)

theorem acc0_C (t : Fin cfg1.N) (h0 : ¬t.val % 48 = 0) (h1 : t.val % 48 = 47) :
    (outsAt1 V c t.val t.isLt).2.1
      = k1_pay12 (F := Ideal) (blockSum (iblk1 V c 0 t)) (iblk1 V c 2 t) (iblk1 V c 3 t) (iblk1 V c 4 t) (iblk1 V c 5 t)
          (iblk1 V c 1 t) (outsAt1 V c (t.val - 1) (Nat.lt_of_le_of_lt (Nat.sub_le _ _) t.isLt)).2.1 :=
  (congrArg (fun z => z.2.1) (outsAt1_C V c t h0 h1)).trans
    (sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2)

theorem acc1_C (t : Fin cfg1.N) (h0 : ¬t.val % 48 = 0) (h1 : t.val % 48 = 47) :
    (outsAt1 V c t.val t.isLt).2.2
      = k1_pay1 (F := Ideal) (k1_pay11 (blockSum (iblk1 V c 0 t)) (iblk1 V c 2 t) (iblk1 V c 3 t) (iblk1 V c 1 t))
          (outsAt1 V c (t.val - 1) (Nat.lt_of_le_of_lt (Nat.sub_le _ _) t.isLt)).2.2 :=
  (congrArg (fun z => z.2.2) (outsAt1_C V c t h0 h1)).trans
    (sout1_C_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2)

/-- The result buffer after the last point, from the accumulators after the last point. -/
theorem res_C (t : Fin cfg1.N) (h0 : ¬t.val % 48 = 0) (h1 : t.val % 48 = 47) :
    (outsAt1 V c t.val t.isLt).1
      = k1_pay2 (F := Ideal) (outsAt1 V c t.val t.isLt).2.1 (outsAt1 V c t.val t.isLt).2.2 (iblk1 V c 6 t) (iblk1 V c 7 t) := by
  rw [acc0_C V c t h0 h1, acc1_C V c t h0 h1]
  exact (congrArg (fun z => z.1) (outsAt1_C V c t h0 h1)).trans
    (out1_C_8_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2)

end Points

/-! ## The induction over the points -/

section Induction

variable (V : (c : Dev nD) → (b : Ref sig .tc) → Buf (Elt Ideal) ((c : Thread nD τ).loc b)) (c : Dev nD)
  (hctx : ∀ (t : Fin cfg1.N) (b : Fin 48), b.val = t.val → ∀ (s : Fin 49) (j ch : Fin 256),
    (iblk1 V c 0 t : Vec Ideal S49x256x256 .f32) (ix3 s j ch)
      = (V c main_v3 : S49x12288x256.Idx → EReal) (ix3 s (crow b j) ch))
  (hq : ∀ t : Fin cfg1.N, (iblk1 V c 1 t : Vec Ideal S4096x256 .bf16) = (V c main_v4 : S4096x256.Idx → EReal))
  (hk1 : ∀ t : Fin cfg1.N, (iblk1 V c 2 t : Vec Ideal S256x512 .f32) = (V c main_arg4 : S256x512.Idx → EReal))
  (hk2 : ∀ t : Fin cfg1.N, (iblk1 V c 3 t : Vec Ideal S512x256 .f32) = (V c main_arg5 : S512x256.Idx → EReal))
  (hv1 : ∀ t : Fin cfg1.N, (iblk1 V c 4 t : Vec Ideal S256x512 .f32) = (V c main_arg6 : S256x512.Idx → EReal))
  (hv2 : ∀ t : Fin cfg1.N, (iblk1 V c 5 t : Vec Ideal S512x256 .f32) = (V c main_arg7 : S512x256.Idx → EReal))
  (hf1 : ∀ t : Fin cfg1.N, (iblk1 V c 6 t : Vec Ideal S256x512 .f32) = (V c main_arg8 : S256x512.Idx → EReal))
  (hf2 : ∀ t : Fin cfg1.N, (iblk1 V c 7 t : Vec Ideal S512x256 .f32) = (V c main_arg9 : S512x256.Idx → EReal))

local notation "KW1" => cur2 (V c main_arg4 : S256x512.Idx → EReal)
local notation "KW2" => cur2 (V c main_arg5 : S512x256.Idx → EReal)
local notation "VW1" => cur2 (V c main_arg6 : S256x512.Idx → EReal)
local notation "VW2" => cur2 (V c main_arg7 : S512x256.Idx → EReal)
local notation "FW1" => cur2 (V c main_arg8 : S256x512.Idx → EReal)
local notation "FW2" => cur2 (V c main_arg9 : S512x256.Idx → EReal)
local notation "PT" => cur3 (V c main_v3 : S49x12288x256.Idx → EReal)
local notation "QQ" => cur2 (V c main_v4 : S4096x256.Idx → EReal)

include hctx in
/-- The sum of the planes of the context block of point t is the sum over the planes at the rows of block t. -/
theorem blockSum_ctx (t : Fin cfg1.N) (b : Fin 48) (hb : b.val = t.val) (r q : Fin 256) :
    blockSum (F := Ideal) (iblk1 V c 0 t) (ix2 r q) = ∑ s : Fin 49, PT s (crow b r) q :=
  (blockSum_apply (iblk1 V c 0 t) r q).trans (Finset.sum_congr rfl fun s _ => hctx t b hb s r q)

include hctx hq hk1 hk2 hv1 hv2 in
/-- The numerator accumulator grows by the term of block t. -/
theorem num_step (t : Fin cfg1.N) (b : Fin 48) (hb : b.val = t.val) (acc : Vec Ideal S4096x256 .f32)
    (p : Fin 4096) (d : Fin 256) :
    k1_pay12 (F := Ideal) (blockSum (iblk1 V c 0 t)) (iblk1 V c 2 t) (iblk1 V c 3 t) (iblk1 V c 4 t) (iblk1 V c 5 t)
        (iblk1 V c 1 t) acc (ix2 p d)
      = acc (ix2 p d) + numTerm KW1 KW2 VW1 VW2 PT QQ p d b := by
  refine (acc_step (iblk1 V c 2 t) (iblk1 V c 3 t) (iblk1 V c 4 t) (iblk1 V c 5 t) PT b (blockSum (iblk1 V c 0 t))
    (blockSum_ctx V c hctx t b hb) (iblk1 V c 1 t) acc p d).trans ?_
  rw [hq t, hk1 t, hk2 t, hv1 t, hv2 t]

include hctx hq hk1 hk2 in
/-- The denominator accumulator grows by the term of block t. -/
theorem den_step' (t : Fin cfg1.N) (b : Fin 48) (hb : b.val = t.val) (dn : Vec Ideal S4096x1 .f32) (p : Fin 4096) :
    k1_pay1 (F := Ideal) (k1_pay11 (blockSum (iblk1 V c 0 t)) (iblk1 V c 2 t) (iblk1 V c 3 t) (iblk1 V c 1 t)) dn
        (ix2 p (0 : Fin 1))
      = dn (ix2 p (0 : Fin 1)) + denTerm KW1 KW2 PT QQ p b := by
  refine (den_step (iblk1 V c 2 t) (iblk1 V c 3 t) PT b (blockSum (iblk1 V c 0 t))
    (blockSum_ctx V c hctx t b hb) (iblk1 V c 1 t) dn p).trans ?_
  rw [hq t, hk1 t, hk2 t]

/-- The contents after a point depend only on the point's number. -/
theorem outsAt1_congr (a b : ℕ) (ha : a < cfg1.N) (hb : b < cfg1.N) (h : a = b) : outsAt1 V c a ha = outsAt1 V c b hb := by
  subst h; rfl

include hctx hq hk1 hk2 hv1 hv2 in
/-- After point t the numerator accumulator holds the terms of blocks 0 … t. -/
theorem acc0_after (n : ℕ) : ∀ (t : Fin cfg1.N), t.val = n → ∀ (p : Fin 4096) (d : Fin 256),
    (outsAt1 V c t.val t.isLt).2.1 (ix2 p d) = part (numTerm KW1 KW2 VW1 VW2 PT QQ p d) (t.val + 1) := by
  induction n with
  | zero =>
    intro t ht p d
    have hN : t.val < 48 := lt_of_lt_of_eq t.isLt N_1
    have h0 : t.val % 48 = 0 := by omega
    have h1 : ¬t.val % 48 = 47 := by omega
    refine (congrFun (acc0_A V c t h0 h1) (ix2 p d)).trans ?_
    refine (num_step V c hctx hq hk1 hk2 hv1 hv2 t ⟨t.val, hN⟩ rfl (k1_pay3 (F := Ideal)) p d).trans ?_
    rw [part_succ _ t.val hN]
    refine congrArg (fun z => z + numTerm KW1 KW2 VW1 VW2 PT QQ p d ⟨t.val, hN⟩) ?_
    refine (pay3_apply (ix2 p d)).trans ?_
    rw [ht]
    exact (part_zero _).symm
  | succ n ih =>
    intro t ht p d
    have hN : t.val < 48 := lt_of_lt_of_eq t.isLt N_1
    have h0 : ¬t.val % 48 = 0 := by omega
    have hp : t.val - 1 < cfg1.N := Nat.lt_of_le_of_lt (Nat.sub_le _ _) t.isLt
    have hprev : (outsAt1 V c (t.val - 1) hp).2.1 (ix2 p d)
        = part (numTerm KW1 KW2 VW1 VW2 PT QQ p d) t.val := by
      have e := ih ⟨t.val - 1, hp⟩ (by show t.val - 1 = n; omega) p d
      have e1 : t.val - 1 + 1 = t.val := by omega
      exact e.trans (congrArg (part (numTerm KW1 KW2 VW1 VW2 PT QQ p d)) e1)
    by_cases h1 : t.val % 48 = 47
    · refine (congrFun (acc0_C V c t h0 h1) (ix2 p d)).trans ?_
      refine (num_step V c hctx hq hk1 hk2 hv1 hv2 t ⟨t.val, hN⟩ rfl _ p d).trans ?_
      rw [part_succ _ t.val hN]
      exact congrArg (fun z => z + numTerm KW1 KW2 VW1 VW2 PT QQ p d ⟨t.val, hN⟩) hprev
    · refine (congrFun (acc0_B V c t h0 h1) (ix2 p d)).trans ?_
      refine (num_step V c hctx hq hk1 hk2 hv1 hv2 t ⟨t.val, hN⟩ rfl _ p d).trans ?_
      rw [part_succ _ t.val hN]
      exact congrArg (fun z => z + numTerm KW1 KW2 VW1 VW2 PT QQ p d ⟨t.val, hN⟩) hprev

include hctx hq hk1 hk2 in
/-- After point t the denominator accumulator holds the terms of blocks 0 … t. -/
theorem acc1_after (n : ℕ) : ∀ (t : Fin cfg1.N), t.val = n → ∀ (p : Fin 4096),
    (outsAt1 V c t.val t.isLt).2.2 (ix2 p (0 : Fin 1)) = part (denTerm KW1 KW2 PT QQ p) (t.val + 1) := by
  induction n with
  | zero =>
    intro t ht p
    have hN : t.val < 48 := lt_of_lt_of_eq t.isLt N_1
    have h0 : t.val % 48 = 0 := by omega
    have h1 : ¬t.val % 48 = 47 := by omega
    refine (congrFun (acc1_A V c t h0 h1) (ix2 p (0 : Fin 1))).trans ?_
    refine (den_step' V c hctx hq hk1 hk2 t ⟨t.val, hN⟩ rfl (k1_pay4 (F := Ideal)) p).trans ?_
    rw [part_succ _ t.val hN]
    refine congrArg (fun z => z + denTerm KW1 KW2 PT QQ p ⟨t.val, hN⟩) ?_
    refine (pay4_apply (ix2 p (0 : Fin 1))).trans ?_
    rw [ht]
    exact (part_zero _).symm
  | succ n ih =>
    intro t ht p
    have hN : t.val < 48 := lt_of_lt_of_eq t.isLt N_1
    have h0 : ¬t.val % 48 = 0 := by omega
    have hp : t.val - 1 < cfg1.N := Nat.lt_of_le_of_lt (Nat.sub_le _ _) t.isLt
    have hprev : (outsAt1 V c (t.val - 1) hp).2.2 (ix2 p (0 : Fin 1)) = part (denTerm KW1 KW2 PT QQ p) t.val := by
      have e := ih ⟨t.val - 1, hp⟩ (by show t.val - 1 = n; omega) p
      have e1 : t.val - 1 + 1 = t.val := by omega
      exact e.trans (congrArg (part (denTerm KW1 KW2 PT QQ p)) e1)
    by_cases h1 : t.val % 48 = 47
    · refine (congrFun (acc1_C V c t h0 h1) (ix2 p (0 : Fin 1))).trans ?_
      refine (den_step' V c hctx hq hk1 hk2 t ⟨t.val, hN⟩ rfl _ p).trans ?_
      rw [part_succ _ t.val hN]
      exact congrArg (fun z => z + denTerm KW1 KW2 PT QQ p ⟨t.val, hN⟩) hprev
    · refine (congrFun (acc1_B V c t h0 h1) (ix2 p (0 : Fin 1))).trans ?_
      refine (den_step' V c hctx hq hk1 hk2 t ⟨t.val, hN⟩ rfl _ p).trans ?_
      rw [part_succ _ t.val hN]
      exact congrArg (fun z => z + denTerm KW1 KW2 PT QQ p ⟨t.val, hN⟩) hprev

include hctx hq hk1 hk2 hv1 hv2 hf1 hf2 in
/-- After the last point the result buffer holds the final embedding of the attention rows. -/
theorem res_at (t : Fin cfg1.N) (h1 : t.val % 48 = 47) (p : Fin 4096) (ch : Fin 256) :
    (outsAt1 V c t.val t.isLt).1 (ix2 p ch) = outOf KW1 KW2 VW1 VW2 FW1 FW2 PT QQ p ch := by
  have hN : t.val < 48 := lt_of_lt_of_eq t.isLt N_1
  have h0 : ¬t.val % 48 = 0 := by omega
  have e48 : t.val + 1 = 48 := by omega
  refine (congrFun (res_C V c t h0 h1) (ix2 p ch)).trans ?_
  refine (pay2_apply (outsAt1 V c t.val t.isLt).2.1 (outsAt1 V c t.val t.isLt).2.2 (iblk1 V c 6 t) (iblk1 V c 7 t) p ch).trans ?_
  rw [hf1 t, hf2 t]
  unfold outOf
  refine congrArg (fun x => mlp x FW1 FW2 p ch) (funext fun n => funext fun d => ?_)
  unfold attn
  exact congrArg₂ Ideal.div
    (((acc0_after V c hctx hq hk1 hk2 hv1 hv2 t.val t rfl n d).trans
      (congrArg (part (numTerm KW1 KW2 VW1 VW2 PT QQ n d)) e48)).trans (part_num KW1 KW2 VW1 VW2 PT QQ n d))
    (((acc1_after V c hctx hq hk1 hk2 t.val t rfl n).trans
      (congrArg (part (denTerm KW1 KW2 PT QQ n)) e48)).trans (part_den KW1 KW2 PT QQ n))

end Induction

end Cert.KernelIdeal.Hand

end
-- ==== Proof.R1Blocks.lean ====
/-
  The second launch's windows read off the arrays the launch finds, and its result array after the launch.

  * The context planes' window (window 0) has blocks of 256 rows of every plane: at point t its block holds, at
    (s, j, ch), the array at plane s, row 256 t + j, channel ch (`iblk1_0_apply`; the row is `crow b j` for the
    block number b = t).
  * The seven other input windows (the query array and the six weight matrices) have one block, the whole array, at
    block index (0, 0) at every point: their block at any point is the array (`iblk1_w_whole`).
  * The result window (window 8) is written back at the last point only, and its block is the whole array: so the
    array after the launch is what the body left in the result buffer at point 47 (`arrAt8_last`).
-/
import proofs.«136693_g50800873177169_feedfinal_599_15_alg».proof.Proof.R1
import proofs.«136693_g50800873177169_feedfinal_599_15_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Spec

/-! ## The block index maps over the 48 grid points -/

/-- The planes' window moves along the rows with the point: its block index at point t is (0, t, 0). -/
theorem idx1_0 : ∀ t : Fin cfg1.N,
    win1_0.index t (0 : Fin 3) = 0 ∧ win1_0.index t (1 : Fin 3) = t.val ∧ win1_0.index t (2 : Fin 3) = 0 :=
  (by decide +kernel : ∀ t : Fin grid1.N,
    win1_0.index t (0 : Fin 3) = 0 ∧ win1_0.index t (1 : Fin 3) = t.val ∧ win1_0.index t (2 : Fin 3) = 0)
/-- Window 1's block index is (0, 0) at every point: its block is its whole array. -/
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
/-- Window 2's block index is (0, 0) at every point: its block is its whole array. -/
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
/-- Window 3's block index is (0, 0) at every point: its block is its whole array. -/
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
/-- Window 4's block index is (0, 0) at every point: its block is its whole array. -/
theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
/-- Window 5's block index is (0, 0) at every point: its block is its whole array. -/
theorem idx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
/-- Window 6's block index is (0, 0) at every point: its block is its whole array. -/
theorem idx1_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)
/-- Window 7's block index is (0, 0) at every point: its block is its whole array. -/
theorem idx1_7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)
/-- Window 8's block index is (0, 0) at every point: its block is its whole array. -/
theorem idx1_8 : ∀ t : Fin cfg1.N, win1_8.index t (0 : Fin 2) = 0 ∧ win1_8.index t (1 : Fin 2) = 0 :=
  (by decide +kernel : ∀ t : Fin grid1.N, win1_8.index t (0 : Fin 2) = 0 ∧ win1_8.index t (1 : Fin 2) = 0)

/-- A point of the grid as a block number. -/
def blockOf1 (t : Fin cfg1.N) : Fin 48 := ⟨t.val, lt_of_lt_of_eq t.isLt N_1⟩
theorem blockOf1_val (t : Fin cfg1.N) : (blockOf1 t).val = t.val := rfl

section
-- the TensorCore's buffer contents when the launch is entered, at the ideal values
variable (V : (c : Dev nD) → (b : Ref sig .tc) → Buf (Elt Ideal) ((c : Thread nD τ).loc b))

/-! ## The input windows' blocks -/

/-- The planes' window's block at point t holds, at (s, j, ch), plane s of context row `256 * b + j` at channel ch,
    for the block number b = t. -/
theorem iblk1_0_apply (c : Dev nD) (t : Fin cfg1.N) (b : Fin 48) (hb : b.val = t.val) (s : Fin 49) (j : Fin 256) (ch : Fin 256) :
    (iblk1 (F := Ideal) V c 0 t : S49x256x256.Idx → EReal) (ix3 s j ch)
      = (V c main_v3 : S49x12288x256.Idx → EReal) (ix3 s (crow b j) ch) := by
  obtain ⟨e0, e1, e2⟩ := idx1_0 t
  show V c main_v3 (((cfg1.win 0).blk t).view.emb (ix3 s j ch)) = V c main_v3 (ix3 s (crow b j) ch)
  refine congrArg (V c main_v3) (funext fun a => Fin.ext ?_)
  match a with
  | ⟨0, _⟩ => show win1_0.index t (0 : Fin 3) * 49 + 1 * s.val = s.val; omega
  | ⟨1, _⟩ => show win1_0.index t (1 : Fin 3) * 256 + 1 * j.val = 256 * b.val + j.val; omega
  | ⟨2, _⟩ => show win1_0.index t (2 : Fin 3) * 256 + 1 * ch.val = ch.val; omega

/-- The same at the point's own block number. -/
theorem iblk1_0_apply_self (c : Dev nD) (t : Fin cfg1.N) (s : Fin 49) (j : Fin 256) (ch : Fin 256) :
    (iblk1 (F := Ideal) V c 0 t : S49x256x256.Idx → EReal) (ix3 s j ch)
      = (V c main_v3 : S49x12288x256.Idx → EReal) (ix3 s (crow (blockOf1 t) j) ch) :=
  iblk1_0_apply V c t (blockOf1 t) rfl s j ch

/-- Window 1's block at any point is its array `main_v4` as the launch finds it. -/
theorem iblk1_1_whole (c : Dev nD) (t : Fin cfg1.N) :
    (iblk1 (F := Ideal) V c 1 t : S4096x256.Idx → EReal) = (V c main_v4 : S4096x256.Idx → EReal) := by
  obtain ⟨e0, e1⟩ := idx1_1 t
  funext y
  show V c main_v4 (((cfg1.win 1).blk t).view.emb y) = V c main_v4 y
  refine congrArg (V c main_v4) (funext fun a => Fin.ext ?_)
  match a with
  | ⟨0, _⟩ => show win1_1.index t (0 : Fin 2) * 4096 + 1 * (y 0).val = (y 0).val; omega
  | ⟨1, _⟩ => show win1_1.index t (1 : Fin 2) * 256 + 1 * (y 1).val = (y 1).val; omega

/-- Window 2's block at any point is its array `main_arg4` as the launch finds it. -/
theorem iblk1_2_whole (c : Dev nD) (t : Fin cfg1.N) :
    (iblk1 (F := Ideal) V c 2 t : S256x512.Idx → EReal) = (V c main_arg4 : S256x512.Idx → EReal) := by
  obtain ⟨e0, e1⟩ := idx1_2 t
  funext y
  show V c main_arg4 (((cfg1.win 2).blk t).view.emb y) = V c main_arg4 y
  refine congrArg (V c main_arg4) (funext fun a => Fin.ext ?_)
  match a with
  | ⟨0, _⟩ => show win1_2.index t (0 : Fin 2) * 256 + 1 * (y 0).val = (y 0).val; omega
  | ⟨1, _⟩ => show win1_2.index t (1 : Fin 2) * 512 + 1 * (y 1).val = (y 1).val; omega

/-- Window 3's block at any point is its array `main_arg5` as the launch finds it. -/
theorem iblk1_3_whole (c : Dev nD) (t : Fin cfg1.N) :
    (iblk1 (F := Ideal) V c 3 t : S512x256.Idx → EReal) = (V c main_arg5 : S512x256.Idx → EReal) := by
  obtain ⟨e0, e1⟩ := idx1_3 t
  funext y
  show V c main_arg5 (((cfg1.win 3).blk t).view.emb y) = V c main_arg5 y
  refine congrArg (V c main_arg5) (funext fun a => Fin.ext ?_)
  match a with
  | ⟨0, _⟩ => show win1_3.index t (0 : Fin 2) * 512 + 1 * (y 0).val = (y 0).val; omega
  | ⟨1, _⟩ => show win1_3.index t (1 : Fin 2) * 256 + 1 * (y 1).val = (y 1).val; omega

/-- Window 4's block at any point is its array `main_arg6` as the launch finds it. -/
theorem iblk1_4_whole (c : Dev nD) (t : Fin cfg1.N) :
    (iblk1 (F := Ideal) V c 4 t : S256x512.Idx → EReal) = (V c main_arg6 : S256x512.Idx → EReal) := by
  obtain ⟨e0, e1⟩ := idx1_4 t
  funext y
  show V c main_arg6 (((cfg1.win 4).blk t).view.emb y) = V c main_arg6 y
  refine congrArg (V c main_arg6) (funext fun a => Fin.ext ?_)
  match a with
  | ⟨0, _⟩ => show win1_4.index t (0 : Fin 2) * 256 + 1 * (y 0).val = (y 0).val; omega
  | ⟨1, _⟩ => show win1_4.index t (1 : Fin 2) * 512 + 1 * (y 1).val = (y 1).val; omega

/-- Window 5's block at any point is its array `main_arg7` as the launch finds it. -/
theorem iblk1_5_whole (c : Dev nD) (t : Fin cfg1.N) :
    (iblk1 (F := Ideal) V c 5 t : S512x256.Idx → EReal) = (V c main_arg7 : S512x256.Idx → EReal) := by
  obtain ⟨e0, e1⟩ := idx1_5 t
  funext y
  show V c main_arg7 (((cfg1.win 5).blk t).view.emb y) = V c main_arg7 y
  refine congrArg (V c main_arg7) (funext fun a => Fin.ext ?_)
  match a with
  | ⟨0, _⟩ => show win1_5.index t (0 : Fin 2) * 512 + 1 * (y 0).val = (y 0).val; omega
  | ⟨1, _⟩ => show win1_5.index t (1 : Fin 2) * 256 + 1 * (y 1).val = (y 1).val; omega

/-- Window 6's block at any point is its array `main_arg8` as the launch finds it. -/
theorem iblk1_6_whole (c : Dev nD) (t : Fin cfg1.N) :
    (iblk1 (F := Ideal) V c 6 t : S256x512.Idx → EReal) = (V c main_arg8 : S256x512.Idx → EReal) := by
  obtain ⟨e0, e1⟩ := idx1_6 t
  funext y
  show V c main_arg8 (((cfg1.win 6).blk t).view.emb y) = V c main_arg8 y
  refine congrArg (V c main_arg8) (funext fun a => Fin.ext ?_)
  match a with
  | ⟨0, _⟩ => show win1_6.index t (0 : Fin 2) * 256 + 1 * (y 0).val = (y 0).val; omega
  | ⟨1, _⟩ => show win1_6.index t (1 : Fin 2) * 512 + 1 * (y 1).val = (y 1).val; omega

/-- Window 7's block at any point is its array `main_arg9` as the launch finds it. -/
theorem iblk1_7_whole (c : Dev nD) (t : Fin cfg1.N) :
    (iblk1 (F := Ideal) V c 7 t : S512x256.Idx → EReal) = (V c main_arg9 : S512x256.Idx → EReal) := by
  obtain ⟨e0, e1⟩ := idx1_7 t
  funext y
  show V c main_arg9 (((cfg1.win 7).blk t).view.emb y) = V c main_arg9 y
  refine congrArg (V c main_arg9) (funext fun a => Fin.ext ?_)
  match a with
  | ⟨0, _⟩ => show win1_7.index t (0 : Fin 2) * 512 + 1 * (y 0).val = (y 0).val; omega
  | ⟨1, _⟩ => show win1_7.index t (1 : Fin 2) * 256 + 1 * (y 1).val = (y 1).val; omega

/-! ## The result array after the launch -/

/-- An index of the result array is in point t's block iff each coordinate is in the block's range on its axis. -/
theorem mem_blk8 (t : Fin cfg1.N) (i : S4096x256.Idx) :
    i ∈ ((cfg1.win 8).blk t).view.set ↔ ∀ a : Fin 2, win1_8.index t a * S4096x256.size a ≤ (i a).val ∧ (i a).val < win1_8.index t a * S4096x256.size a + S4096x256.size a := by
  show i ∈ ((View.whole main_v5).slice (win1_8.rect t)).set ↔ _
  rw [View.set_slice_whole, Rect.mem_set_unit]
  exact Iff.rfl

/-- The last point. -/
theorem last_lt1 : 47 < cfg1.N := lt_of_lt_of_eq (by decide : 47 < 48) (show 48 = cfg1.N from N_1.symm)

/-- What a point that writes the result window back writes is the whole result buffer of point 47 (it is point 47,
    and the block is the whole array). -/
theorem flushed8_eq (c : Dev nD) (t : Fin cfg1.N) (hf : (cfg1.win 8).flush t = true) :
    (dat1 V c).flushed 8 t = ((cfg1.win 8).blk t).view.read (Elt Ideal) (outsAt1 (F := Ideal) V c 47 last_lt1).1 := by
  have hN : cfg1.N = 48 := N_1
  have h1 : t.val = 47 := by have := (flush1_8 t).mp hf; have := t.isLt; omega
  obtain ⟨e0, e1⟩ := idx1_8 t
  -- the point is the last one: name the result buffer by the point itself
  have hpt : ∀ (n : ℕ) (hn : n < cfg1.N), n = 47 →
      (outsAt1 (F := Ideal) V c 47 last_lt1).1 = (outsAt1 (F := Ideal) V c n hn).1 := by
    intro n hn e; subst e; rfl
  rw [hpt t.val t.isLt h1]
  show (cfg1.win 8).cut (grid1.coords t) ((dat1 V c).after 8 t) = _
  rw [after1_8]
  generalize (outsAt1 (F := Ideal) V c t.val t.isLt).1 = G
  funext y
  show G y = G (((cfg1.win 8).blk t).view.emb y)
  refine congrArg G (funext fun a => Fin.ext ?_)
  match a with
  | ⟨0, _⟩ => show (y 0).val = win1_8.index t (0 : Fin 2) * 4096 + 1 * (y 0).val; omega
  | ⟨1, _⟩ => show (y 1).val = win1_8.index t (1 : Fin 2) * 256 + 1 * (y 1).val; omega

/-- Every index of the result array is in the last point's block. -/
theorem cover8 (i : S4096x256.Idx) : ∃ t : Fin cfg1.N, (cfg1.win 8).flush t = true ∧ i ∈ ((cfg1.win 8).blk t).view.set := by
  have hi0 : (i 0).val < 4096 := (i 0).isLt
  have hi1 : (i 1).val < 256 := (i 1).isLt
  obtain ⟨e0, e1⟩ := idx1_8 ⟨47, last_lt1⟩
  refine ⟨⟨47, last_lt1⟩, (flush1_8 _).mpr rfl, ?_⟩
  rw [mem_blk8]
  intro a
  match a with
  | ⟨0, _⟩ => show win1_8.index ⟨47, last_lt1⟩ (0 : Fin 2) * 4096 ≤ (i 0).val ∧ (i 0).val < win1_8.index ⟨47, last_lt1⟩ (0 : Fin 2) * 4096 + 4096; omega
  | ⟨1, _⟩ => show win1_8.index ⟨47, last_lt1⟩ (1 : Fin 2) * 256 ≤ (i 1).val ∧ (i 1).val < win1_8.index ⟨47, last_lt1⟩ (1 : Fin 2) * 256 + 256; omega

/-- The result array after the launch is what the body left in the result buffer at the last point. -/
theorem arrAt8_last (c : Dev nD) :
    (dat1 (F := Ideal) V c).arrAt 8 cfg1.N = (outsAt1 (F := Ideal) V c 47 last_lt1).1 :=
  (dat1 V c).arrAt_eq_of_cover 8 (outsAt1 (F := Ideal) V c 47 last_lt1).1 (fun t hf => flushed8_eq V c t hf) cover8

end

end Cert.KernelIdeal.Hand

end
-- ==== Proof.R1Value.lean ====
/-
  The value of the second launch on the extended reals: after the launch the result array holds, at query row n and
  channel c, the final embedding of the attention row n over all 12288 context rows.

  Only the last grid point writes the result window back, and its block is the whole array, so the array after the
  launch is what the last point left in the result buffer; that is the final embedding of the quotient of the two
  accumulators, which after the last point hold the numerator and the denominator sums over all 48 blocks of context
  rows. The context block of a point holds the point's 256 rows of every plane and the other inputs are read whole.
-/
import proofs.«136693_g50800873177169_feedfinal_599_15_alg».proof.Proof.R1ValAcc
import proofs.«136693_g50800873177169_feedfinal_599_15_alg».proof.Proof.R1Blocks
import proofs.«136693_g50800873177169_feedfinal_599_15_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

open Cert.Spec

attribute [local irreducible] outsAt1 iblk1

/-- What the last point leaves in the result buffer, with the point a variable whose number is 47. -/
theorem res_last (V : (c : Dev nD) → (b : Ref sig .tc) → Buf (Elt Ideal) ((c : Thread nD τ).loc b)) (c : Dev nD)
    (t : Fin cfg1.N) (ht : t.val = 47) (p : Fin 4096) (ch : Fin 256) :
    (outsAt1 (F := Ideal) V c 47 last_lt1).1 (ix2 p ch)
      = outOf (cur2 (V c main_arg4 : S256x512.Idx → EReal)) (cur2 (V c main_arg5 : S512x256.Idx → EReal))
          (cur2 (V c main_arg6 : S256x512.Idx → EReal)) (cur2 (V c main_arg7 : S512x256.Idx → EReal))
          (cur2 (V c main_arg8 : S256x512.Idx → EReal)) (cur2 (V c main_arg9 : S512x256.Idx → EReal))
          (cur3 (V c main_v3 : S49x12288x256.Idx → EReal)) (cur2 (V c main_v4 : S4096x256.Idx → EReal)) p ch :=
  (congrArg (fun z => z.1 (ix2 p ch)) (outsAt1_congr V c 47 t.val last_lt1 t.isLt ht.symm)).trans
    (res_at V c (fun t b hb s j ch => iblk1_0_apply V c t b hb s j ch) (iblk1_1_whole V c) (iblk1_2_whole V c)
      (iblk1_3_whole V c) (iblk1_4_whole V c) (iblk1_5_whole V c) (iblk1_6_whole V c) (iblk1_7_whole V c)
      t (by omega) p ch)

/-- The result array after the second launch. -/
theorem out_value (V : (c : Dev nD) → (b : Ref sig .tc) → Buf (Elt Ideal) ((c : Thread nD τ).loc b)) (c : Dev nD) :
    (dat1 (F := Ideal) V c).arrAt 8 cfg1.N
      = fun i => Cert.Spec.outOf (cur2 (V c main_arg4)) (cur2 (V c main_arg5)) (cur2 (V c main_arg6))
          (cur2 (V c main_arg7)) (cur2 (V c main_arg8)) (cur2 (V c main_arg9)) (cur3 (V c main_v3)) (cur2 (V c main_v4))
          (i 0) (i 1) := by
  refine (arrAt8_last V c).trans (funext fun i => ?_)
  refine (congrArg (outsAt1 (F := Ideal) V c 47 last_lt1).1 (eq_ix2 (i : S4096x256.Idx))).trans ?_
  exact res_last V c ⟨47, last_lt1⟩ rfl (i 0) (i 1)

end Cert.KernelIdeal.Hand

end
-- ==== Proof.KernelValue.lean ====
/-
  The kernel's result as one function of the argument arrays.

  The context pass computes its result from the context planes, the six weight arrays and the query array it is handed;
  substituting what each of these is in terms of the arguments gives the whole kernel on the arguments.
-/
import proofs.«136693_g50800873177169_feedfinal_599_15_alg».proof.Proof.KernelValue0
import proofs.«136693_g50800873177169_feedfinal_599_15_alg».proof.Proof.R1Value

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Spec

variable (m : (ℓ : Loc nD τ sig) → Buf (Elt Ideal) ℓ) (ρ : Dev nD → PrngReg)

/-- The result array after the program, on the arguments. -/
theorem kernel_value (c : Dev nD) :
    (dat1 (F := Ideal) (V2 m ρ) c).arrAt 8 cfg1.N
      = fun i => Cert.Spec.out (cur2 (m ((c : Thread nD τ).loc main_arg2) : S256x512.Idx → EReal)) (cur2 (m ((c : Thread nD τ).loc main_arg3) : S512x256.Idx → EReal)) (cur2 (m ((c : Thread nD τ).loc main_arg4) : S256x512.Idx → EReal)) (cur2 (m ((c : Thread nD τ).loc main_arg5) : S512x256.Idx → EReal)) (cur2 (m ((c : Thread nD τ).loc main_arg6) : S256x512.Idx → EReal)) (cur2 (m ((c : Thread nD τ).loc main_arg7) : S512x256.Idx → EReal)) (cur2 (m ((c : Thread nD τ).loc main_arg8) : S256x512.Idx → EReal)) (cur2 (m ((c : Thread nD τ).loc main_arg9) : S512x256.Idx → EReal)) (cur4 (m ((c : Thread nD τ).loc main_arg0) : S4096x256x7x7.Idx → EReal)) (cur4 (m ((c : Thread nD τ).loc main_arg1) : S12288x256x7x7.Idx → EReal)) (i 0) (i 1) := by
  rw [out_value (V2 m ρ) c]
  funext i
  unfold Cert.Spec.out
  rw [V2_main_arg4 m ρ c, V2_main_arg5 m ρ c, V2_main_arg6 m ρ c, V2_main_arg7 m ρ c, V2_main_arg8 m ρ c, V2_main_arg9 m ρ c,
    V2_main_v3 m ρ c, cur3_v3 m c, V2_main_v4 m ρ c]

end Cert.KernelIdeal.Hand

end
-- ==== Proof.RefFinite.lean ====
/-
  From the precondition to real entries.

  The precondition is the conjunction, over the ten argument arrays, of "every entry has absolute value below
  +∞". An extended real x with max x (-x) < ⊤ is neither ⊤ nor ⊥, hence the coercion of a real number. This
  file reads that off the printed predicate: the conjunction is split word by word, each "all" is a reduction by
  "and" into one word, and each comparison is the strict order against the f32 word of +∞.
-/
import proofs.«136693_g50800873177169_feedfinal_599_15_alg».proof.Pre_finite_inputs
import Idealize.ShloMosaic.PureOps.Ideal.Laws
import Idealize.ShloMosaic.Lib.ReduceAll
import Idealize.ShloMosaic.Lib.ValueIdx

noncomputable section

namespace Cert.RefSide

open Idealize.ShloMosaic

/-- The f32 word 0x7F800000 denotes +∞. -/
theorem ofBits_posInf : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

instance : Subsingleton Cert.Pre_finite_inputs.S_.Idx := ⟨fun a b => funext fun d => d.elim0⟩

/-- One conjunct of the precondition: if "all entries have absolute value below +∞" came out 1, every entry is real. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (j : Cert.Pre_finite_inputs.S_.Idx)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu j = 1#1) :
    ∀ i, ∃ r : ℝ, x i = (r : EReal) := by
  intro i
  have hi := Host.reduce_andi_all _ _ hr hu j e i
  have hc : Ideal.cmp .olt (max (x i) (-(x i))) (Ideal.ofBits .f32 0x7F800000#32) = 1#1 := hi
  rw [ofBits_posInf] at hc
  refine real_of_abs_lt_top (x i) ?_
  by_contra hn
  simp [Ideal.cmp, hn] at hc

/-- The precondition gives: every entry of every argument array is a real number. -/
theorem real_of_pre [Cert.Pre_finite_inputs.Facts]
    (a0 : FVec Ideal Cert.Pre_finite_inputs.S4096x256x7x7 .f32) (a1 : FVec Ideal Cert.Pre_finite_inputs.S12288x256x7x7 .f32)
    (a2 : FVec Ideal Cert.Pre_finite_inputs.S256x512 .f32) (a3 : FVec Ideal Cert.Pre_finite_inputs.S512x256 .f32)
    (a4 : FVec Ideal Cert.Pre_finite_inputs.S256x512 .f32) (a5 : FVec Ideal Cert.Pre_finite_inputs.S512x256 .f32)
    (a6 : FVec Ideal Cert.Pre_finite_inputs.S256x512 .f32) (a7 : FVec Ideal Cert.Pre_finite_inputs.S512x256 .f32)
    (a8 : FVec Ideal Cert.Pre_finite_inputs.S256x512 .f32) (a9 : FVec Ideal Cert.Pre_finite_inputs.S512x256 .f32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal))
      ∧ (∀ i, ∃ r : ℝ, a9 i = (r : EReal)) := by
  have h0 := congrFun h ValueIdx.ix0
  simp only [Cert.Pre_finite_inputs.fn, Cert.Pre_finite_inputs.fn_part1, Cert.Pre_finite_inputs.fn_part2, andi,
    IntOp.andi_eq_one] at h0
  obtain ⟨⟨⟨⟨⟨⟨⟨⟨⟨e0, e1⟩, e2⟩, e3⟩, e4⟩, e5⟩, e6⟩, e7⟩, e8⟩, e9⟩ := h0
  exact ⟨real_of_all _ _ _ a0 _ e0, real_of_all _ _ _ a1 _ e1, real_of_all _ _ _ a2 _ e2, real_of_all _ _ _ a3 _ e3,
    real_of_all _ _ _ a4 _ e4, real_of_all _ _ _ a5 _ e5, real_of_all _ _ _ a6 _ e6, real_of_all _ _ _ a7 _ e7,
    real_of_all _ _ _ a8 _ e8, real_of_all _ _ _ a9 _ e9⟩

end Cert.RefSide

end
-- ==== Proof.LibOnlineSoftmax.lean ====
/-
  The streaming softmax recurrence, read at the ideal instance.

  A row of real scores σ over a key set arrives tile by tile; beside it a column of real values w.  A streaming
  evaluation keeps three numbers: the largest score seen so far (m), the sum of exp (σ i - m) over the keys
  seen so far (l), and the sum of exp (σ i - m) * w i over them (a).  A new tile with largest score m' updates
      m ← max m m',   l ← exp (m - max m m') * l + Σ_tile exp (σ j - max m m'),   a ← likewise with the values,
  starting from (-∞, 0, 0), and the answer is a / l.  This file proves that after any set S of keys has been
  absorbed the three numbers are exactly  max_S σ,  Σ_S exp (σ i - max_S σ),  Σ_S exp (σ i - max_S σ) * w i,
  and that a / l is the softmax-weighted sum  Σ_S (exp (σ i - M) / Σ_S exp (σ - M)) * w i  — the form in which a
  reference that materialises the whole row computes it.

  The facts used: exp (M - M') * exp (x - M) = exp (x - M') (changing the reference point of the partial sums
  multiplies them by one common factor), additivity of a finite sum over a disjoint union, and on the extended
  reals exp (-∞) = 0, so the first tile's factor exp (-∞ - m') annihilates the (zero) initial sums.  Everything is
  stated twice: on ℝ, and for the extended-real operations of the ideal instance applied to real entries
  (subtraction, Ideal.exp, product, sum, maximum, supremum over a tile, Ideal.div), which is how a kernel's
  body and a host program spell them.
-/
import Idealize.ShloMosaic.PureOps.Ideal

noncomputable section

open Idealize.ShloMosaic

namespace Cert.Lib.OnlineSoftmax

variable {J ι : Type*}

/-! ## On the reals -/

/-- The partial normaliser: the sum over the keys in S of exp (σ i - M). -/
def lsum (S : Finset J) (σ : J → ℝ) (M : ℝ) : ℝ := ∑ i ∈ S, Real.exp (σ i - M)

/-- The partial weighted sum: the sum over the keys in S of exp (σ i - M) * w i. -/
def asum (S : Finset J) (σ w : J → ℝ) (M : ℝ) : ℝ := ∑ i ∈ S, Real.exp (σ i - M) * w i

/-- Moving the reference point from M to M' multiplies the normaliser by exp (M - M'). -/
theorem lsum_rebase (S : Finset J) (σ : J → ℝ) (M M' : ℝ) :
    Real.exp (M - M') * lsum S σ M = lsum S σ M' := by
  unfold lsum
  rw [Finset.mul_sum]
  refine Finset.sum_congr rfl fun i _ => ?_
  rw [← Real.exp_add]; congr 1; ring

/-- Moving the reference point from M to M' multiplies the weighted sum by the same factor. -/
theorem asum_rebase (S : Finset J) (σ w : J → ℝ) (M M' : ℝ) :
    Real.exp (M - M') * asum S σ w M = asum S σ w M' := by
  unfold asum
  rw [Finset.mul_sum]
  refine Finset.sum_congr rfl fun i _ => ?_
  rw [← mul_assoc, ← Real.exp_add]; congr 2; ring

theorem lsum_empty (σ : J → ℝ) (M : ℝ) : lsum (∅ : Finset J) σ M = 0 := Finset.sum_empty
theorem asum_empty (σ w : J → ℝ) (M : ℝ) : asum (∅ : Finset J) σ w M = 0 := Finset.sum_empty

theorem lsum_union [DecidableEq J] {S T : Finset J} (h : Disjoint S T) (σ : J → ℝ) (M : ℝ) :
    lsum (S ∪ T) σ M = lsum S σ M + lsum T σ M := Finset.sum_union h

theorem asum_union [DecidableEq J] {S T : Finset J} (h : Disjoint S T) (σ w : J → ℝ) (M : ℝ) :
    asum (S ∪ T) σ w M = asum S σ w M + asum T σ w M := Finset.sum_union h

/-- The normaliser of a nonempty key set is positive, whatever the reference point. -/
theorem lsum_pos {S : Finset J} (hS : S.Nonempty) (σ : J → ℝ) (M : ℝ) : 0 < lsum S σ M :=
  Finset.sum_pos (fun _ _ => Real.exp_pos _) hS

/-- The quotient of the two partial sums is the softmax-weighted sum of the values. -/
theorem quotient_eq_weighted (S : Finset J) (σ w : J → ℝ) (M : ℝ) :
    asum S σ w M / lsum S σ M = ∑ i ∈ S, Real.exp (σ i - M) / lsum S σ M * w i := by
  unfold asum
  rw [Finset.sum_div]
  exact Finset.sum_congr rfl fun i _ => by ring

/-- The quotient does not depend on the reference point (softmax is invariant under a common shift). -/
theorem quotient_rebase {S : Finset J} (σ w : J → ℝ) (M M' : ℝ) :
    asum S σ w M / lsum S σ M = asum S σ w M' / lsum S σ M' := by
  rw [← asum_rebase S σ w M M', ← lsum_rebase S σ M M', mul_div_mul_left _ _ (Real.exp_pos _).ne']

/-- The largest score of a union is the larger of the two largest scores. -/
theorem max_union [DecidableEq J] {S T : Finset J} (hS : S.Nonempty) (hT : T.Nonempty) (σ : J → ℝ) :
    max (S.sup' hS σ) (T.sup' hT σ) = (S ∪ T).sup' (hS.mono Finset.subset_union_left) σ :=
  (Finset.sup'_union hS hT σ).symm

/-! ## On the extended reals, for real entries -/

/-- The coercion of a finite sum of reals is the sum of the coercions. -/
theorem coe_sum {α : Type*} (t : Finset α) (f : α → ℝ) :
    ((∑ a ∈ t, f a : ℝ) : EReal) = ∑ a ∈ t, (f a : EReal) := by
  classical
  induction t using Finset.induction_on with
  | empty => simp
  | insert a t ha ih => rw [Finset.sum_insert ha, Finset.sum_insert ha, EReal.coe_add, ih]

/-- The ideal exponential of a difference of reals. -/
theorem exp_sub_coe (a b : ℝ) : Ideal.exp ((a : EReal) - (b : EReal)) = ((Real.exp (a - b) : ℝ) : EReal) := by
  rw [← EReal.coe_sub]; rfl

/-- From the initial state: exp (-∞ - M) is zero. -/
theorem exp_bot_sub (x : EReal) : Ideal.exp ((⊥ : EReal) - x) = 0 := by
  rw [EReal.bot_sub]; rfl

/-- The supremum over a whole (nonempty) tile of coerced reals is the coercion of their largest. -/
theorem sup_coe [Fintype ι] [Nonempty ι] (s : ι → ℝ) :
    (Finset.univ.sup fun j => (s j : EReal)) = ((Finset.univ.sup' Finset.univ_nonempty s : ℝ) : EReal) := by
  rw [← Finset.sup'_eq_sup Finset.univ_nonempty]
  exact (Finset.comp_sup'_eq_sup'_comp Finset.univ_nonempty (fun x : ℝ => (x : EReal))
    (fun x y => EReal.coe_strictMono.monotone.map_sup x y)).symm

/-- The same through an embedding of the tile into the key set. -/
theorem sup_coe_map [Fintype ι] [Nonempty ι] (e : ι ↪ J) (σ : J → ℝ) :
    (Finset.univ.sup fun j => (σ (e j) : EReal))
      = (((Finset.univ.map e).sup' (Finset.univ_nonempty.map) σ : ℝ) : EReal) := by
  rw [sup_coe (fun j => σ (e j)), Finset.sup'_map]; rfl

/-- The running maximum, first tile: the larger of -∞ and the tile's supremum. -/
theorem max_first [Fintype ι] [Nonempty ι] (e : ι ↪ J) (σ : J → ℝ) :
    max (⊥ : EReal) (Finset.univ.sup fun j => (σ (e j) : EReal))
      = (((Finset.univ.map e).sup' (Finset.univ_nonempty.map) σ : ℝ) : EReal) := by
  rw [sup_coe_map, max_eq_right bot_le]

/-- The running maximum, a later tile. -/
theorem max_next [DecidableEq J] [Fintype ι] [Nonempty ι] {S : Finset J} (hS : S.Nonempty) (e : ι ↪ J) (σ : J → ℝ) :
    max ((S.sup' hS σ : ℝ) : EReal) (Finset.univ.sup fun j => (σ (e j) : EReal))
      = (((S ∪ Finset.univ.map e).sup' (hS.mono Finset.subset_union_left) σ : ℝ) : EReal) := by
  rw [sup_coe_map, ← max_union hS (Finset.univ_nonempty.map) σ]
  exact (EReal.coe_strictMono.monotone.map_max).symm

/-- The tile's own sum of exponentials is the partial normaliser of the tile's keys. -/
theorem tile_lsum [Fintype ι] (e : ι ↪ J) (σ : J → ℝ) (M : ℝ) :
    ∑ j, Ideal.exp ((σ (e j) : EReal) - (M : EReal)) = ((lsum (Finset.univ.map e) σ M : ℝ) : EReal) := by
  rw [lsum, Finset.sum_map, coe_sum]
  exact Finset.sum_congr rfl fun j _ => exp_sub_coe _ _

/-- The tile's own weighted sum is the partial weighted sum of the tile's keys. -/
theorem tile_asum [Fintype ι] (e : ι ↪ J) (σ w : J → ℝ) (M : ℝ) :
    ∑ j, Ideal.exp ((σ (e j) : EReal) - (M : EReal)) * (w (e j) : EReal)
      = ((asum (Finset.univ.map e) σ w M : ℝ) : EReal) := by
  rw [asum, Finset.sum_map, coe_sum]
  exact Finset.sum_congr rfl fun j _ => by rw [exp_sub_coe, EReal.coe_mul]

/-- First tile, the normaliser: from (-∞, 0) the update leaves the tile's partial normaliser. -/
theorem lsum_first [Fintype ι] (e : ι ↪ J) (σ : J → ℝ) (M : ℝ) :
    Ideal.exp ((⊥ : EReal) - (M : EReal)) * 0 + ∑ j, Ideal.exp ((σ (e j) : EReal) - (M : EReal))
      = ((lsum (Finset.univ.map e) σ M : ℝ) : EReal) := by
  rw [mul_zero, zero_add, tile_lsum]

/-- First tile, the weighted sum. -/
theorem asum_first [Fintype ι] (e : ι ↪ J) (σ w : J → ℝ) (M : ℝ) :
    Ideal.exp ((⊥ : EReal) - (M : EReal)) * 0 + ∑ j, Ideal.exp ((σ (e j) : EReal) - (M : EReal)) * (w (e j) : EReal)
      = ((asum (Finset.univ.map e) σ w M : ℝ) : EReal) := by
  rw [mul_zero, zero_add, tile_asum]

/-- A later tile, the normaliser: rescale what was kept to the new reference point and add the tile's share. -/
theorem lsum_next [DecidableEq J] [Fintype ι] (S : Finset J) (e : ι ↪ J) (h : Disjoint S (Finset.univ.map e))
    (σ : J → ℝ) (M M' : ℝ) :
    Ideal.exp ((M : EReal) - (M' : EReal)) * ((lsum S σ M : ℝ) : EReal)
        + ∑ j, Ideal.exp ((σ (e j) : EReal) - (M' : EReal))
      = ((lsum (S ∪ Finset.univ.map e) σ M' : ℝ) : EReal) := by
  rw [lsum_union h, ← lsum_rebase S σ M M', EReal.coe_add, EReal.coe_mul, exp_sub_coe, tile_lsum]

/-- A later tile, the weighted sum. -/
theorem asum_next [DecidableEq J] [Fintype ι] (S : Finset J) (e : ι ↪ J) (h : Disjoint S (Finset.univ.map e))
    (σ w : J → ℝ) (M M' : ℝ) :
    Ideal.exp ((M : EReal) - (M' : EReal)) * ((asum S σ w M : ℝ) : EReal)
        + ∑ j, Ideal.exp ((σ (e j) : EReal) - (M' : EReal)) * (w (e j) : EReal)
      = ((asum (S ∪ Finset.univ.map e) σ w M' : ℝ) : EReal) := by
  rw [asum_union h, ← asum_rebase S σ w M M', EReal.coe_add, EReal.coe_mul, exp_sub_coe, tile_asum]

/-- The closing division: the ideal quotient of the two kept numbers is the softmax-weighted sum. -/
theorem div_eq_weighted {S : Finset J} (hS : S.Nonempty) (σ w : J → ℝ) (M : ℝ) :
    Ideal.div ((asum S σ w M : ℝ) : EReal) ((lsum S σ M : ℝ) : EReal)
      = ((∑ i ∈ S, Real.exp (σ i - M) / lsum S σ M * w i : ℝ) : EReal) := by
  rw [Ideal.div_coe (lsum_pos hS σ M).ne', ← EReal.coe_mul, mul_one_div, quotient_eq_weighted]

/-- The whole-row form: each exponential divided by the normaliser, then the product with the value, summed. -/
theorem weighted_row {S : Finset J} (hS : S.Nonempty) (σ w : J → ℝ) (M : ℝ) :
    ∑ i ∈ S, Ideal.div (Ideal.exp ((σ i : EReal) - (M : EReal))) ((lsum S σ M : ℝ) : EReal) * (w i : EReal)
      = ((∑ i ∈ S, Real.exp (σ i - M) / lsum S σ M * w i : ℝ) : EReal) := by
  rw [coe_sum]
  refine Finset.sum_congr rfl fun i _ => ?_
  rw [exp_sub_coe, Ideal.div_coe (lsum_pos hS σ M).ne', ← EReal.coe_mul, ← EReal.coe_mul, mul_one_div]

/-- Streaming evaluation and whole-row evaluation of one output entry agree. -/
theorem streaming_eq_row {S : Finset J} (hS : S.Nonempty) (σ w : J → ℝ) (M : ℝ) :
    Ideal.div ((asum S σ w M : ℝ) : EReal) ((lsum S σ M : ℝ) : EReal)
      = ∑ i ∈ S, Ideal.div (Ideal.exp ((σ i : EReal) - (M : EReal))) ((lsum S σ M : ℝ) : EReal) * (w i : EReal) :=
  (div_eq_weighted hS σ w M).trans (weighted_row hS σ w M).symm

end Cert.Lib.OnlineSoftmax

end
-- ==== Proof.LibBlockedSum.lean ====
/-
  Sums over a range of indices cut into equal consecutive blocks, and the closed form of an accumulator
  that starts from a given value and adds one term per step. Nothing here is specific to one kernel: the
  statements are over an arbitrary additive commutative monoid, with two instances at literal extents.
-/
import Mathlib.Algebra.BigOperators.Fin
import Mathlib.Data.Fintype.BigOperators
import Mathlib.Logic.Equiv.Fin.Basic

open scoped BigOperators

namespace BlockedSum

/-- The position `b * bs + j` of offset `j` inside block `b`, of `nb` blocks of `bs` positions each, is below
    the total extent `nb * bs`. -/
theorem block_pos_lt {nb bs : ℕ} (b : Fin nb) (j : Fin bs) : b.val * bs + j.val < nb * bs :=
  calc b.val * bs + j.val < b.val * bs + bs := Nat.add_lt_add_left j.isLt _
    _ = (b.val + 1) * bs := (Nat.succ_mul _ _).symm
    _ ≤ nb * bs := Nat.mul_le_mul_right _ b.isLt

/-- A sum over `nb * bs` consecutive positions is the sum over the `nb` blocks of the sums inside each block:
    `∑ b, ∑ j, f (b * bs + j) = ∑ k, f k`, in any additive commutative monoid. -/
theorem sum_blocks {M : Type*} [AddCommMonoid M] {nb bs : ℕ} (f : Fin (nb * bs) → M) :
    ∑ b : Fin nb, ∑ j : Fin bs, f ⟨b.val * bs + j.val, block_pos_lt b j⟩ = ∑ k : Fin (nb * bs), f k := by
  rw [← Equiv.sum_comp (finProdFinEquiv (m := nb) (n := bs)) f, Fintype.sum_prod_type]
  refine Finset.sum_congr rfl fun b _ => Finset.sum_congr rfl fun j _ => congrArg f (Fin.ext ?_)
  show b.val * bs + j.val = j.val + bs * b.val
  rw [Nat.add_comm, Nat.mul_comm]

/-- The same with the summand given on natural numbers below the extent (the proof of the bound is irrelevant). -/
theorem sum_blocks' {M : Type*} [AddCommMonoid M] {nb bs : ℕ} (f : (k : ℕ) → k < nb * bs → M) :
    ∑ b : Fin nb, ∑ j : Fin bs, f (b.val * bs + j.val) (block_pos_lt b j) = ∑ k : Fin (nb * bs), f k.val k.isLt :=
  sum_blocks (fun k => f k.val k.isLt)

/-- Four blocks of 2048 make 8192: `∑ b : Fin 4, ∑ j : Fin 2048, f (b * 2048 + j) = ∑ k : Fin 8192, f k`. -/
theorem sum_blocks_4_2048 {M : Type*} [AddCommMonoid M] (f : Fin 8192 → M) :
    ∑ b : Fin 4, ∑ j : Fin 2048, f ⟨b.val * 2048 + j.val, by have := b.isLt; have := j.isLt; omega⟩ = ∑ k : Fin 8192, f k :=
  sum_blocks (nb := 4) (bs := 2048) f

/-- Two blocks of 2048 make 4096: `∑ b : Fin 2, ∑ j : Fin 2048, f (b * 2048 + j) = ∑ k : Fin 4096, f k`. -/
theorem sum_blocks_2_2048 {M : Type*} [AddCommMonoid M] (f : Fin 4096 → M) :
    ∑ b : Fin 2, ∑ j : Fin 2048, f ⟨b.val * 2048 + j.val, by have := b.isLt; have := j.isLt; omega⟩ = ∑ k : Fin 4096, f k :=
  sum_blocks (nb := 2) (bs := 2048) f

/-- The running form: a sequence that starts at `z` and adds `g t` at step `t`, for every step below `n`, is at
    step `n` the start plus the sum of the first `n` terms. -/
theorem running_sum_range {M : Type*} [AddCommMonoid M] (a g : ℕ → M) (z : M) (n : ℕ)
    (h0 : a 0 = z) (hs : ∀ t, t < n → a (t + 1) = a t + g t) : a n = z + ∑ t ∈ Finset.range n, g t := by
  induction n with
  | zero => rw [Finset.range_zero, Finset.sum_empty, add_zero, h0]
  | succ m ih =>
    rw [hs m (Nat.lt_succ_self m), ih fun t ht => hs t (Nat.lt_succ_of_lt ht), Finset.sum_range_succ, add_assoc]

/-- The same for every step, without a bound. -/
theorem running_sum_range_all {M : Type*} [AddCommMonoid M] (a g : ℕ → M) (z : M)
    (h0 : a 0 = z) (hs : ∀ t, a (t + 1) = a t + g t) (n : ℕ) : a n = z + ∑ t ∈ Finset.range n, g t :=
  running_sum_range a g z n h0 fun t _ => hs t

/-- The running form with the terms indexed by `Fin n`: a sequence that starts at `z` and adds `g t` at step
    `t : Fin n` is at step `n` the start plus the sum of all `n` terms. -/
theorem running_sum_fin {M : Type*} [AddCommMonoid M] {n : ℕ} (a : ℕ → M) (g : Fin n → M) (z : M)
    (h0 : a 0 = z) (hs : ∀ t : Fin n, a (t.val + 1) = a t.val + g t) : a n = z + ∑ t : Fin n, g t := by
  have h := running_sum_range a (fun t => if ht : t < n then g ⟨t, ht⟩ else 0) z n h0 fun t ht => by
    rw [dif_pos ht]; exact hs ⟨t, ht⟩
  rw [h, ← Fin.sum_univ_eq_sum_range (fun t => if ht : t < n then g ⟨t, ht⟩ else 0) n]
  exact congrArg (z + ·) (Finset.sum_congr rfl fun t _ => dif_pos t.isLt)

/-- An accumulator that starts at zero: the sum of the terms alone. -/
theorem running_sum_fin_zero {M : Type*} [AddCommMonoid M] {n : ℕ} (a : ℕ → M) (g : Fin n → M)
    (h0 : a 0 = 0) (hs : ∀ t : Fin n, a (t.val + 1) = a t.val + g t) : a n = ∑ t : Fin n, g t := by
  rw [running_sum_fin a g 0 h0 hs, zero_add]

end BlockedSum
-- ==== Proof.RefAlgebra.lean ====
/-
  The reference's arrangement of the cross-frame attention against the fused kernel's, over real data.

  The reference (plain array code) and the specification (the kernel's arrangement, proof/Proof/Spec.lean) differ in
  four places, and each is a law of real arithmetic that fails at the infinities of the extended reals, so every
  statement here assumes that the entries involved are (coercions of) real numbers:

  * the mean over the 49 spatial positions: the reference sums over the two spatial axes and divides by 49; the
    specification sums over one axis of 49 planes (plane s is position (s / 7, s % 7)) and multiplies by 1/49;
  * the softmax scale 6.25: the reference multiplies the inner product of query and key by it; the specification
    scales the query first. (Σ q k) · c = Σ (q · c) k;
  * the softmax: the reference subtracts the row maximum M before exponentiating and divides each weight by the
    row's sum before the product with the values; the specification divides the weighted sum of the plain
    exponentials by their plain sum. Σ_t (exp (σ_t - M) / Σ exp (σ - M)) v_t = (Σ_t exp σ_t v_t) / Σ_t exp σ_t;
  * the sum over the 12288 context rows is the sum over 48 blocks of 256 rows (row 256 b + j).

  Around them both sides apply the same functions (two linear maps with a rectifier between, the division of a
  row by the larger of its norm and a small constant), which preserve real-valuedness: a sum of squares of reals
  is a nonnegative real, its root a real, the larger of that and the positive constant a positive real.
-/
import Mathlib
import Idealize.ShloMosaic.PureOps.Ideal.Laws
import proofs.«136693_g50800873177169_feedfinal_599_15_alg».proof.Proof.Spec
import proofs.«136693_g50800873177169_feedfinal_599_15_alg».proof.Proof.LibOnlineSoftmax
import proofs.«136693_g50800873177169_feedfinal_599_15_alg».proof.Proof.LibBlockedSum

noncomputable section

namespace Cert.RefSide

open Idealize.ShloMosaic Cert.Spec
open Cert.Lib.OnlineSoftmax (coe_sum lsum asum)

/-! ## The constants -/

/-- The f32 word 0x42440000 denotes 49. -/
theorem ofBits_49 : Ideal.ofBits .f32 0x42440000#32 = ((49 : ℝ) : EReal) := by
  simp [Ideal.ofBits, Ideal.ieee]
  rw [← EReal.coe_mul]
  norm_num

/-- The small constant under the norm is a positive real. -/
theorem eps_pos_real : ∃ e : ℝ, 0 < e ∧ eps = (e : EReal) := by
  unfold eps
  simp [Ideal.ofBits, Ideal.ieee]
  exact ⟨9223372 * (2 ^ 63)⁻¹, by positivity, (EReal.coe_mul _ _).symm⟩

/-- The softmax scale is a real. -/
theorem scale_real : ∃ c : ℝ, scale = (c : EReal) := by
  unfold scale
  simp [Ideal.ofBits, Ideal.ieee]
  exact ⟨13107200 * (2 ^ 21)⁻¹, (EReal.coe_mul _ _).symm⟩

/-! ## Real entries are kept by sums, products, maxima -/

theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

theorem real_max {x y : EReal} (hx : ∃ r : ℝ, x = r) (hy : ∃ r : ℝ, y = r) : ∃ r : ℝ, max x y = r := by
  rcases le_total x y with h | h
  · rw [max_eq_right h]; exact hy
  · rw [max_eq_left h]; exact hx

theorem real_sum {κ : Type*} [Fintype κ] (g : κ → EReal) (h : ∀ k, ∃ r : ℝ, g k = r) : ∃ r : ℝ, ∑ k, g k = r := by
  choose g' hg' using h
  exact ⟨∑ k, g' k, by rw [coe_sum]; exact Finset.sum_congr rfl fun k _ => hg' k⟩

theorem real_zero : ∃ r : ℝ, (0 : EReal) = r := ⟨0, rfl⟩

/-- The ideal quotient of two reals, the divisor not zero, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-! ## The mean over the spatial positions -/

/-- The sum over the 7 × 7 positions is the sum over the 49 planes, plane s at (s / 7, s % 7). -/
theorem sum_positions {M : Type*} [AddCommMonoid M] (f : Fin 7 → Fin 7 → M) :
    ∑ a : Fin 7, ∑ b : Fin 7, f a b = ∑ s : Fin 49, f (posA s) (posB s) := by
  rw [← Equiv.sum_comp (finProdFinEquiv (m := 7) (n := 7)) (fun s : Fin 49 => f (posA s) (posB s)),
    Fintype.sum_prod_type]
  refine Finset.sum_congr rfl fun a _ => Finset.sum_congr rfl fun b _ => ?_
  have ha : posA (finProdFinEquiv (a, b)) = a := Fin.ext (by
    show (b.val + 7 * a.val) / 7 = a.val
    have := b.isLt; omega)
  have hb : posB (finProdFinEquiv (a, b)) = b := Fin.ext (by
    show (b.val + 7 * a.val) % 7 = b.val
    have := b.isLt; omega)
  rw [ha, hb]

/-- The reference's mean (sum over the two spatial axes from zero, divided by the word of 49) is the
    specification's (sum over the planes, times 1/49). No finiteness is needed: division by a nonzero real is
    the product with its reciprocal on all extended reals. -/
theorem pool_eq {R : ℕ} (x : Fin R → Fin 256 → Fin 7 → Fin 7 → EReal) (r : Fin R) (c : Fin 256) :
    Ideal.div (Ideal.ofBits .f32 0x00000000#32 + ∑ a : Fin 7, ∑ b : Fin 7, x r c a b) (Ideal.ofBits .f32 0x42440000#32)
      = pool x r c := by
  rw [Ideal.ofBits_zero_f32, zero_add, ofBits_49, Ideal.div_coe (by norm_num : (49 : ℝ) ≠ 0), sum_positions]
  rfl

/-! ## The stages keep real entries -/

theorem real_pool {R : ℕ} (x : Fin R → Fin 256 → Fin 7 → Fin 7 → EReal) (hx : ∀ r c a b, ∃ v : ℝ, x r c a b = v)
    (r : Fin R) (c : Fin 256) : ∃ v : ℝ, pool x r c = v :=
  real_mul (real_sum _ fun s => hx r c (posA s) (posB s)) ⟨_, rfl⟩

theorem real_mlp {R : ℕ} (x : Fin R → Fin 256 → EReal) (w1 : Fin 256 → Fin 512 → EReal) (w2 : Fin 512 → Fin 256 → EReal)
    (hx : ∀ r c, ∃ v : ℝ, x r c = v) (h1 : ∀ c j, ∃ v : ℝ, w1 c j = v) (h2 : ∀ j k, ∃ v : ℝ, w2 j k = v)
    (r : Fin R) (k : Fin 256) : ∃ v : ℝ, mlp x w1 w2 r k = v :=
  real_sum _ fun j => real_mul (real_max (real_sum _ fun c => real_mul (hx r c) (h1 c j)) real_zero) (h2 j k)

/-- A row of reals divided by the larger of its norm and the small constant is a row of reals: the sum of
    squares is a nonnegative real, its root a real, and the divisor at least the positive constant. -/
theorem real_l2n {R : ℕ} (y : Fin R → Fin 256 → EReal) (hy : ∀ r k, ∃ v : ℝ, y r k = v) (r : Fin R) (k : Fin 256) :
    ∃ v : ℝ, l2n y r k = v := by
  choose y' hy' using hy
  obtain ⟨e, he, hE⟩ := eps_pos_real
  have hs : ∑ k' : Fin 256, y r k' * y r k' = ((∑ k' : Fin 256, y' r k' * y' r k' : ℝ) : EReal) := by
    rw [coe_sum]; exact Finset.sum_congr rfl fun k' _ => by rw [hy', EReal.coe_mul]
  have h0 : ¬ (∑ k' : Fin 256, y' r k' * y' r k') < 0 :=
    not_lt.mpr (Finset.sum_nonneg fun k' _ => mul_self_nonneg _)
  have hmx : ∀ a b : ℝ, max (a : EReal) (b : EReal) = ((max a b : ℝ) : EReal) := fun a b =>
    (EReal.coe_strictMono.monotone.map_max).symm
  unfold l2n
  rw [hs, Ideal.sqrt_coe, if_neg h0, hE, hmx, hy',
    div_coe_coe _ (ne_of_gt (lt_of_lt_of_le he (le_max_right _ _)))]
  exact ⟨_, rfl⟩

/-! ## The scale through the inner product -/

/-- For real entries the scale moves from the inner product onto the query. -/
theorem score_scale {K : Type*} [Fintype K] (q κ : K → EReal) (c : EReal) (hq : ∀ k, ∃ r : ℝ, q k = r)
    (hκ : ∀ k, ∃ r : ℝ, κ k = r) (hc : ∃ r : ℝ, c = r) :
    (∑ k, q k * κ k) * c = ∑ k, (q k * c) * κ k := by
  choose q' hq' using hq
  choose κ' hκ' using hκ
  obtain ⟨c', rfl⟩ := hc
  have hl : ∑ k, q k * κ k = ((∑ k, q' k * κ' k : ℝ) : EReal) := by
    rw [coe_sum]; exact Finset.sum_congr rfl fun k _ => by rw [hq', hκ', EReal.coe_mul]
  have hr : ∑ k, (q k * (c' : EReal)) * κ k = ((∑ k, (q' k * c') * κ' k : ℝ) : EReal) := by
    rw [coe_sum]; exact Finset.sum_congr rfl fun k _ => by rw [hq', hκ', EReal.coe_mul, EReal.coe_mul]
  rw [hl, hr, ← EReal.coe_mul, Finset.sum_mul]
  exact congrArg _ (Finset.sum_congr rfl fun k _ => by ring)

/-! ## The softmax row -/

/-- One output entry over real scores σ and real values w: subtracting the row maximum (the larger of -∞ and the
    supremum) and normalising each weight before the product gives the quotient of the plain sums. -/
theorem softmax_row_real {T : Type*} [Fintype T] [Nonempty T] (σ w : T → ℝ) :
    ∑ t, Ideal.div (Ideal.exp ((σ t : EReal) - max (⊥ : EReal) (Finset.univ.sup fun t' => (σ t' : EReal))))
          (0 + ∑ t', Ideal.exp ((σ t' : EReal) - max (⊥ : EReal) (Finset.univ.sup fun t'' => (σ t'' : EReal))))
        * (w t : EReal)
      = Ideal.div (∑ t, Ideal.exp (σ t : EReal) * (w t : EReal)) (∑ t, Ideal.exp (σ t : EReal)) := by
  have hne : (Finset.univ : Finset T).Nonempty := Finset.univ_nonempty
  set M : ℝ := Finset.univ.sup' hne σ with hM
  have hmax : max (⊥ : EReal) (Finset.univ.sup fun t' => (σ t' : EReal)) = (M : EReal) := by
    rw [Cert.Lib.OnlineSoftmax.sup_coe, max_eq_right bot_le]
  have hl : ∀ m : ℝ, ∑ t', Ideal.exp ((σ t' : EReal) - (m : EReal)) = ((lsum Finset.univ σ m : ℝ) : EReal) := fun m => by
    rw [lsum, coe_sum]; exact Finset.sum_congr rfl fun t' _ => Cert.Lib.OnlineSoftmax.exp_sub_coe _ _
  have hlp : ∀ m : ℝ, lsum Finset.univ σ m ≠ 0 := fun m => (Cert.Lib.OnlineSoftmax.lsum_pos hne σ m).ne'
  rw [hmax, zero_add, hl M, Cert.Lib.OnlineSoftmax.weighted_row hne σ w M,
    ← Cert.Lib.OnlineSoftmax.quotient_eq_weighted, Cert.Lib.OnlineSoftmax.quotient_rebase σ w M 0,
    ← div_coe_coe _ (hlp 0)]
  have ha : ∑ t, Ideal.exp (σ t : EReal) * (w t : EReal) = ((asum Finset.univ σ w 0 : ℝ) : EReal) := by
    rw [asum, coe_sum]; exact Finset.sum_congr rfl fun t _ => by rw [sub_zero, EReal.coe_mul]; rfl
  have hd : ∑ t, Ideal.exp (σ t : EReal) = ((lsum Finset.univ σ 0 : ℝ) : EReal) := by
    rw [lsum, coe_sum]; exact Finset.sum_congr rfl fun t _ => by rw [sub_zero]; rfl
  rw [ha, hd]

/-- The same for extended-real rows whose entries are real. -/
theorem softmax_row {T : Type*} [Fintype T] [Nonempty T] (s v : T → EReal) (hs : ∀ t, ∃ r : ℝ, s t = r)
    (hv : ∀ t, ∃ r : ℝ, v t = r) :
    ∑ t, Ideal.div (Ideal.exp (s t - max (⊥ : EReal) (Finset.univ.sup fun t' => s t')))
          (0 + ∑ t', Ideal.exp (s t' - max (⊥ : EReal) (Finset.univ.sup fun t'' => s t''))) * v t
      = Ideal.div (∑ t, Ideal.exp (s t) * v t) (∑ t, Ideal.exp (s t)) := by
  choose σ hσ using hs
  choose w hw using hv
  obtain rfl : s = fun t => (σ t : EReal) := funext hσ
  obtain rfl : v = fun t => (w t : EReal) := funext hw
  exact softmax_row_real σ w

/-! ## The context rows in blocks -/

/-- The sum over the 12288 context rows is the sum over 48 blocks of 256 rows. -/
theorem sum_crow {M : Type*} [AddCommMonoid M] (f : Fin 12288 → M) :
    ∑ t : Fin 12288, f t = ∑ b : Fin 48, ∑ j : Fin 256, f (crow b j) := by
  rw [← BlockedSum.sum_blocks (nb := 48) (bs := 256) f]
  refine Finset.sum_congr rfl fun b _ => Finset.sum_congr rfl fun j _ => congrArg f (Fin.ext ?_)
  show b.val * 256 + j.val = 256 * b.val + j.val
  omega

/-! ## The reference's arrangement and the specification's -/

/-- The reference's logits: the inner product of the (unscaled) normalised query and key rows, times the scale. -/
def rscore {N T : ℕ} (Q : Fin N → Fin 256 → EReal) (K : Fin T → Fin 256 → EReal) (n : Fin N) (t : Fin T) : EReal :=
  (∑ k : Fin 256, Q n k * K t k) * scale

/-- The reference's attention rows: softmax of a row of logits (row maximum subtracted, each weight normalised)
    against the values. -/
def rattn {N T : ℕ} (s : Fin N → Fin T → EReal) (V : Fin T → Fin 256 → EReal) (n : Fin N) (d : Fin 256) : EReal :=
  ∑ t : Fin T, Ideal.div (Ideal.exp (s n t - max (⊥ : EReal) (Finset.univ.sup fun t' => s n t')))
      (0 + ∑ t' : Fin T, Ideal.exp (s n t' - max (⊥ : EReal) (Finset.univ.sup fun t'' => s n t''))) * V t d

section
variable (qw1 : Fin 256 → Fin 512 → EReal) (qw2 : Fin 512 → Fin 256 → EReal)
  (kw1 : Fin 256 → Fin 512 → EReal) (kw2 : Fin 512 → Fin 256 → EReal)
  (vw1 : Fin 256 → Fin 512 → EReal) (vw2 : Fin 512 → Fin 256 → EReal)
  (fw1 : Fin 256 → Fin 512 → EReal) (fw2 : Fin 512 → Fin 256 → EReal)
  (central : Fin 4096 → Fin 256 → Fin 7 → Fin 7 → EReal) (context : Fin 12288 → Fin 256 → Fin 7 → Fin 7 → EReal)

/-- The whole reference on the feature arrays, in its own arrangement. -/
def refOut (n : Fin 4096) (c : Fin 256) : EReal :=
  mlp (rattn (rscore (l2n (mlp (pool central) qw1 qw2)) (l2n (mlp (pool context) kw1 kw2)))
    (mlp (pool context) vw1 vw2)) fw1 fw2 n c

/-- For real inputs the reference's attention rows are the specification's. -/
theorem rattn_eq_attn
    (hq1 : ∀ c j, ∃ v : ℝ, qw1 c j = v) (hq2 : ∀ j k, ∃ v : ℝ, qw2 j k = v)
    (hk1 : ∀ c j, ∃ v : ℝ, kw1 c j = v) (hk2 : ∀ j k, ∃ v : ℝ, kw2 j k = v)
    (hv1 : ∀ c j, ∃ v : ℝ, vw1 c j = v) (hv2 : ∀ j k, ∃ v : ℝ, vw2 j k = v)
    (hc : ∀ r c a b, ∃ v : ℝ, central r c a b = v) (ht : ∀ r c a b, ∃ v : ℝ, context r c a b = v)
    (n : Fin 4096) (d : Fin 256) :
    rattn (rscore (l2n (mlp (pool central) qw1 qw2)) (l2n (mlp (pool context) kw1 kw2))) (mlp (pool context) vw1 vw2) n d
      = attn kw1 kw2 vw1 vw2 (planes context) (queryP qw1 qw2 (planes central)) n d := by
  have hQ : ∀ n k, ∃ v : ℝ, l2n (mlp (pool central) qw1 qw2) n k = v :=
    real_l2n _ (real_mlp _ _ _ (real_pool _ hc) hq1 hq2)
  have hK : ∀ t k, ∃ v : ℝ, l2n (mlp (pool context) kw1 kw2) t k = v :=
    real_l2n _ (real_mlp _ _ _ (real_pool _ ht) hk1 hk2)
  have hV : ∀ t d, ∃ v : ℝ, mlp (pool context) vw1 vw2 t d = v := real_mlp _ _ _ (real_pool _ ht) hv1 hv2
  -- the logits: the scale moves onto the query
  have hS : ∀ t, rscore (l2n (mlp (pool central) qw1 qw2)) (l2n (mlp (pool context) kw1 kw2)) n t
      = score kw1 kw2 (planes context) (queryP qw1 qw2 (planes central)) n t := fun t =>
    score_scale _ _ _ (hQ n) (hK t) scale_real
  have hSr : ∀ t, ∃ v : ℝ, rscore (l2n (mlp (pool central) qw1 qw2)) (l2n (mlp (pool context) kw1 kw2)) n t = v :=
    fun t => real_mul (real_sum _ fun k => real_mul (hQ n k) (hK t k)) scale_real
  unfold rattn
  rw [softmax_row _ _ hSr (fun t => hV t d), sum_crow, sum_crow]
  simp only [hS]
  rfl

/-- For real inputs the reference's result is the specification's. -/
theorem refOut_eq_out
    (hq1 : ∀ c j, ∃ v : ℝ, qw1 c j = v) (hq2 : ∀ j k, ∃ v : ℝ, qw2 j k = v)
    (hk1 : ∀ c j, ∃ v : ℝ, kw1 c j = v) (hk2 : ∀ j k, ∃ v : ℝ, kw2 j k = v)
    (hv1 : ∀ c j, ∃ v : ℝ, vw1 c j = v) (hv2 : ∀ j k, ∃ v : ℝ, vw2 j k = v)
    (hc : ∀ r c a b, ∃ v : ℝ, central r c a b = v) (ht : ∀ r c a b, ∃ v : ℝ, context r c a b = v)
    (n : Fin 4096) (c : Fin 256) :
    refOut qw1 qw2 kw1 kw2 vw1 vw2 fw1 fw2 central context n c
      = out qw1 qw2 kw1 kw2 vw1 vw2 fw1 fw2 central context n c := by
  unfold refOut out outOf
  rw [show rattn (rscore (l2n (mlp (pool central) qw1 qw2)) (l2n (mlp (pool context) kw1 kw2))) (mlp (pool context) vw1 vw2)
      = attn kw1 kw2 vw1 vw2 (planes context) (queryP qw1 qw2 (planes central)) from
    funext fun n => funext fun d => rattn_eq_attn qw1 qw2 kw1 kw2 vw1 vw2 central context hq1 hq2 hk1 hk2 hv1 hv2 hc ht n d]
end

end Cert.RefSide

end
-- ==== Proof.RefValueA.lean ====
/-
  The reference's first stages read at an index: the mean over the spatial positions, the two-layer embeddings
  of the pooled central and context features, and the rows divided by the larger of their norm and the small
  constant. Each stage of the printed reference, at a literal index (r, c), is the specification's function of the
  argument arrays at (r, c): the host's product is the sum over the contracted coordinate, its rectifier the
  maximum with the zero word, its sum over one axis the sum over that coordinate from the zero word.
-/
import proofs.«136693_g50800873177169_feedfinal_599_15_alg».proof.Proof.Gen.ReferenceIdeal.Read
import proofs.«136693_g50800873177169_feedfinal_599_15_alg».proof.Proof.RefAlgebra

noncomputable section

namespace Cert.RefSide

open Cert.ReferenceIdeal Cert.ReferenceIdeal.Gen Cert.ReferenceIdeal.Read Idealize.ShloMosaic Idealize.ShloMosaic.ValueIdx Cert.Spec

/-- Two rank-2 indices with the same coordinates are equal. -/
local macro "idx2" : tactic =>
  `(tactic| exact funext fun a => by match a with | ⟨0, _⟩ => rfl | ⟨1, _⟩ => rfl)

/-! ## The sum over the two spatial axes -/

/-- The host's sum over the last two axes of an [R, 256, 7, 7] array, at (r, c): the initial value plus the sum
    over the 7 × 7 positions of the entries (r, c, a, b) — the indices that drop to (r, c) are exactly those. -/
theorem hostSum_spatial {R : ℕ} {u : Shape} (h : (⟨4, ![R, 256, 7, 7]⟩ : Shape).ReducesTo [2, 3] ⟨2, ![R, 256]⟩)
    (x : FVec Ideal ⟨4, ![R, 256, 7, 7]⟩ .f32) (init : u.Idx → Ideal .f32) (hu : 0 < u.numel) (r : Fin R) (c : Fin 256) :
    Host.reduceAdd x init h hu (ix2 r c) = init (Shape.Idx.first hu) + ∑ a : Fin 7, ∑ b : Fin 7, x (ix4 r c a b) := by
  show Ideal.hostReduceAdd h x (init (Shape.Idx.first hu)) (ix2 r c) = _
  unfold Ideal.hostReduceAdd
  refine congrArg (init (Shape.Idx.first hu) + ·) ?_
  refine Eq.trans ?_ (Fintype.sum_prod_type' (fun a b : Fin 7 => x (ix4 r c a b)))
  -- the kept axes are the first two: a dropped index keeps the coordinates on axes 0 and 1
  have d0 : ∀ i : (⟨4, ![R, 256, 7, 7]⟩ : Shape).Idx, (h.drop i 0).val = (i 0).val := fun _ => rfl
  have d1 : ∀ i : (⟨4, ![R, 256, 7, 7]⟩ : Shape).Idx, (h.drop i 1).val = (i 1).val := fun _ => rfl
  have back : ∀ i ∈ Finset.univ.filter (fun i => h.drop i = ix2 r c), ix4 r c (i 2) (i 3) = i := by
    intro i hi
    have hj := (Finset.mem_filter.1 hi).2
    funext a
    apply Fin.ext
    match a with
    | ⟨0, _⟩ => show r.val = (i 0).val; rw [← d0 i, hj]; rfl
    | ⟨1, _⟩ => show c.val = (i 1).val; rw [← d1 i, hj]; rfl
    | ⟨2, _⟩ => rfl
    | ⟨3, _⟩ => rfl
  refine Finset.sum_nbij' (fun i => (i 2, i 3)) (fun p => ix4 r c p.1 p.2) ?_ ?_ back ?_ ?_
  · intro i _; exact Finset.mem_univ _
  · intro p _
    refine Finset.mem_filter.2 ⟨Finset.mem_univ _, ?_⟩
    funext b
    apply Fin.ext
    match b with
    | ⟨0, _⟩ => exact d0 _
    | ⟨1, _⟩ => exact d1 _
  · intro p _; rfl
  · intro i hi; exact congrArg x (back i hi).symm

/-! ## The pooled features -/

/-- The pooled central features at (r, c). -/
theorem stage_v2 (a0 : (⟨S4096x256x7x7, .f32⟩ : BufTy).Contents (Elt Ideal)) (r : Fin 4096) (c : Fin 256) :
    val_main_v2 (F := Ideal) a0 (ix2 r c) = pool (cur4 a0) r c := by
  rw [val_main_v2_apply, val_main_v1_apply, val_main_cst_0_apply]
  unfold val_main_v0
  rw [hostSum_spatial]
  exact pool_eq (cur4 a0) r c

/-- The pooled context features at (t, c). -/
theorem stage_v5 (a1 : (⟨S12288x256x7x7, .f32⟩ : BufTy).Contents (Elt Ideal)) (t : Fin 12288) (c : Fin 256) :
    val_main_v5 (F := Ideal) a1 (ix2 t c) = pool (cur4 a1) t c := by
  rw [val_main_v5_apply, val_main_v4_apply, val_main_cst_2_apply]
  unfold val_main_v3
  rw [hostSum_spatial]
  exact pool_eq (cur4 a1) t c

/-! ## The embeddings: linear, rectifier, linear -/

/-- The query embedding's hidden layer at (r, j). -/
theorem stage_v8 (a0 : (⟨S4096x256x7x7, .f32⟩ : BufTy).Contents (Elt Ideal)) (a2 : (⟨S256x512, .f32⟩ : BufTy).Contents (Elt Ideal)) (r : Fin 4096) (j : Fin 512) :
    val_main_v8 (F := Ideal) a0 a2 (ix2 r j) = max (∑ c : Fin 256, pool (cur4 a0) r c * cur2 a2 c j) 0 := by
  rw [val_main_v8_apply, val_main_v7_apply, val_main_cst_3_apply, val_main_v6_apply]
  have hsum : ∑ c : Fin 256, val_main_v2 (F := Ideal) a0 (lidx_main_v6 (ix2 r j) c) * a2 (ridx_main_v6 (ix2 r j) c)
      = ∑ c : Fin 256, pool (cur4 a0) r c * cur2 a2 c j :=
    Finset.sum_congr rfl fun c _ => by
      rw [show lidx_main_v6 (ix2 r j) c = ix2 r c by idx2, show ridx_main_v6 (ix2 r j) c = ix2 c j by idx2, stage_v2]
      rfl
  rw [hsum]
  exact congrArg (max _) Ideal.ofBits_zero_f32

/-- The query embedding at (r, k). -/
theorem stage_v9 (a0 : (⟨S4096x256x7x7, .f32⟩ : BufTy).Contents (Elt Ideal)) (a2 : (⟨S256x512, .f32⟩ : BufTy).Contents (Elt Ideal)) (a3 : (⟨S512x256, .f32⟩ : BufTy).Contents (Elt Ideal)) (r : Fin 4096) (k : Fin 256) :
    val_main_v9 (F := Ideal) a0 a2 a3 (ix2 r k) = mlp (pool (cur4 a0)) (cur2 a2) (cur2 a3) r k := by
  rw [val_main_v9_apply]
  refine Finset.sum_congr rfl fun j _ => ?_
  rw [show lidx_main_v9 (ix2 r k) j = ix2 r j by idx2, show ridx_main_v9 (ix2 r k) j = ix2 j k by idx2, stage_v8]
  rfl

/-- The key embedding's hidden layer at (t, j). -/
theorem stage_v20 (a1 : (⟨S12288x256x7x7, .f32⟩ : BufTy).Contents (Elt Ideal)) (a4 : (⟨S256x512, .f32⟩ : BufTy).Contents (Elt Ideal)) (t : Fin 12288) (j : Fin 512) :
    val_main_v20 (F := Ideal) a1 a4 (ix2 t j) = max (∑ c : Fin 256, pool (cur4 a1) t c * cur2 a4 c j) 0 := by
  rw [val_main_v20_apply, val_main_v19_apply, val_main_cst_6_apply, val_main_v18_apply]
  have hsum : ∑ c : Fin 256, val_main_v5 (F := Ideal) a1 (lidx_main_v18 (ix2 t j) c) * a4 (ridx_main_v18 (ix2 t j) c)
      = ∑ c : Fin 256, pool (cur4 a1) t c * cur2 a4 c j :=
    Finset.sum_congr rfl fun c _ => by
      rw [show lidx_main_v18 (ix2 t j) c = ix2 t c by idx2, show ridx_main_v18 (ix2 t j) c = ix2 c j by idx2, stage_v5]
      rfl
  rw [hsum]
  exact congrArg (max _) Ideal.ofBits_zero_f32

/-- The key embedding at (t, k). -/
theorem stage_v21 (a1 : (⟨S12288x256x7x7, .f32⟩ : BufTy).Contents (Elt Ideal)) (a4 : (⟨S256x512, .f32⟩ : BufTy).Contents (Elt Ideal)) (a5 : (⟨S512x256, .f32⟩ : BufTy).Contents (Elt Ideal)) (t : Fin 12288) (k : Fin 256) :
    val_main_v21 (F := Ideal) a1 a4 a5 (ix2 t k) = mlp (pool (cur4 a1)) (cur2 a4) (cur2 a5) t k := by
  rw [val_main_v21_apply]
  refine Finset.sum_congr rfl fun j _ => ?_
  rw [show lidx_main_v21 (ix2 t k) j = ix2 t j by idx2, show ridx_main_v21 (ix2 t k) j = ix2 j k by idx2, stage_v20]
  rfl

/-- The value embedding's hidden layer at (t, j). -/
theorem stage_v32 (a1 : (⟨S12288x256x7x7, .f32⟩ : BufTy).Contents (Elt Ideal)) (a6 : (⟨S256x512, .f32⟩ : BufTy).Contents (Elt Ideal)) (t : Fin 12288) (j : Fin 512) :
    val_main_v32 (F := Ideal) a1 a6 (ix2 t j) = max (∑ c : Fin 256, pool (cur4 a1) t c * cur2 a6 c j) 0 := by
  rw [val_main_v32_apply, val_main_v31_apply, val_main_cst_9_apply, val_main_v30_apply]
  have hsum : ∑ c : Fin 256, val_main_v5 (F := Ideal) a1 (lidx_main_v30 (ix2 t j) c) * a6 (ridx_main_v30 (ix2 t j) c)
      = ∑ c : Fin 256, pool (cur4 a1) t c * cur2 a6 c j :=
    Finset.sum_congr rfl fun c _ => by
      rw [show lidx_main_v30 (ix2 t j) c = ix2 t c by idx2, show ridx_main_v30 (ix2 t j) c = ix2 c j by idx2, stage_v5]
      rfl
  rw [hsum]
  exact congrArg (max _) Ideal.ofBits_zero_f32

/-- The value embedding at (t, d). -/
theorem stage_v33 (a1 : (⟨S12288x256x7x7, .f32⟩ : BufTy).Contents (Elt Ideal)) (a6 : (⟨S256x512, .f32⟩ : BufTy).Contents (Elt Ideal)) (a7 : (⟨S512x256, .f32⟩ : BufTy).Contents (Elt Ideal)) (t : Fin 12288) (d : Fin 256) :
    val_main_v33 (F := Ideal) a1 a6 a7 (ix2 t d) = mlp (pool (cur4 a1)) (cur2 a6) (cur2 a7) t d := by
  rw [val_main_v33_apply]
  refine Finset.sum_congr rfl fun j _ => ?_
  rw [show lidx_main_v33 (ix2 t d) j = ix2 t j by idx2, show ridx_main_v33 (ix2 t d) j = ix2 j d by idx2, stage_v32]
  rfl

/-! ## The normalised rows -/

/-- The normalised query rows (before the scale) at (r, k). -/
theorem stage_v17 (a0 : (⟨S4096x256x7x7, .f32⟩ : BufTy).Contents (Elt Ideal)) (a2 : (⟨S256x512, .f32⟩ : BufTy).Contents (Elt Ideal)) (a3 : (⟨S512x256, .f32⟩ : BufTy).Contents (Elt Ideal)) (r : Fin 4096) (k : Fin 256) :
    val_main_v17 (F := Ideal) a0 a2 a3 (ix2 r k) = l2n (mlp (pool (cur4 a0)) (cur2 a2) (cur2 a3)) r k := by
  rw [val_main_v17_apply, val_main_v16_apply, val_main_v15_apply, val_main_v14_apply, val_main_cst_5_apply,
    val_main_v13_apply, val_main_v12_apply, val_main_v11_apply, val_main_cst_4_apply, stage_v9]
  have hsum : ∑ k' : Fin 256, val_main_v10 (F := Ideal) a0 a2 a3 (idx_main_v11 (idx_main_v12 (idx_main_v16 (ix2 r k))) k')
      = ∑ k' : Fin 256, mlp (pool (cur4 a0)) (cur2 a2) (cur2 a3) r k' * mlp (pool (cur4 a0)) (cur2 a2) (cur2 a3) r k' :=
    Finset.sum_congr rfl fun k' _ => by
      rw [show idx_main_v11 (idx_main_v12 (idx_main_v16 (ix2 r k))) k' = ix2 r k' by idx2, val_main_v10_apply, stage_v9]
      rfl
  rw [hsum]
  show Ideal.div _ (max (Ideal.sqrt (Ideal.ofBits .f32 0x00000000#32 + _)) _) = _
  rw [Ideal.ofBits_zero_f32, zero_add]
  rfl

/-- The normalised key rows at (t, k). -/
theorem stage_v29 (a1 : (⟨S12288x256x7x7, .f32⟩ : BufTy).Contents (Elt Ideal)) (a4 : (⟨S256x512, .f32⟩ : BufTy).Contents (Elt Ideal)) (a5 : (⟨S512x256, .f32⟩ : BufTy).Contents (Elt Ideal)) (t : Fin 12288) (k : Fin 256) :
    val_main_v29 (F := Ideal) a1 a4 a5 (ix2 t k) = l2n (mlp (pool (cur4 a1)) (cur2 a4) (cur2 a5)) t k := by
  rw [val_main_v29_apply, val_main_v28_apply, val_main_v27_apply, val_main_v26_apply, val_main_cst_8_apply,
    val_main_v25_apply, val_main_v24_apply, val_main_v23_apply, val_main_cst_7_apply, stage_v21]
  have hsum : ∑ k' : Fin 256, val_main_v22 (F := Ideal) a1 a4 a5 (idx_main_v23 (idx_main_v24 (idx_main_v28 (ix2 t k))) k')
      = ∑ k' : Fin 256, mlp (pool (cur4 a1)) (cur2 a4) (cur2 a5) t k' * mlp (pool (cur4 a1)) (cur2 a4) (cur2 a5) t k' :=
    Finset.sum_congr rfl fun k' _ => by
      rw [show idx_main_v23 (idx_main_v24 (idx_main_v28 (ix2 t k))) k' = ix2 t k' by idx2, val_main_v22_apply, stage_v21]
      rfl
  rw [hsum]
  show Ideal.div _ (max (Ideal.sqrt (Ideal.ofBits .f32 0x00000000#32 + _)) _) = _
  rw [Ideal.ofBits_zero_f32, zero_add]
  rfl

end Cert.RefSide

end
-- ==== Proof.LibHostRowMax.lean ====
/-
  The host's maximum over one axis, read at the ideal instance.

  A reference that normalises a row of scores first takes the row's largest entry with a host reduction whose
  body is the maximum and whose initial value is the f32 word of -∞.  At the ideal instance that word is the
  bottom of the extended reals, the body is the lattice's maximum, and the reduction over ONE axis, read at a
  reduced index j, is the supremum over that axis's coordinates k of the operand at "j with k put back"
  (Shape.Reduces.lift).  Stated for any shapes; a certificate instantiates it at its literal ones and rewrites
  the lifted index into coordinates.
-/
import Idealize.ShloMosaic.PureOps.Ideal.Laws
import Idealize.ShloMosaic.PureOps.Reduce

noncomputable section

open Idealize.ShloMosaic

namespace Cert.Lib.HostRowMax

/-- The f32 word 0xFF800000 denotes -∞, the bottom of the extended reals. -/
theorem ofBits_negInf : Ideal.ofBits .f32 0xFF800000#32 = (⊥ : EReal) := by
  simp [Ideal.ofBits, Ideal.ieee]

/-- Folding the maximum from the bottom over a finite set is the supremum over it. -/
theorem fold_max_bot {β : Type*} (T : Finset β) (f : β → EReal) : T.fold max (⊥ : EReal) f = T.sup f := by
  classical
  induction T using Finset.induction_on with
  | empty => simp
  | insert b T hb ih => rw [Finset.fold_insert hb, Finset.sup_insert, ih]

/-- From -∞ the host's reduction with a maximum body over one axis, at the reduced index j, is the supremum over
    that axis of the operand. -/
theorem hostReduce_max {s t u : Shape} {a : Fin s.rank} (x : FVec Ideal s .f32) (h' : s.ReducesTo [a] t)
    (h : s.Reduces [a] t) (hu : 0 < u.numel) (j : t.Idx) :
    Host.reduce FloatOps.maximumf x (constant u .f32 0xFF800000#32) h' hu j
      = Finset.univ.sup fun k : Fin (s.size a) => x (h.lift j k) := by
  rw [Host.reduce_eq_fold_single FloatOps.maximumf x _ h' h hu]
  have hi : (constant (F := Ideal) u .f32 0xFF800000#32) (Shape.Idx.first hu) = (⊥ : EReal) := ofBits_negInf
  rw [hi]
  exact fold_max_bot Finset.univ (x ∘ h.lift j)

end Cert.Lib.HostRowMax

end
-- ==== Proof.RefValue.lean ====
/-
  The reference's attention stages read at an index, and the whole reference against the specification.

  From the normalised query and key rows the reference forms the logits (inner product, times 6.25), takes each
  row's maximum (a host reduction by maximum from -∞, then once more the maximum with -∞), exponentiates the
  differences, sums them along the row, divides, contracts the weights with the value rows, and applies the last
  two-layer embedding. Read index by index this is the function refOut of the argument arrays; for real inputs
  refOut is the specification's out (proof/Proof/RefAlgebra.lean).
-/
import proofs.«136693_g50800873177169_feedfinal_599_15_alg».proof.Proof.RefValueA
import proofs.«136693_g50800873177169_feedfinal_599_15_alg».proof.Proof.LibHostRowMax

noncomputable section

namespace Cert.RefSide

open Cert.ReferenceIdeal Cert.ReferenceIdeal.Gen Cert.ReferenceIdeal.Read Idealize.ShloMosaic Idealize.ShloMosaic.ValueIdx Cert.Spec

/-- Two rank-2 indices with the same coordinates are equal. -/
local macro "idx2" : tactic =>
  `(tactic| exact funext fun a => by match a with | ⟨0, _⟩ => rfl | ⟨1, _⟩ => rfl)
/-- The same when the coordinates agree as numbers. -/
local macro "idx2v" : tactic =>
  `(tactic| exact funext fun a => Fin.ext (by match a with | ⟨0, _⟩ => rfl | ⟨1, _⟩ => rfl))
/-- Two rank-1 indices with the same coordinate are equal. -/
local macro "idx1" : tactic =>
  `(tactic| exact funext fun a => by match a with | ⟨0, _⟩ => rfl)

/-- The reference's logits as a function of the argument arrays. -/
abbrev logits (a0 : (⟨S4096x256x7x7, .f32⟩ : BufTy).Contents (Elt Ideal)) (a1 : (⟨S12288x256x7x7, .f32⟩ : BufTy).Contents (Elt Ideal))
    (a2 : (⟨S256x512, .f32⟩ : BufTy).Contents (Elt Ideal)) (a3 : (⟨S512x256, .f32⟩ : BufTy).Contents (Elt Ideal))
    (a4 : (⟨S256x512, .f32⟩ : BufTy).Contents (Elt Ideal)) (a5 : (⟨S512x256, .f32⟩ : BufTy).Contents (Elt Ideal)) : Fin 4096 → Fin 12288 → EReal :=
  rscore (l2n (mlp (pool (cur4 a0)) (cur2 a2) (cur2 a3))) (l2n (mlp (pool (cur4 a1)) (cur2 a4) (cur2 a5)))

/-- The logit of query n against context row t. -/
theorem stage_v37 (a0 : (⟨S4096x256x7x7, .f32⟩ : BufTy).Contents (Elt Ideal)) (a1 : (⟨S12288x256x7x7, .f32⟩ : BufTy).Contents (Elt Ideal))
    (a2 : (⟨S256x512, .f32⟩ : BufTy).Contents (Elt Ideal)) (a3 : (⟨S512x256, .f32⟩ : BufTy).Contents (Elt Ideal))
    (a4 : (⟨S256x512, .f32⟩ : BufTy).Contents (Elt Ideal)) (a5 : (⟨S512x256, .f32⟩ : BufTy).Contents (Elt Ideal)) (n : Fin 4096) (t : Fin 12288) :
    val_main_v37 (F := Ideal) a0 a1 a2 a3 a4 a5 (ix2 n t) = logits a0 a1 a2 a3 a4 a5 n t := by
  rw [val_main_v37_apply, val_main_v36_apply, val_main_cst_10_apply, val_main_v35_apply]
  have hsum : ∑ k : Fin 256, val_main_v17 (F := Ideal) a0 a2 a3 (lidx_main_v35 (ix2 n t) k)
        * val_main_v34 (F := Ideal) a1 a4 a5 (ridx_main_v35 (ix2 n t) k)
      = ∑ k : Fin 256, l2n (mlp (pool (cur4 a0)) (cur2 a2) (cur2 a3)) n k * l2n (mlp (pool (cur4 a1)) (cur2 a4) (cur2 a5)) t k :=
    Finset.sum_congr rfl fun k _ => by
      rw [show lidx_main_v35 (ix2 n t) k = ix2 n k by idx2, show ridx_main_v35 (ix2 n t) k = ix2 k t by idx2,
        val_main_v34_apply, show idx_main_v34 (ix2 k t) = ix2 t k by idx2, stage_v17, stage_v29]
  rw [hsum]
  rfl

/-- The row maximum the host's reduction takes: the supremum of the row of logits. -/
theorem stage_v38 (a0 : (⟨S4096x256x7x7, .f32⟩ : BufTy).Contents (Elt Ideal)) (a1 : (⟨S12288x256x7x7, .f32⟩ : BufTy).Contents (Elt Ideal))
    (a2 : (⟨S256x512, .f32⟩ : BufTy).Contents (Elt Ideal)) (a3 : (⟨S512x256, .f32⟩ : BufTy).Contents (Elt Ideal))
    (a4 : (⟨S256x512, .f32⟩ : BufTy).Contents (Elt Ideal)) (a5 : (⟨S512x256, .f32⟩ : BufTy).Contents (Elt Ideal)) (n : Fin 4096) :
    val_main_v38 (F := Ideal) a0 a1 a2 a3 a4 a5 (ix1 n) = Finset.univ.sup fun t : Fin 12288 => logits a0 a1 a2 a3 a4 a5 n t := by
  unfold val_main_v38
  refine (Cert.Lib.HostRowMax.hostReduce_max (val_main_v37 (F := Ideal) a0 a1 a2 a3 a4 a5) reducesTo_S4096x12288_S4096_d1
    (by decide : S4096x12288.Reduces [1] S4096) h_S_ (ix1 n)).trans ?_
  refine congrArg Finset.univ.sup (funext fun t => ?_)
  refine (congrArg (val_main_v37 (F := Ideal) a0 a1 a2 a3 a4 a5) (?_ : _ = ix2 n t)).trans (stage_v37 a0 a1 a2 a3 a4 a5 n t)
  idx2v

/-- The shift the reference subtracts: the larger of -∞ and the row's supremum. -/
theorem stage_v40 (a0 : (⟨S4096x256x7x7, .f32⟩ : BufTy).Contents (Elt Ideal)) (a1 : (⟨S12288x256x7x7, .f32⟩ : BufTy).Contents (Elt Ideal))
    (a2 : (⟨S256x512, .f32⟩ : BufTy).Contents (Elt Ideal)) (a3 : (⟨S512x256, .f32⟩ : BufTy).Contents (Elt Ideal))
    (a4 : (⟨S256x512, .f32⟩ : BufTy).Contents (Elt Ideal)) (a5 : (⟨S512x256, .f32⟩ : BufTy).Contents (Elt Ideal)) (n : Fin 4096) :
    val_main_v40 (F := Ideal) a0 a1 a2 a3 a4 a5 (ix1 n)
      = max (⊥ : EReal) (Finset.univ.sup fun t : Fin 12288 => logits a0 a1 a2 a3 a4 a5 n t) := by
  rw [val_main_v40_apply, val_main_v39_apply, val_main_cst_12_apply, stage_v38]
  exact congrArg (fun z => max z _) Cert.Lib.HostRowMax.ofBits_negInf

/-- The exponential of a shifted logit. -/
theorem stage_v44 (a0 : (⟨S4096x256x7x7, .f32⟩ : BufTy).Contents (Elt Ideal)) (a1 : (⟨S12288x256x7x7, .f32⟩ : BufTy).Contents (Elt Ideal))
    (a2 : (⟨S256x512, .f32⟩ : BufTy).Contents (Elt Ideal)) (a3 : (⟨S512x256, .f32⟩ : BufTy).Contents (Elt Ideal))
    (a4 : (⟨S256x512, .f32⟩ : BufTy).Contents (Elt Ideal)) (a5 : (⟨S512x256, .f32⟩ : BufTy).Contents (Elt Ideal)) (n : Fin 4096) (t : Fin 12288) :
    val_main_v44 (F := Ideal) a0 a1 a2 a3 a4 a5 (ix2 n t)
      = Ideal.exp (logits a0 a1 a2 a3 a4 a5 n t
          - max (⊥ : EReal) (Finset.univ.sup fun t' : Fin 12288 => logits a0 a1 a2 a3 a4 a5 n t')) := by
  rw [val_main_v44_apply, val_main_v43_apply, val_main_v42_apply, val_main_v41_apply,
    show idx_main_v41 (idx_main_v42 (ix2 n t)) = ix1 n by idx1, stage_v40, stage_v37]
  rfl

/-- The row's sum of exponentials, from the zero word. -/
theorem stage_v45 (a0 : (⟨S4096x256x7x7, .f32⟩ : BufTy).Contents (Elt Ideal)) (a1 : (⟨S12288x256x7x7, .f32⟩ : BufTy).Contents (Elt Ideal))
    (a2 : (⟨S256x512, .f32⟩ : BufTy).Contents (Elt Ideal)) (a3 : (⟨S512x256, .f32⟩ : BufTy).Contents (Elt Ideal))
    (a4 : (⟨S256x512, .f32⟩ : BufTy).Contents (Elt Ideal)) (a5 : (⟨S512x256, .f32⟩ : BufTy).Contents (Elt Ideal)) (n : Fin 4096) :
    val_main_v45 (F := Ideal) a0 a1 a2 a3 a4 a5 (ix1 n)
      = 0 + ∑ t : Fin 12288, Ideal.exp (logits a0 a1 a2 a3 a4 a5 n t
          - max (⊥ : EReal) (Finset.univ.sup fun t' : Fin 12288 => logits a0 a1 a2 a3 a4 a5 n t')) := by
  rw [val_main_v45_apply, val_main_cst_13_apply]
  refine congr (congrArg _ Ideal.ofBits_zero_f32) (Finset.sum_congr rfl fun t _ => ?_)
  rw [show idx_main_v45 (ix1 n) t = ix2 n t by idx2, stage_v44]

/-- The attention row: the normalised weights against the value rows. -/
theorem stage_v49 (a0 : (⟨S4096x256x7x7, .f32⟩ : BufTy).Contents (Elt Ideal)) (a1 : (⟨S12288x256x7x7, .f32⟩ : BufTy).Contents (Elt Ideal))
    (a2 : (⟨S256x512, .f32⟩ : BufTy).Contents (Elt Ideal)) (a3 : (⟨S512x256, .f32⟩ : BufTy).Contents (Elt Ideal))
    (a4 : (⟨S256x512, .f32⟩ : BufTy).Contents (Elt Ideal)) (a5 : (⟨S512x256, .f32⟩ : BufTy).Contents (Elt Ideal))
    (a6 : (⟨S256x512, .f32⟩ : BufTy).Contents (Elt Ideal)) (a7 : (⟨S512x256, .f32⟩ : BufTy).Contents (Elt Ideal)) (n : Fin 4096) (d : Fin 256) :
    val_main_v49 (F := Ideal) a0 a1 a2 a3 a4 a5 a6 a7 (ix2 n d)
      = rattn (logits a0 a1 a2 a3 a4 a5) (mlp (pool (cur4 a1)) (cur2 a6) (cur2 a7)) n d := by
  rw [val_main_v49_apply]
  refine Finset.sum_congr rfl fun t _ => ?_
  rw [show lidx_main_v49 (ix2 n d) t = ix2 n t by idx2, show ridx_main_v49 (ix2 n d) t = ix2 t d by idx2,
    val_main_v48_apply, val_main_v47_apply, val_main_v46_apply,
    show idx_main_v46 (idx_main_v47 (ix2 n t)) = ix1 n by idx1, stage_v45, stage_v44, stage_v33]
  rfl

/-- The last embedding's hidden layer at (n, j). -/
theorem stage_v52 (a0 : (⟨S4096x256x7x7, .f32⟩ : BufTy).Contents (Elt Ideal)) (a1 : (⟨S12288x256x7x7, .f32⟩ : BufTy).Contents (Elt Ideal))
    (a2 : (⟨S256x512, .f32⟩ : BufTy).Contents (Elt Ideal)) (a3 : (⟨S512x256, .f32⟩ : BufTy).Contents (Elt Ideal))
    (a4 : (⟨S256x512, .f32⟩ : BufTy).Contents (Elt Ideal)) (a5 : (⟨S512x256, .f32⟩ : BufTy).Contents (Elt Ideal))
    (a6 : (⟨S256x512, .f32⟩ : BufTy).Contents (Elt Ideal)) (a7 : (⟨S512x256, .f32⟩ : BufTy).Contents (Elt Ideal))
    (a8 : (⟨S256x512, .f32⟩ : BufTy).Contents (Elt Ideal)) (n : Fin 4096) (j : Fin 512) :
    val_main_v52 (F := Ideal) a0 a1 a2 a3 a4 a5 a6 a7 a8 (ix2 n j)
      = max (∑ d : Fin 256, rattn (logits a0 a1 a2 a3 a4 a5) (mlp (pool (cur4 a1)) (cur2 a6) (cur2 a7)) n d * cur2 a8 d j) 0 := by
  rw [val_main_v52_apply, val_main_v51_apply, val_main_cst_14_apply, val_main_v50_apply]
  have hsum : ∑ d : Fin 256, val_main_v49 (F := Ideal) a0 a1 a2 a3 a4 a5 a6 a7 (lidx_main_v50 (ix2 n j) d) * a8 (ridx_main_v50 (ix2 n j) d)
      = ∑ d : Fin 256, rattn (logits a0 a1 a2 a3 a4 a5) (mlp (pool (cur4 a1)) (cur2 a6) (cur2 a7)) n d * cur2 a8 d j :=
    Finset.sum_congr rfl fun d _ => by
      rw [show lidx_main_v50 (ix2 n j) d = ix2 n d by idx2, show ridx_main_v50 (ix2 n j) d = ix2 d j by idx2, stage_v49]
      rfl
  rw [hsum]
  exact congrArg (max _) Ideal.ofBits_zero_f32

/-- The reference's result at (n, c) is the reference-shaped function of the argument arrays. -/
theorem stage_v53 (a0 : (⟨S4096x256x7x7, .f32⟩ : BufTy).Contents (Elt Ideal)) (a1 : (⟨S12288x256x7x7, .f32⟩ : BufTy).Contents (Elt Ideal))
    (a2 : (⟨S256x512, .f32⟩ : BufTy).Contents (Elt Ideal)) (a3 : (⟨S512x256, .f32⟩ : BufTy).Contents (Elt Ideal))
    (a4 : (⟨S256x512, .f32⟩ : BufTy).Contents (Elt Ideal)) (a5 : (⟨S512x256, .f32⟩ : BufTy).Contents (Elt Ideal))
    (a6 : (⟨S256x512, .f32⟩ : BufTy).Contents (Elt Ideal)) (a7 : (⟨S512x256, .f32⟩ : BufTy).Contents (Elt Ideal))
    (a8 : (⟨S256x512, .f32⟩ : BufTy).Contents (Elt Ideal)) (a9 : (⟨S512x256, .f32⟩ : BufTy).Contents (Elt Ideal)) (n : Fin 4096) (c : Fin 256) :
    val_main_v53 (F := Ideal) a0 a1 a2 a3 a4 a5 a6 a7 a8 a9 (ix2 n c)
      = refOut (cur2 a2) (cur2 a3) (cur2 a4) (cur2 a5) (cur2 a6) (cur2 a7) (cur2 a8) (cur2 a9) (cur4 a0) (cur4 a1) n c := by
  rw [val_main_v53_apply]
  unfold refOut
  refine Finset.sum_congr rfl fun j _ => ?_
  rw [show lidx_main_v53 (ix2 n c) j = ix2 n j by idx2, show ridx_main_v53 (ix2 n c) j = ix2 j c by idx2, stage_v52]
  rfl

/-- For real inputs the reference's result is the specification's, index by index. -/
theorem ref_value (a0 : (⟨S4096x256x7x7, .f32⟩ : BufTy).Contents (Elt Ideal)) (a1 : (⟨S12288x256x7x7, .f32⟩ : BufTy).Contents (Elt Ideal))
    (a2 : (⟨S256x512, .f32⟩ : BufTy).Contents (Elt Ideal)) (a3 : (⟨S512x256, .f32⟩ : BufTy).Contents (Elt Ideal))
    (a4 : (⟨S256x512, .f32⟩ : BufTy).Contents (Elt Ideal)) (a5 : (⟨S512x256, .f32⟩ : BufTy).Contents (Elt Ideal))
    (a6 : (⟨S256x512, .f32⟩ : BufTy).Contents (Elt Ideal)) (a7 : (⟨S512x256, .f32⟩ : BufTy).Contents (Elt Ideal))
    (a8 : (⟨S256x512, .f32⟩ : BufTy).Contents (Elt Ideal)) (a9 : (⟨S512x256, .f32⟩ : BufTy).Contents (Elt Ideal))
    (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal))
    (h4 : ∀ i, ∃ r : ℝ, a4 i = (r : EReal)) (h5 : ∀ i, ∃ r : ℝ, a5 i = (r : EReal))
    (h6 : ∀ i, ∃ r : ℝ, a6 i = (r : EReal)) (h7 : ∀ i, ∃ r : ℝ, a7 i = (r : EReal))
    (h8 : ∀ i, ∃ r : ℝ, a8 i = (r : EReal)) (h9 : ∀ i, ∃ r : ℝ, a9 i = (r : EReal)) :
    val_main_v53 (F := Ideal) a0 a1 a2 a3 a4 a5 a6 a7 a8 a9
      = fun i => out (cur2 a2) (cur2 a3) (cur2 a4) (cur2 a5) (cur2 a6) (cur2 a7) (cur2 a8) (cur2 a9) (cur4 a0) (cur4 a1)
          (i 0) (i 1) := by
  funext i
  obtain ⟨n, c, rfl⟩ : ∃ (n : Fin 4096) (c : Fin 256), i = ix2 n c := ⟨i 0, i 1, eq_ix2 i⟩
  rw [stage_v53]
  exact refOut_eq_out _ _ _ _ _ _ _ _ _ _ (fun _ _ => h2 _) (fun _ _ => h3 _) (fun _ _ => h4 _) (fun _ _ => h5 _)
    (fun _ _ => h6 _) (fun _ _ => h7 _) (fun _ _ _ _ => h0 _) (fun _ _ _ _ => h1 _) n c

end Cert.RefSide

end
-- ==== Proof.lean ====
/-
  The certificate of the fused cross-frame attention kernel against its plain reference.

  The kernel runs two launches after four layout operations on the host. The first turns the central features into
  scaled, normalised queries, 512 rows per grid point. The second streams the context features in 48 blocks of 256 rows:
  per block it forms normalised keys and values, exponentiates the query–key products, and adds the weighted values and
  the weights themselves into two accumulators kept across the grid points; at the last point it divides and applies the
  final two linear maps. The reference forms the same queries, keys and values, and a row softmax of the scaled
  products. On the extended reals, from finite inputs, every intermediate is a real number, so the scale moves through
  the inner product, the softmax's shift by the row maximum cancels in the quotient, and the sum over the 12288 context
  rows is the sum over the 48 blocks: the two results are one function of the arguments, index by index.

  The three frames: each kernel program's is the run of its segments (host stretch, first launch, second launch) read
  at the argument arrays; the reference's is its run with the result dropped. The idealization's two recorded rewrites
  both name the literal 1/49.
-/
import proofs.«136693_g50800873177169_feedfinal_599_15_alg».proof.Defs
import proofs.«136693_g50800873177169_feedfinal_599_15_alg».proof.Proof.Gen.Kernel
import proofs.«136693_g50800873177169_feedfinal_599_15_alg».proof.Proof.Gen.KernelIdeal
import proofs.«136693_g50800873177169_feedfinal_599_15_alg».proof.Proof.Gen.ReferenceIdeal
import proofs.«136693_g50800873177169_feedfinal_599_15_alg».proof.Proof.Gen.ReferenceIdeal.Run
import proofs.«136693_g50800873177169_feedfinal_599_15_alg».proof.Proof.Gen.ReferenceIdeal.Read
import proofs.«136693_g50800873177169_feedfinal_599_15_alg».proof.Proof.Gen.Pre_finite_inputs
import proofs.«136693_g50800873177169_feedfinal_599_15_alg».proof.Proof.RunK
import proofs.«136693_g50800873177169_feedfinal_599_15_alg».proof.Proof.KernelValue
import proofs.«136693_g50800873177169_feedfinal_599_15_alg».proof.Proof.RefFinite
import proofs.«136693_g50800873177169_feedfinal_599_15_alg».proof.Proof.RefValue
import Idealize.ShloMosaic.Adequacy
import Idealize.ShloMosaic.Init

noncomputable section

namespace Cert.Proof

open Idealize.ShloMosaic Idealize.SL.Sem Cert.Spec

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both recorded rewrites name the literal of 1/49. -/
theorem preserves : Cert.preserves_Kernel_KernelIdeal :=
  ⟨IdealRules.named_const.statement Cert.KernelIdeal.κ "inv_49" .f32 0x3CA72F05#32 ((1 / 49 : ℝ) : EReal) rfl,
   IdealRules.named_const.statement Cert.KernelIdeal.κ "inv_49" .f32 0x3CA72F05#32 ((1 / 49 : ℝ) : EReal) rfl⟩

/-- Both programs end with the result array at `Spec.out` of the (agreeing) arguments. -/
theorem algebraic : Cert.algebraic_KernelIdeal_ReferenceIdeal := by
  intro m ρ m' ρ' hpre hagree
  refine ⟨fun c => fun i => Cert.Spec.out (cur2 (m ((c.tc : Thread Cert.KernelIdeal.nD Cert.KernelIdeal.τ).loc Cert.KernelIdeal.main_arg2))) (cur2 (m ((c.tc : Thread Cert.KernelIdeal.nD Cert.KernelIdeal.τ).loc Cert.KernelIdeal.main_arg3))) (cur2 (m ((c.tc : Thread Cert.KernelIdeal.nD Cert.KernelIdeal.τ).loc Cert.KernelIdeal.main_arg4))) (cur2 (m ((c.tc : Thread Cert.KernelIdeal.nD Cert.KernelIdeal.τ).loc Cert.KernelIdeal.main_arg5))) (cur2 (m ((c.tc : Thread Cert.KernelIdeal.nD Cert.KernelIdeal.τ).loc Cert.KernelIdeal.main_arg6))) (cur2 (m ((c.tc : Thread Cert.KernelIdeal.nD Cert.KernelIdeal.τ).loc Cert.KernelIdeal.main_arg7))) (cur2 (m ((c.tc : Thread Cert.KernelIdeal.nD Cert.KernelIdeal.τ).loc Cert.KernelIdeal.main_arg8))) (cur2 (m ((c.tc : Thread Cert.KernelIdeal.nD Cert.KernelIdeal.τ).loc Cert.KernelIdeal.main_arg9))) (cur4 (m ((c.tc : Thread Cert.KernelIdeal.nD Cert.KernelIdeal.τ).loc Cert.KernelIdeal.main_arg0))) (cur4 (m ((c.tc : Thread Cert.KernelIdeal.nD Cert.KernelIdeal.τ).loc Cert.KernelIdeal.main_arg1))) (i 0) (i 1), ?_, ?_⟩
  · exact (θ_run Cert.KernelIdeal.defs _ _).mono
      (fun r h c => ⟨(h c).1.trans (Cert.KernelIdeal.Hand.kernel_value m ρ c), (h c).2⟩)
      (Cert.KernelIdeal.Hand.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := Cert.RefSide.real_of_pre _ _ _ _ _ _ _ _ _ _ (hpre c)
    rw [Cert.ReferenceIdeal.Read.val_main_v53_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1, (hagree c).2.2.2.2.2.2.2.2.2]
    exact Cert.RefSide.ref_value _ _ _ _ _ _ _ _ _ _ h0 h1 h2 h3 h4 h5 h6 h7 h8 h9

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
